-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v78)) (v2 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_v77) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_v104) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S8x64 : Shape := ⟨2, ![8, 64]⟩
abbrev S2x2000000 : Shape := ⟨2, ![2, 2000000]⟩
abbrev S2000000 : Shape := ⟨1, ![2000000]⟩
abbrev S16x64 : Shape := ⟨2, ![16, 64]⟩
abbrev S100000 : Shape := ⟨1, ![100000]⟩
abbrev S8x8 : Shape := ⟨2, ![8, 8]⟩
abbrev S8 : Shape := ⟨1, ![8]⟩
abbrev S16x16 : Shape := ⟨2, ![16, 16]⟩
abbrev S16 : Shape := ⟨1, ![16]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S8x64 : S_.BroadcastsInDim S8x64 (![] : Fin 0 → Fin S8x64.rank)
  reducesTo_S8x64_S_d0_1 : S8x64.ReducesTo [0, 1] S_
  bcast_S_S2000000 : S_.BroadcastsInDim S2000000 (![] : Fin 0 → Fin S2000000.rank)
  reducesTo_S2000000_S_d0 : S2000000.ReducesTo [0] S_
  bcast_S_S16x64 : S_.BroadcastsInDim S16x64 (![] : Fin 0 → Fin S16x64.rank)
  reducesTo_S16x64_S_d0_1 : S16x64.ReducesTo [0, 1] S_
  bcast_S_S8x8 : S_.BroadcastsInDim S8x8 (![] : Fin 0 → Fin S8x8.rank)
  reducesTo_S8x8_S_d0_1 : S8x8.ReducesTo [0, 1] S_
  bcast_S_S8 : S_.BroadcastsInDim S8 (![] : Fin 0 → Fin S8.rank)
  reducesTo_S8_S_d0 : S8.ReducesTo [0] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg16 : FVec F S64x64 .f32) (main_arg17 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg16
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg17
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg12 : FVec F S16x16 .f32) (main_arg13 : FVec F S16 .f32) (main_arg14 : FVec F S64x64 .f32) (main_arg15 : FVec F S64 .f32) (main_arg16 : FVec F S64x64 .f32) (main_arg17 : FVec F S64 .f32) (main_v33 : IVec S_ 1) : IVec S_ 1 :=
  let main_v34 : FVec F S16x16 .f32 := Host.absf main_arg12
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg13
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S64x64 .f32 := Host.absf main_arg14
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg15
  let main_cst_18 : FVec F S_ .f32 := constant S_ .f32 0x7F800000#32
  let main_v50 : FVec F S64 .f32 := broadcastInDim S64 ![] bcast_S_S64 main_cst_18
  fn_part3 (F := F) main_arg16 main_arg17 main_v48 main_v49 main_v50

def fn_part1 {F : FTy → Type} [FloatOps F] (main_arg8 : FVec F S16x64 .f32) (main_arg10 : FVec F S8x8 .f32) (main_arg11 : FVec F S8 .f32) (main_arg12 : FVec F S16x16 .f32) (main_arg13 : FVec F S16 .f32) (main_arg14 : FVec F S64x64 .f32) (main_arg15 : FVec F S64 .f32) (main_arg16 : FVec F S64x64 .f32) (main_arg17 : FVec F S64 .f32) (main_v13 : IVec S_ 1) (main_v16 : IVec S2000000 1) : IVec S_ 1 :=
  let main_c_5 : IVec S_ 1 := constantI S_ 1 1#1
  let main_v17 : IVec S_ 1 := (fun x v => Host.reduce IntOp.andi x v reducesTo_S2000000_S_d0 h_S_) main_v16 main_c_5
  let main_v18 : IVec S_ 1 := andi main_v13 main_v17
  let main_v19 : FVec F S16x64 .f32 := Host.absf main_arg8
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S8x8 .f32 := Host.absf main_arg10
  let main_cst_8 : FVec F S_ .f32 := constant S_ .f32 0x7F800000#32
  let main_v25 : FVec F S8x8 .f32 := broadcastInDim S8x8 ![] bcast_S_S8x8 main_cst_8
  let main_v26 : IVec S8x8 1 := cmpf .olt main_v24 main_v25
  let main_c_9 : IVec S_ 1 := constantI S_ 1 1#1
  let main_v27 : IVec S_ 1 := (fun x v => Host.reduce IntOp.andi x v reducesTo_S8x8_S_d0_1 h_S_) main_v26 main_c_9
  let main_v28 : IVec S_ 1 := andi main_v23 main_v27
  let main_v29 : FVec F S8 .f32 := Host.absf main_arg11
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg12 main_arg13 main_arg14 main_arg15 main_arg16 main_arg17 main_v33

def fn {F : FTy → Type} [FloatOps F] (main_arg0 : FVec F S100000x64 .f32) (main_arg1 : FVec F S50000x64 .f32) (main_arg2 : FVec F S8x64 .f32) (main_arg3 : IVec S2x2000000 32) (main_arg4 : IVec S2000000 32) (main_arg5 : IVec S2000000 32) (main_arg6 : IVec S2000000 32) (main_arg7 : FVec F S2000000 .f32) (main_arg8 : FVec F S16x64 .f32) (main_arg9 : IVec S100000 32) (main_arg10 : FVec F S8x8 .f32) (main_arg11 : FVec F S8 .f32) (main_arg12 : FVec F S16x16 .f32) (main_arg13 : FVec F S16 .f32) (main_arg14 : FVec F S64x64 .f32) (main_arg15 : FVec F S64 .f32) (main_arg16 : FVec F S64x64 .f32) (main_arg17 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S8x64 .f32 := Host.absf main_arg2
  let main_cst_2 : FVec F S_ .f32 := constant S_ .f32 0x7F800000#32
  let main_v10 : FVec F S8x64 .f32 := broadcastInDim S8x64 ![] bcast_S_S8x64 main_cst_2
  let main_v11 : IVec S8x64 1 := cmpf .olt main_v9 main_v10
  let main_c_3 : IVec S_ 1 := constantI S_ 1 1#1
  let main_v12 : IVec S_ 1 := (fun x v => Host.reduce IntOp.andi x v reducesTo_S8x64_S_d0_1 h_S_) main_v11 main_c_3
  let main_v13 : IVec S_ 1 := andi main_v8 main_v12
  let main_v14 : FVec F S2000000 .f32 := Host.absf main_arg7
  let main_cst_4 : FVec F S_ .f32 := constant S_ .f32 0x7F800000#32
  let main_v15 : FVec F S2000000 .f32 := broadcastInDim S2000000 ![] bcast_S_S2000000 main_cst_4
  let main_v16 : IVec S2000000 1 := cmpf .olt main_v14 main_v15
  fn_part1 (F := F) main_arg8 main_arg10 main_arg11 main_arg12 main_arg13 main_arg14 main_arg15 main_arg16 main_arg17 main_v13 main_v16
-- ==== Kernel.lean ====
abbrev S100000x64 : Shape := ⟨2, ![100000, 64]⟩
abbrev S50000x64 : Shape := ⟨2, ![50000, 64]⟩
abbrev S8x64 : Shape := ⟨2, ![8, 64]⟩
abbrev S2x2000000 : Shape := ⟨2, ![2, 2000000]⟩
abbrev S2000000 : Shape := ⟨1, ![2000000]⟩
abbrev S16x64 : Shape := ⟨2, ![16, 64]⟩
abbrev S100000 : Shape := ⟨1, ![100000]⟩
abbrev S8x8 : Shape := ⟨2, ![8, 8]⟩
abbrev S8 : Shape := ⟨1, ![8]⟩
abbrev S16x16 : Shape := ⟨2, ![16, 16]⟩
abbrev S16 : Shape := ⟨1, ![16]⟩
abbrev S64x64 : Shape := ⟨2, ![64, 64]⟩
abbrev S64 : Shape := ⟨1, ![64]⟩
abbrev S1x2000000 : Shape := ⟨2, ![1, 2000000]⟩
abbrev S_ : Shape := ⟨0, ![]⟩
abbrev S2000000x1 : Shape := ⟨2, ![2000000, 1]⟩
abbrev S2000000x64 : Shape := ⟨2, ![2000000, 64]⟩
abbrev S100000x1 : Shape := ⟨2, ![100000, 1]⟩
abbrev S5000x64 : Shape := ⟨2, ![5000, 64]⟩
abbrev S5000x1 : Shape := ⟨2, ![5000, 1]⟩
abbrev S1x64 : Shape := ⟨2, ![1, 64]⟩
abbrev S64x16 : Shape := ⟨2, ![64, 16]⟩
abbrev S8x16 : Shape := ⟨2, ![8, 16]⟩
abbrev S1x16 : Shape := ⟨2, ![1, 16]⟩
abbrev S8x1 : Shape := ⟨2, ![8, 1]⟩
abbrev S64x8 : Shape := ⟨2, ![64, 8]⟩
abbrev S5000x8 : Shape := ⟨2, ![5000, 8]⟩
abbrev S1x8 : Shape := ⟨2, ![1, 8]⟩
abbrev S5000 : Shape := ⟨1, ![5000]⟩

abbrev nBuf : Space → Nat
  | .hbm => 118
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S8x64, .f32⟩
  | .hbm, ⟨3, _⟩ => ⟨S2x2000000, .i32⟩
  | .hbm, ⟨4, _⟩ => ⟨S2000000, .i32⟩
  | .hbm, ⟨5, _⟩ => ⟨S2000000, .i32⟩
  | .hbm, ⟨6, _⟩ => ⟨S2000000, .i32⟩
  | .hbm, ⟨7, _⟩ => ⟨S2000000, .f32⟩
  | .hbm, ⟨8, _⟩ => ⟨S16x64, .f32⟩
  | .hbm, ⟨9, _⟩ => ⟨S100000, .i32⟩
  | .hbm, ⟨10, _⟩ => ⟨S8x8, .f32⟩
  | .hbm, ⟨11, _⟩ => ⟨S8, .f32⟩
  | .hbm, ⟨12, _⟩ => ⟨S16x16, .f32⟩
  | .hbm, ⟨13, _⟩ => ⟨S16, .f32⟩
  | .hbm, ⟨14, _⟩ => ⟨S64x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S1x2000000, .i32⟩
  | .hbm, ⟨19, _⟩ => ⟨S2000000, .i32⟩
  | .hbm, ⟨20, _⟩ => ⟨S1x2000000, .i32⟩
  | .hbm, ⟨21, _⟩ => ⟨S2000000, .i32⟩
  | .hbm, ⟨22, _⟩ => ⟨S_, .i32⟩
  | .hbm, ⟨23, _⟩ => ⟨S2000000, .i32⟩
  | .hbm, ⟨24, _⟩ => ⟨S2000000, .i1⟩
  | .hbm, ⟨25, _⟩ => ⟨S_, .i32⟩
  | .hbm, ⟨26, _⟩ => ⟨S2000000, .i32⟩
  | .hbm, ⟨27, _⟩ => ⟨S2000000, .i32⟩
  | .hbm, ⟨28, _⟩ => ⟨S2000000, .i32⟩
  | .hbm, ⟨29, _⟩ => ⟨S2000000x1, .i32⟩
  | .hbm, ⟨30, _⟩ => ⟨S2000000x64, .f32⟩
  | .hbm, ⟨31, _⟩ => ⟨S_, .i32⟩
  | .hbm, ⟨32, _⟩ => ⟨S2000000, .i32⟩
  | .hbm, ⟨33, _⟩ => ⟨S2000000, .i32⟩
  | .hbm, ⟨34, _⟩ => ⟨S_, .i32⟩
  | .hbm, ⟨35, _⟩ => ⟨S2000000, .i32⟩
  | .hbm, ⟨36, _⟩ => ⟨S2000000, .i1⟩
  | .hbm, ⟨37, _⟩ => ⟨S_, .i32⟩
  | .hbm, ⟨38, _⟩ => ⟨S2000000, .i32⟩
  | .hbm, ⟨39, _⟩ => ⟨S2000000, .i32⟩
  | .hbm, ⟨40, _⟩ => ⟨S2000000, .i32⟩
  | .hbm, ⟨41, _⟩ => ⟨S2000000x1, .i32⟩
  | .hbm, ⟨42, _⟩ => ⟨S2000000x64, .f32⟩
  | .hbm, ⟨43, _⟩ => ⟨S2000000x64, .f32⟩
  | .hbm, ⟨44, _⟩ => ⟨S_, .f32⟩
  | .hbm, ⟨45, _⟩ => ⟨S100000x64, .f32⟩
  | .hbm, ⟨46, _⟩ => ⟨S2000000x1, .i32⟩
  | .hbm, ⟨47, _⟩ => ⟨S100000x64, .f32⟩
  | .hbm, ⟨48, _⟩ => ⟨S_, .f32⟩
  | .hbm, ⟨49, _⟩ => ⟨S2000000, .f32⟩
  | .hbm, ⟨50, _⟩ => ⟨S_, .f32⟩
  | .hbm, ⟨51, _⟩ => ⟨S100000, .f32⟩
  | .hbm, ⟨52, _⟩ => ⟨S2000000x1, .i32⟩
  | .hbm, ⟨53, _⟩ => ⟨S100000, .f32⟩
  | .hbm, ⟨54, _⟩ => ⟨S100000x1, .f32⟩
  | .hbm, ⟨55, _⟩ => ⟨S100000x64, .f32⟩
  | .hbm, ⟨56, _⟩ => ⟨S2000000x1, .f32⟩
  | .hbm, ⟨57, _⟩ => ⟨S_, .i32⟩
  | .hbm, ⟨58, _⟩ => ⟨S2000000, .i32⟩
  | .hbm, ⟨59, _⟩ => ⟨S2000000, .i1⟩
  | .hbm, ⟨60, _⟩ => ⟨S_, .i32⟩
  | .hbm, ⟨61, _⟩ => ⟨S2000000, .i32⟩
  | .hbm, ⟨62, _⟩ => ⟨S2000000, .i32⟩
  | .hbm, ⟨63, _⟩ => ⟨S2000000, .i32⟩
  | .hbm, ⟨64, _⟩ => ⟨S2000000x1, .i32⟩
  | .hbm, ⟨65, _⟩ => ⟨S2000000x64, .f32⟩
  | .hbm, ⟨66, _⟩ => ⟨S2000000x64, .f32⟩
  | .hbm, ⟨67, _⟩ => ⟨S2000000x64, .f32⟩
  | .hbm, ⟨68, _⟩ => ⟨S_, .f32⟩
  | .hbm, ⟨69, _⟩ => ⟨S50000x64, .f32⟩
  | .hbm, ⟨70, _⟩ => ⟨S2000000x1, .i32⟩
  | .hbm, ⟨71, _⟩ => ⟨S50000x64, .f32⟩
  | .hbm, ⟨72, _⟩ => ⟨S64x64, .f32⟩
  | .hbm, ⟨73, _⟩ => ⟨S8x64, .f32⟩
  | .hbm, ⟨74, _⟩ => ⟨S1x64, .f32⟩
  | .hbm, ⟨75, _⟩ => ⟨S8x64, .f32⟩
  | .hbm, ⟨76, _⟩ => ⟨S8x64, .f32⟩
  | .hbm, ⟨77, _⟩ => ⟨S64x64, .f32⟩
  | .hbm, ⟨78, _⟩ => ⟨S8x64, .f32⟩
  | .hbm, ⟨79, _⟩ => ⟨S1x64, .f32⟩
  | .hbm, ⟨80, _⟩ => ⟨S8x64, .f32⟩
  | .hbm, ⟨81, _⟩ => ⟨S8x64, .f32⟩
  | .hbm, ⟨82, _⟩ => ⟨S64x64, .f32⟩
  | .hbm, ⟨83, _⟩ => ⟨S16x64, .f32⟩
  | .hbm, ⟨84, _⟩ => ⟨S1x64, .f32⟩
  | .hbm, ⟨85, _⟩ => ⟨S16x64, .f32⟩
  | .hbm, ⟨86, _⟩ => ⟨S16x64, .f32⟩
  | .hbm, ⟨87, _⟩ => ⟨S64x16, .f32⟩
  | .hbm, ⟨88, _⟩ => ⟨S8x16, .f32⟩
  | .hbm, ⟨89, _⟩ => ⟨S16x16, .f32⟩
  | .hbm, ⟨90, _⟩ => ⟨S8x16, .f32⟩
  | .hbm, ⟨91, _⟩ => ⟨S1x16, .f32⟩
  | .hbm, ⟨92, _⟩ => ⟨S8x16, .f32⟩
  | .hbm, ⟨93, _⟩ => ⟨S8x16, .f32⟩
  | .hbm, ⟨94, _⟩ => ⟨S_, .f32⟩
  | .hbm, ⟨95, _⟩ => ⟨S_, .f32⟩
  | .hbm, ⟨96, _⟩ => ⟨S8x16, .f32⟩
  | .hbm, ⟨97, _⟩ => ⟨S8x16, .i1⟩
  | .hbm, ⟨98, _⟩ => ⟨S_, .f32⟩
  | .hbm, ⟨99, _⟩ => ⟨S8x16, .f32⟩
  | .hbm, ⟨100, _⟩ => ⟨S8x16, .f32⟩
  | .hbm, ⟨101, _⟩ => ⟨S8x16, .f32⟩
  | .hbm, ⟨102, _⟩ => ⟨S_, .f32⟩
  | .hbm, ⟨103, _⟩ => ⟨S8, .f32⟩
  | .hbm, ⟨104, _⟩ => ⟨S_, .f32⟩
  | .hbm, ⟨105, _⟩ => ⟨S8, .f32⟩
  | .hbm, ⟨106, _⟩ => ⟨S8, .f32⟩
  | .hbm, ⟨107, _⟩ => ⟨S8x1, .f32⟩
  | .hbm, ⟨108, _⟩ => ⟨S8x16, .f32⟩
  | .hbm, ⟨109, _⟩ => ⟨S8x16, .f32⟩
  | .hbm, ⟨110, _⟩ => ⟨S8x16, .f32⟩
  | .hbm, ⟨111, _⟩ => ⟨S_, .f32⟩
  | .hbm, ⟨112, _⟩ => ⟨S8, .f32⟩
  | .hbm, ⟨113, _⟩ => ⟨S8x1, .f32⟩
  | .hbm, ⟨114, _⟩ => ⟨S8x16, .f32⟩
  | .hbm, ⟨115, _⟩ => ⟨S8x16, .f32⟩
  | .hbm, ⟨116, _⟩ => ⟨S8x64, .f32⟩
  | .hbm, ⟨117, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S8x64, .f32⟩
  | .local _ .vmem, ⟨11, _⟩ => ⟨S8x64, .f32⟩
  | .local _ .vmem, ⟨12, _⟩ => ⟨S64x64, .f32⟩
  | .local _ .vmem, ⟨13, _⟩ => ⟨S64, .f32⟩
  | .local _ .vmem, ⟨14, _⟩ => ⟨S8x8, .f32⟩
  | .local _ .vmem, ⟨15, _⟩ => ⟨S8, .f32⟩
  | .local _ .vmem, ⟨16, _⟩ => ⟨S5000x64, .f32⟩
  | .local _ .vmem, ⟨17, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_c_3 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_cst_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_9 : Ref sig .tc := ⟨.hbm, 94, rfl⟩
abbrev main_call0_cst : Ref sig .tc := ⟨.hbm, 95, rfl⟩
abbrev main_call0_v0 : Ref sig .tc := ⟨.hbm, 96, rfl⟩
abbrev main_call0_v1 : Ref sig .tc := ⟨.hbm, 97, rfl⟩
abbrev main_call0_v2 : Ref sig .tc := ⟨.hbm, 98, rfl⟩
abbrev main_call0_v3 : Ref sig .tc := ⟨.hbm, 99, rfl⟩
abbrev main_call0_v4 : Ref sig .tc := ⟨.hbm, 100, rfl⟩
abbrev main_v65 : Ref sig .tc := ⟨.hbm, 101, rfl⟩
abbrev main_cst_10 : Ref sig .tc := ⟨.hbm, 102, rfl⟩
abbrev main_v66 : Ref sig .tc := ⟨.hbm, 103, rfl⟩
abbrev main_cst_11 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_12 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S2000000x1_S2000000x64_0_1 : S2000000x1.BroadcastsInDim S2000000x64 (![0, 1] : Fin 2 → Fin S2000000x64.rank)
  bcast_S_S50000x64 : S_.BroadcastsInDim S50000x64 (![] : Fin 0 → Fin S50000x64.rank)
  transposes_S64x64_S64x64_1_0 : S64x64.Transposes [1, 0] S64x64
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S1x64_S16x64_0_1 : S1x64.BroadcastsInDim S16x64 (![0, 1] : Fin 2 → Fin S16x64.rank)
  transposes_S16x64_S64x16_1_0 : S16x64.Transposes [1, 0] S64x16
  transposes_S16x16_S16x16_1_0 : S16x16.Transposes [1, 0] S16x16
  bcast_S16_S1x16_1 : S16.BroadcastsInDim S1x16 (![1] : Fin 1 → Fin S1x16.rank)
  bcast_S1x16_S8x16_0_1 : S1x16.BroadcastsInDim S8x16 (![0, 1] : Fin 2 → Fin S8x16.rank)
  bcast_S_S8x16 : S_.BroadcastsInDim S8x16 (![] : Fin 0 → Fin S8x16.rank)
  reducesTo_S8x16_S8_d1 : S8x16.ReducesTo [1] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  bcast_S8x1_S8x16_0_1 : S8x1.BroadcastsInDim S8x16 (![0, 1] : Fin 2 → Fin S8x16.rank)
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S8x64_S8x64_0_0 : ∀ a, (![0, 0] : Fin 2 → Nat) a + S8x64.size a ≤ S8x64.size a
  h_S8x64 : 0 < S8x64.numel
  shapeCasts_S8x64_S8x64 : S8x64.ShapeCasts S8x64
  transposes_S8x64_p1_0_S64x8 : S8x64.Transposes [1, 0] S64x8
  inb_S8x8_S8x8_0_0 : ∀ a, (![0, 0] : Fin 2 → Nat) a + S8x8.size a ≤ S8x8.size a
  h_S8x8 : 0 < S8x8.numel
  transposes_S8x8_p1_0_S8x8 : S8x8.Transposes [1, 0] S8x8
  inb_S8_S8_0 : ∀ a, (![0] : Fin 1 → Nat) a + S8.size a ≤ S8.size a
  h_S8 : 0 < S8.numel
  shapeCasts_S8_S1x8 : S8.ShapeCasts S1x8
  broadcasts_S1x8_S5000x8 : S1x8.Broadcasts S5000x8
  reduces_S5000x8_S5000 : S5000x8.Reduces [1] S5000
  shapeCasts_S5000_S5000x1 : S5000.ShapeCasts S5000x1
  broadcasts_S5000x1_S5000x8 : S5000x1.Broadcasts S5000x8
  gather_S100000x64_S2000000x1_S2000000x64_1_0_n_n_0_1_164_wf : GatherDims.WF S100000x64 S2000000x1 S2000000x64 [1] [0] [] [0] [] 1 ![1, 64]
  gather_S16x64_S2000000x1_S2000000x64_1_0_n_n_0_1_164_wf : GatherDims.WF S16x64 S2000000x1 S2000000x64 [1] [0] [] [0] [] 1 ![1, 64]
  scatter_S100000x64_S2000000x1_S2000000x64_1_0_0_1_wf : ScatterDims.WF S100000x64 S2000000x1 S2000000x64 [1] [0] [0] 1
  scatter_S100000_S2000000x1_S2000000_n_0_0_1_wf : ScatterDims.WF S100000 S2000000x1 S2000000 [] [0] [0] 1
  scatter_S50000x64_S2000000x1_S2000000x64_1_0_0_1_wf : ScatterDims.WF S50000x64 S2000000x1 S2000000x64 [1] [0] [0] 1
  dot_S8x64_S64x64_S8x64_1_0_0_1_n_n_wf : DotDims.WF S8x64 S64x64 S8x64 [1] [0] [0] [1] [] []
  dot_S16x64_S64x64_S16x64_1_0_0_1_n_n_wf : DotDims.WF S16x64 S64x64 S16x64 [1] [0] [0] [1] [] []
  dot_S8x64_S64x16_S8x16_1_0_0_1_n_n_wf : DotDims.WF S8x64 S64x16 S8x16 [1] [0] [0] [1] [] []
  dot_S8x16_S16x16_S8x16_1_0_0_1_n_n_wf : DotDims.WF S8x16 S16x16 S8x16 [1] [0] [0] [1] [] []
  dot_S8x16_S16x64_S8x64_1_0_0_1_n_n_wf : DotDims.WF S8x16 S16x64 S8x64 [1] [0] [0] [1] [] []
  dot_S5000x64_S64x64_S5000x64_1_0_0_1_n_n_wf : DotDims.WF S5000x64 S64x64 S5000x64 [1] [0] [0] [1] [] []
  dot_S5000x64_S64x8_S5000x8_1_0_0_1_n_n_wf : DotDims.WF S5000x64 S64x8 S5000x8 [1] [0] [0] [1] [] []
  dot_S5000x8_S8x8_S5000x8_1_0_0_1_n_n_wf : DotDims.WF S5000x8 S8x8 S5000x8 [1] [0] [0] [1] [] []
  dot_S5000x8_S8x64_S5000x64_1_0_0_1_n_n_wf : DotDims.WF S5000x8 S8x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x64.size a ≤ S8x64.size a
  hwx1_2 : ∀ i : grid1.Coords, EltTy.bits .f32 = 32 ∨ (Rect.block (s := S8x64) S8x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x64.size a ≤ S8x64.size a
  hwx1_3 : ∀ i : grid1.Coords, EltTy.bits .f32 = 32 ∨ (Rect.block (s := S8x64) S8x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x8.size a ≤ S8x8.size a
  hwx1_6 : ∀ i : grid1.Coords, EltTy.bits .f32 = 32 ∨ (Rect.block (s := S8x8) S8x8.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S8.size a ≤ S8.size a
  hwx1_7 : ∀ i : grid1.Coords, EltTy.bits .f32 = 32 ∨ (Rect.block (s := S8) S8.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S50000x64.size a
  hwx1_8 : ∀ i : grid1.Coords, EltTy.bits .f32 = 32 ∨ (Rect.block (s := S50000x64) S5000x64.size (cc1_transform_8 i) (hinb1_8 i)).WholeWords (EltTy.packing .f32)

variable [Facts₀]

def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def gather_S16x64_S2000000x1_S2000000x64_1_0_n_n_0_1_164 : GatherDims S16x64 S2000000x1 S2000000x64 where
  offsetDims := [1]
  collapsedSliceDims := [0]
  operandBatchingDims := []
  startIndicesBatchingDims := []
  startIndexMap := [0]
  indexVectorDim := 1
  sliceSizes := ![1, 64]
  wf := gather_S16x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def dot_S8x64_S64x64_S8x64_1_0_0_1_n_n : DotDims S8x64 S64x64 S8x64 where
  lhsContracting := [1]
  rhsContracting := [0]
  lhsNonContracting := [0]
  rhsNonContracting := [1]
  lhsBatch := []
  rhsBatch := []
  wf := dot_S8x64_S64x64_S8x64_1_0_0_1_n_n_wf
def dot_S16x64_S64x64_S16x64_1_0_0_1_n_n : DotDims S16x64 S64x64 S16x64 where
  lhsContracting := [1]
  rhsContracting := [0]
  lhsNonContracting := [0]
  rhsNonContracting := [1]
  lhsBatch := []
  rhsBatch := []
  wf := dot_S16x64_S64x64_S16x64_1_0_0_1_n_n_wf
def dot_S8x64_S64x16_S8x16_1_0_0_1_n_n : DotDims S8x64 S64x16 S8x16 where
  lhsContracting := [1]
  rhsContracting := [0]
  lhsNonContracting := [0]
  rhsNonContracting := [1]
  lhsBatch := []
  rhsBatch := []
  wf := dot_S8x64_S64x16_S8x16_1_0_0_1_n_n_wf
def dot_S8x16_S16x16_S8x16_1_0_0_1_n_n : DotDims S8x16 S16x16 S8x16 where
  lhsContracting := [1]
  rhsContracting := [0]
  lhsNonContracting := [0]
  rhsNonContracting := [1]
  lhsBatch := []
  rhsBatch := []
  wf := dot_S8x16_S16x16_S8x16_1_0_0_1_n_n_wf
def dot_S8x16_S16x64_S8x64_1_0_0_1_n_n : DotDims S8x16 S16x64 S8x64 where
  lhsContracting := [1]
  rhsContracting := [0]
  lhsNonContracting := [0]
  rhsNonContracting := [1]
  lhsBatch := []
  rhsBatch := []
  wf := dot_S8x16_S16x64_S8x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x8_S5000x8_1_0_0_1_n_n : DotDims S5000x64 S64x8 S5000x8 where
  lhsContracting := [1]
  rhsContracting := [0]
  lhsNonContracting := [0]
  rhsNonContracting := [1]
  lhsBatch := []
  rhsBatch := []
  wf := dot_S5000x64_S64x8_S5000x8_1_0_0_1_n_n_wf
def dot_S5000x8_S8x8_S5000x8_1_0_0_1_n_n : DotDims S5000x8 S8x8 S5000x8 where
  lhsContracting := [1]
  rhsContracting := [0]
  lhsNonContracting := [0]
  rhsNonContracting := [1]
  lhsBatch := []
  rhsBatch := []
  wf := dot_S5000x8_S8x8_S5000x8_1_0_0_1_n_n_wf
def dot_S5000x8_S8x64_S5000x64_1_0_0_1_n_n : DotDims S5000x8 S8x64 S5000x64 where
  lhsContracting := [1]
  rhsContracting := [0]
  lhsNonContracting := [0]
  rhsNonContracting := [1]
  lhsBatch := []
  rhsBatch := []
  wf := dot_S5000x8_S8x64_S5000x64_1_0_0_1_n_n_wf

abbrev win0_0 : Pipeline.Window sig grid0 :=
  Pipeline.Window.ofSpec (Memref.whole main_v23) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S8x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v77) S8x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg15) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S8x8.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S8.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v78) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S8x64 : Shape := ⟨2, ![8, 64]⟩
abbrev S2x2000000 : Shape := ⟨2, ![2, 2000000]⟩
abbrev S2000000 : Shape := ⟨1, ![2000000]⟩
abbrev S16x64 : Shape := ⟨2, ![16, 64]⟩
abbrev S100000 : Shape := ⟨1, ![100000]⟩
abbrev S8x8 : Shape := ⟨2, ![8, 8]⟩
abbrev S8 : Shape := ⟨1, ![8]⟩
abbrev S16x16 : Shape := ⟨2, ![16, 16]⟩
abbrev S16 : Shape := ⟨1, ![16]⟩
abbrev S64x64 : Shape := ⟨2, ![64, 64]⟩
abbrev S64 : Shape := ⟨1, ![64]⟩
abbrev S1x2000000 : Shape := ⟨2, ![1, 2000000]⟩
abbrev S_ : Shape := ⟨0, ![]⟩
abbrev S2000000x1 : Shape := ⟨2, ![2000000, 1]⟩
abbrev S2000000x64 : Shape := ⟨2, ![2000000, 64]⟩
abbrev S100000x1 : Shape := ⟨2, ![100000, 1]⟩
abbrev S1x64 : Shape := ⟨2, ![1, 64]⟩
abbrev S64x8 : Shape := ⟨2, ![64, 8]⟩
abbrev S50000x8 : Shape := ⟨2, ![50000, 8]⟩
abbrev S1x8 : Shape := ⟨2, ![1, 8]⟩
abbrev S50000 : Shape := ⟨1, ![50000]⟩
abbrev S50000x1 : Shape := ⟨2, ![50000, 1]⟩
abbrev S64x16 : Shape := ⟨2, ![64, 16]⟩
abbrev S8x16 : Shape := ⟨2, ![8, 16]⟩
abbrev S1x16 : Shape := ⟨2, ![1, 16]⟩
abbrev S8x1 : Shape := ⟨2, ![8, 1]⟩

abbrev nBuf : Space → Nat
  | .hbm => 158
  | .vmem => 0
  | .smem => 0
  | _ => 0

abbrev hbmTy0_0 (i : Nat) : BufTy := match i % 128 with
  | 0 => ⟨S100000x64, .f32⟩
  | 1 => ⟨S50000x64, .f32⟩
  | 2 => ⟨S8x64, .f32⟩
  | 3 => ⟨S2x2000000, .i32⟩
  | 4 => ⟨S2000000, .i32⟩
  | 5 => ⟨S2000000, .i32⟩
  | 6 => ⟨S2000000, .i32⟩
  | 7 => ⟨S2000000, .f32⟩
  | 8 => ⟨S16x64, .f32⟩
  | 9 => ⟨S100000, .i32⟩
  | 10 => ⟨S8x8, .f32⟩
  | 11 => ⟨S8, .f32⟩
  | 12 => ⟨S16x16, .f32⟩
  | 13 => ⟨S16, .f32⟩
  | 14 => ⟨S64x64, .f32⟩
  | 15 => ⟨S64, .f32⟩
  | 16 => ⟨S64x64, .f32⟩
  | 17 => ⟨S64, .f32⟩
  | 18 => ⟨S1x2000000, .i32⟩
  | 19 => ⟨S2000000, .i32⟩
  | 20 => ⟨S1x2000000, .i32⟩
  | 21 => ⟨S2000000, .i32⟩
  | 22 => ⟨S_, .i32⟩
  | 23 => ⟨S2000000, .i32⟩
  | 24 => ⟨S2000000, .i1⟩
  | 25 => ⟨S_, .i32⟩
  | 26 => ⟨S2000000, .i32⟩
  | 27 => ⟨S2000000, .i32⟩
  | 28 => ⟨S2000000, .i32⟩
  | 29 => ⟨S2000000x1, .i32⟩
  | 30 => ⟨S2000000x64, .f32⟩
  | 31 => ⟨S_, .i32⟩
  | 32 => ⟨S2000000, .i32⟩
  | 33 => ⟨S2000000, .i32⟩
  | 34 => ⟨S_, .i32⟩
  | 35 => ⟨S2000000, .i32⟩
  | 36 => ⟨S2000000, .i1⟩
  | 37 => ⟨S_, .i32⟩
  | 38 => ⟨S2000000, .i32⟩
  | 39 => ⟨S2000000, .i32⟩
  | 40 => ⟨S2000000, .i32⟩
  | 41 => ⟨S2000000x1, .i32⟩
  | 42 => ⟨S2000000x64, .f32⟩
  | 43 => ⟨S2000000x64, .f32⟩
  | 44 => ⟨S_, .f32⟩
  | 45 => ⟨S100000x64, .f32⟩
  | 46 => ⟨S2000000x1, .i32⟩
  | 47 => ⟨S100000x64, .f32⟩
  | 48 => ⟨S_, .f32⟩
  | 49 => ⟨S2000000, .f32⟩
  | 50 => ⟨S_, .f32⟩
  | 51 => ⟨S100000, .f32⟩
  | 52 => ⟨S2000000x1, .i32⟩
  | 53 => ⟨S100000, .f32⟩
  | 54 => ⟨S_, .f32⟩
  | 55 => ⟨S100000, .f32⟩
  | 56 => ⟨S100000, .f32⟩
  | 57 => ⟨S100000x1, .f32⟩
  | 58 => ⟨S100000x64, .f32⟩
  | 59 => ⟨S100000x64, .f32⟩
  | 60 => ⟨S2000000x1, .f32⟩
  | 61 => ⟨S_, .i32⟩
  | 62 => ⟨S2000000, .i32⟩
  | 63 => ⟨S2000000, .i1⟩
  | 64 => ⟨S_, .i32⟩
  | 65 => ⟨S2000000, .i32⟩
  | 66 => ⟨S2000000, .i32⟩
  | 67 => ⟨S2000000, .i32⟩
  | 68 => ⟨S2000000x1, .i32⟩
  | 69 => ⟨S2000000x64, .f32⟩
  | 70 => ⟨S2000000x64, .f32⟩
  | 71 => ⟨S2000000x64, .f32⟩
  | 72 => ⟨S_, .f32⟩
  | 73 => ⟨S50000x64, .f32⟩
  | 74 => ⟨S2000000x1, .i32⟩
  | 75 => ⟨S50000x64, .f32⟩
  | 76 => ⟨S64x64, .f32⟩
  | 77 => ⟨S50000x64, .f32⟩
  | 78 => ⟨S1x64, .f32⟩
  | 79 => ⟨S50000x64, .f32⟩
  | 80 => ⟨S50000x64, .f32⟩
  | 81 => ⟨S64x64, .f32⟩
  | 82 => ⟨S8x64, .f32⟩
  | 83 => ⟨S1x64, .f32⟩
  | 84 => ⟨S8x64, .f32⟩
  | 85 => ⟨S8x64, .f32⟩
  | 86 => ⟨S64x8, .f32⟩
  | 87 => ⟨S50000x8, .f32⟩
  | 88 => ⟨S8x8, .f32⟩
  | 89 => ⟨S50000x8, .f32⟩
  | 90 => ⟨S1x8, .f32⟩
  | 91 => ⟨S50000x8, .f32⟩
  | 92 => ⟨S50000x8, .f32⟩
  | 93 => ⟨S_, .f32⟩
  | 94 => ⟨S_, .f32⟩
  | 95 => ⟨S50000x8, .f32⟩
  | 96 => ⟨S50000x8, .i1⟩
  | 97 => ⟨S_, .f32⟩
  | 98 => ⟨S50000x8, .f32⟩
  | 99 => ⟨S50000x8, .f32⟩
  | 100 => ⟨S50000x8, .f32⟩
  | 101 => ⟨S_, .f32⟩
  | 102 => ⟨S50000, .f32⟩
  | 103 => ⟨S_, .f32⟩
  | 104 => ⟨S50000, .f32⟩
  | 105 => ⟨S50000, .f32⟩
  | 106 => ⟨S50000x1, .f32⟩
  | 107 => ⟨S50000x8, .f32⟩
  | 108 => ⟨S50000x8, .f32⟩
  | 109 => ⟨S50000x8, .f32⟩
  | 110 => ⟨S_, .f32⟩
  | 111 => ⟨S50000, .f32⟩
  | 112 => ⟨S50000x1, .f32⟩
  | 113 => ⟨S50000x8, .f32⟩
  | 114 => ⟨S50000x8, .f32⟩
  | 115 => ⟨S64x64, .f32⟩
  | 116 => ⟨S8x64, .f32⟩
  | 117 => ⟨S1x64, .f32⟩
  | 118 => ⟨S8x64, .f32⟩
  | 119 => ⟨S8x64, .f32⟩
  | 120 => ⟨S64x64, .f32⟩
  | 121 => ⟨S16x64, .f32⟩
  | 122 => ⟨S1x64, .f32⟩
  | 123 => ⟨S16x64, .f32⟩
  | 124 => ⟨S16x64, .f32⟩
  | 125 => ⟨S64x16, .f32⟩
  | 126 => ⟨S8x16, .f32⟩
  | 127 => ⟨S16x16, .f32⟩
  | _ => ⟨S100000x64, .f32⟩

abbrev hbmTy0_1 (i : Nat) : BufTy := match i % 128 with
  | 0 => ⟨S8x16, .f32⟩
  | 1 => ⟨S1x16, .f32⟩
  | 2 => ⟨S8x16, .f32⟩
  | 3 => ⟨S8x16, .f32⟩
  | 4 => ⟨S_, .f32⟩
  | 5 => ⟨S_, .f32⟩
  | 6 => ⟨S8x16, .f32⟩
  | 7 => ⟨S8x16, .i1⟩
  | 8 => ⟨S_, .f32⟩
  | 9 => ⟨S8x16, .f32⟩
  | 10 => ⟨S8x16, .f32⟩
  | 11 => ⟨S8x16, .f32⟩
  | 12 => ⟨S_, .f32⟩
  | 13 => ⟨S8, .f32⟩
  | 14 => ⟨S_, .f32⟩
  | 15 => ⟨S8, .f32⟩
  | 16 => ⟨S8, .f32⟩
  | 17 => ⟨S8x1, .f32⟩
  | 18 => ⟨S8x16, .f32⟩
  | 19 => ⟨S8x16, .f32⟩
  | 20 => ⟨S8x16, .f32⟩
  | 21 => ⟨S_, .f32⟩
  | 22 => ⟨S8, .f32⟩
  | 23 => ⟨S8x1, .f32⟩
  | 24 => ⟨S8x16, .f32⟩
  | 25 => ⟨S8x16, .f32⟩
  | 26 => ⟨S8x64, .f32⟩
  | 27 => ⟨S50000x64, .f32⟩
  | 28 => ⟨S50000x64, .f32⟩
  | 29 => ⟨S50000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_c_3 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_cst_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_7 : Ref sig .tc := ⟨.hbm, 61, rfl⟩
abbrev main_v34 : Ref sig .tc := ⟨.hbm, 62, rfl⟩
abbrev main_v35 : Ref sig .tc := ⟨.hbm, 63, rfl⟩
abbrev main_c_8 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_10 : Ref sig .tc := ⟨.hbm, 93, rfl⟩
abbrev main_call0_cst : Ref sig .tc := ⟨.hbm, 94, rfl⟩
abbrev main_call0_v0 : Ref sig .tc := ⟨.hbm, 95, rfl⟩
abbrev main_call0_v1 : Ref sig .tc := ⟨.hbm, 96, rfl⟩
abbrev main_call0_v2 : Ref sig .tc := ⟨.hbm, 97, rfl⟩
abbrev main_call0_v3 : Ref sig .tc := ⟨.hbm, 98, rfl⟩
abbrev main_call0_v4 : Ref sig .tc := ⟨.hbm, 99, rfl⟩
abbrev main_v63 : Ref sig .tc := ⟨.hbm, 100, rfl⟩
abbrev main_cst_11 : Ref sig .tc := ⟨.hbm, 101, rfl⟩
abbrev main_v64 : Ref sig .tc := ⟨.hbm, 102, rfl⟩
abbrev main_cst_12 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_13 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_14 : Ref sig .tc := ⟨.hbm, 132, rfl⟩
abbrev main_call1_cst : Ref sig .tc := ⟨.hbm, 133, rfl⟩
abbrev main_call1_v0 : Ref sig .tc := ⟨.hbm, 134, rfl⟩
abbrev main_call1_v1 : Ref sig .tc := ⟨.hbm, 135, rfl⟩
abbrev main_call1_v2 : Ref sig .tc := ⟨.hbm, 136, rfl⟩
abbrev main_call1_v3 : Ref sig .tc := ⟨.hbm, 137, rfl⟩
abbrev main_call1_v4 : Ref sig .tc := ⟨.hbm, 138, rfl⟩
abbrev main_v92 : Ref sig .tc := ⟨.hbm, 139, rfl⟩
abbrev main_cst_15 : Ref sig .tc := ⟨.hbm, 140, rfl⟩
abbrev main_v93 : Ref sig .tc := ⟨.hbm, 141, rfl⟩
abbrev main_cst_16 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_cst_17 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S2000000x1_S2000000x64_0_1 : S2000000x1.BroadcastsInDim S2000000x64 (![0, 1] : Fin 2 → Fin S2000000x64.rank)
  bcast_S_S50000x64 : S_.BroadcastsInDim S50000x64 (![] : Fin 0 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1x64_S8x64_0_1 : S1x64.BroadcastsInDim S8x64 (![0, 1] : Fin 2 → Fin S8x64.rank)
  transposes_S8x64_S64x8_1_0 : S8x64.Transposes [1, 0] S64x8
  transposes_S8x8_S8x8_1_0 : S8x8.Transposes [1, 0] S8x8
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  bcast_S_S50000x8 : S_.BroadcastsInDim S50000x8 (![] : Fin 0 → Fin S50000x8.rank)
  reducesTo_S50000x8_S50000_d1 : S50000x8.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x8_0_1 : S50000x1.BroadcastsInDim S50000x8 (![0, 1] : Fin 2 → Fin S50000x8.rank)
  bcast_S1x64_S16x64_0_1 : S1x64.BroadcastsInDim S16x64 (![0, 1] : Fin 2 → Fin S16x64.rank)
  transposes_S16x64_S64x16_1_0 : S16x64.Transposes [1, 0] S64x16
  transposes_S16x16_S16x16_1_0 : S16x16.Transposes [1, 0] S16x16
  bcast_S16_S1x16_1 : S16.BroadcastsInDim S1x16 (![1] : Fin 1 → Fin S1x16.rank)
  bcast_S1x16_S8x16_0_1 : S1x16.BroadcastsInDim S8x16 (![0, 1] : Fin 2 → Fin S8x16.rank)
  bcast_S_S8x16 : S_.BroadcastsInDim S8x16 (![] : Fin 0 → Fin S8x16.rank)
  reducesTo_S8x16_S8_d1 : S8x16.ReducesTo [1] S8
  bcast_S_S8 : S_.BroadcastsInDim S8 (![] : Fin 0 → Fin S8.rank)
  bcast_S8_S8x1_0 : S8.BroadcastsInDim S8x1 (![0] : Fin 1 → Fin S8x1.rank)
  bcast_S8x1_S8x16_0_1 : S8x1.BroadcastsInDim S8x16 (![0, 1] : Fin 2 → Fin S8x16.rank)
  gather_S100000x64_S2000000x1_S2000000x64_1_0_n_n_0_1_164_wf : GatherDims.WF S100000x64 S2000000x1 S2000000x64 [1] [0] [] [0] [] 1 ![1, 64]
  gather_S16x64_S2000000x1_S2000000x64_1_0_n_n_0_1_164_wf : GatherDims.WF S16x64 S2000000x1 S2000000x64 [1] [0] [] [0] [] 1 ![1, 64]
  scatter_S100000x64_S2000000x1_S2000000x64_1_0_0_1_wf : ScatterDims.WF S100000x64 S2000000x1 S2000000x64 [1] [0] [0] 1
  scatter_S100000_S2000000x1_S2000000_n_0_0_1_wf : ScatterDims.WF S100000 S2000000x1 S2000000 [] [0] [0] 1
  scatter_S50000x64_S2000000x1_S2000000x64_1_0_0_1_wf : ScatterDims.WF S50000x64 S2000000x1 S2000000x64 [1] [0] [0] 1
  dot_S50000x64_S64x64_S50000x64_1_0_0_1_n_n_wf : DotDims.WF S50000x64 S64x64 S50000x64 [1] [0] [0] [1] [] []
  dot_S8x64_S64x64_S8x64_1_0_0_1_n_n_wf : DotDims.WF S8x64 S64x64 S8x64 [1] [0] [0] [1] [] []
  dot_S50000x64_S64x8_S50000x8_1_0_0_1_n_n_wf : DotDims.WF S50000x64 S64x8 S50000x8 [1] [0] [0] [1] [] []
  dot_S50000x8_S8x8_S50000x8_1_0_0_1_n_n_wf : DotDims.WF S50000x8 S8x8 S50000x8 [1] [0] [0] [1] [] []
  dot_S16x64_S64x64_S16x64_1_0_0_1_n_n_wf : DotDims.WF S16x64 S64x64 S16x64 [1] [0] [0] [1] [] []
  dot_S8x64_S64x16_S8x16_1_0_0_1_n_n_wf : DotDims.WF S8x64 S64x16 S8x16 [1] [0] [0] [1] [] []
  dot_S8x16_S16x16_S8x16_1_0_0_1_n_n_wf : DotDims.WF S8x16 S16x16 S8x16 [1] [0] [0] [1] [] []
  dot_S8x16_S16x64_S8x64_1_0_0_1_n_n_wf : DotDims.WF S8x16 S16x64 S8x64 [1] [0] [0] [1] [] []
  dot_S50000x8_S8x64_S50000x64_1_0_0_1_n_n_wf : DotDims.WF S50000x8 S8x64 S50000x64 [1] [0] [0] [1] [] []

variable [Facts₀]

def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def gather_S16x64_S2000000x1_S2000000x64_1_0_n_n_0_1_164 : GatherDims S16x64 S2000000x1 S2000000x64 where
  offsetDims := [1]
  collapsedSliceDims := [0]
  operandBatchingDims := []
  startIndicesBatchingDims := []
  startIndexMap := [0]
  indexVectorDim := 1
  sliceSizes := ![1, 64]
  wf := gather_S16x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S8x64_S64x64_S8x64_1_0_0_1_n_n : DotDims S8x64 S64x64 S8x64 where
  lhsContracting := [1]
  rhsContracting := [0]
  lhsNonContracting := [0]
  rhsNonContracting := [1]
  lhsBatch := []
  rhsBatch := []
  wf := dot_S8x64_S64x64_S8x64_1_0_0_1_n_n_wf
def dot_S50000x64_S64x8_S50000x8_1_0_0_1_n_n : DotDims S50000x64 S64x8 S50000x8 where
  lhsContracting := [1]
  rhsContracting := [0]
  lhsNonContracting := [0]
  rhsNonContracting := [1]
  lhsBatch := []
  rhsBatch := []
  wf := dot_S50000x64_S64x8_S50000x8_1_0_0_1_n_n_wf
def dot_S50000x8_S8x8_S50000x8_1_0_0_1_n_n : DotDims S50000x8 S8x8 S50000x8 where
  lhsContracting := [1]
  rhsContracting := [0]
  lhsNonContracting := [0]
  rhsNonContracting := [1]
  lhsBatch := []
  rhsBatch := []
  wf := dot_S50000x8_S8x8_S50000x8_1_0_0_1_n_n_wf
def dot_S16x64_S64x64_S16x64_1_0_0_1_n_n : DotDims S16x64 S64x64 S16x64 where
  lhsContracting := [1]
  rhsContracting := [0]
  lhsNonContracting := [0]
  rhsNonContracting := [1]
  lhsBatch := []
  rhsBatch := []
  wf := dot_S16x64_S64x64_S16x64_1_0_0_1_n_n_wf
def dot_S8x64_S64x16_S8x16_1_0_0_1_n_n : DotDims S8x64 S64x16 S8x16 where
  lhsContracting := [1]
  rhsContracting := [0]
  lhsNonContracting := [0]
  rhsNonContracting := [1]
  lhsBatch := []
  rhsBatch := []
  wf := dot_S8x64_S64x16_S8x16_1_0_0_1_n_n_wf
def dot_S8x16_S16x16_S8x16_1_0_0_1_n_n : DotDims S8x16 S16x16 S8x16 where
  lhsContracting := [1]
  rhsContracting := [0]
  lhsNonContracting := [0]
  rhsNonContracting := [1]
  lhsBatch := []
  rhsBatch := []
  wf := dot_S8x16_S16x16_S8x16_1_0_0_1_n_n_wf
def dot_S8x16_S16x64_S8x64_1_0_0_1_n_n : DotDims S8x16 S16x64 S8x64 where
  lhsContracting := [1]
  rhsContracting := [0]
  lhsNonContracting := [0]
  rhsNonContracting := [1]
  lhsBatch := []
  rhsBatch := []
  wf := dot_S8x16_S16x64_S8x64_1_0_0_1_n_n_wf
def dot_S50000x8_S8x64_S50000x64_1_0_0_1_n_n : DotDims S50000x8 S8x64 S50000x64 where
  lhsContracting := [1]
  rhsContracting := [0]
  lhsNonContracting := [0]
  rhsNonContracting := [1]
  lhsBatch := []
  rhsBatch := []
  wf := dot_S50000x8_S8x64_S50000x64_1_0_0_1_n_n_wf

class Facts : Prop extends Facts₀ where

variable [Facts]
-- ==== Proof.KernelRun.lean ====
/-
  The kernel program's run with the final contents of every buffer named.

  @main is six segments: a stretch of host operations, the row-mean region, three stretches of host operations, the
  attention region.  The contents of the TensorCore's buffers at each boundary are a fold through these segments; the
  last one, after the attention region's write-backs, is what every weakly fair execution ends in.  The launch below
  is the one that establishes the frame, with a post that keeps what the last thread state says of EVERY buffer that
  is not scoped to a region — the three result arrays among them — instead of the argument arrays alone.
-/
import proofs.«123379_j13546326851764_2_alg».proof.Proof.Gen.KernelIdeal.Frame

set_option maxRecDepth 16384

noncomputable section

namespace Cert.KernelIdeal.RunValues

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every buffer that is not scoped to a region
    ends at the last boundary's contents. -/
theorem run_all : θ_run defs (onTc (τ := τ) (main (F := F))) ⟨m, fun _ => 0, ρ⟩ (fun r => ∀ (c : Dev nD) (b : Ref sig .tc),
      ¬ (Proc.devRef .tc b : DevRef τ sig).isScoped →
      r.2.mem ((c.tc : Thread nD τ).loc b) = W6 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c b hb => h c _ (mem_uc b hb))

end Cert.KernelIdeal.RunValues

end
-- ==== Proof.RefRun.lean ====
/-
  The reference's @main as one list of its host operations in program order — the two calls of the leaky rectifier
  written out at their call sites, seven operations each over the call's own buffers — and its run: every weakly
  fair execution terminates, and each buffer ends at the fold of the operations over the launch contents.
-/
import proofs.«123379_j13546326851764_2_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- Statements 1 … 60. -/
abbrev ops0 : List (HloOp τ sig (Elt F)) :=
  [ StableHlo.unary main_arg3 main_v0 ((extractStridedSlice S1x2000000 ![0, 0] · slices_S2x2000000_S1x2000000_0_0) : (⟨S2x2000000, .i32⟩ : BufTy).Contents (Elt F) → (⟨S1x2000000, .i32⟩ : BufTy).Contents (Elt F)),
    StableHlo.reshape main_v0 main_v1 rfl shapeCasts_S1x2000000_S2000000,
    StableHlo.unary main_arg3 main_v2 ((extractStridedSlice S1x2000000 ![1, 0] · slices_S2x2000000_S1x2000000_1_0) : (⟨S2x2000000, .i32⟩ : BufTy).Contents (Elt F) → (⟨S1x2000000, .i32⟩ : BufTy).Contents (Elt F)),
    StableHlo.reshape main_v2 main_v3 rfl shapeCasts_S1x2000000_S2000000,
    StableHlo.nullary main_c (constantI S_ 32 0#32),
    StableHlo.unary main_c main_v4 (broadcastInDim S2000000 ![] bcast_S_S2000000 : (⟨S_, .i32⟩ : BufTy).Contents (Elt F) → (⟨S2000000, .i32⟩ : BufTy).Contents (Elt F)),
    StableHlo.binary main_v3 main_v4 main_v5 (cmpi .slt : (⟨S2000000, .i32⟩ : BufTy).Contents (Elt F) → (⟨S2000000, .i32⟩ : BufTy).Contents (Elt F) → (⟨S2000000, .i1⟩ : BufTy).Contents (Elt F)),
    StableHlo.nullary main_c_0 (constantI S_ 32 100000#32),
    StableHlo.unary main_c_0 main_v6 (broadcastInDim S2000000 ![] bcast_S_S2000000 : (⟨S_, .i32⟩ : BufTy).Contents (Elt F) → (⟨S2000000, .i32⟩ : BufTy).Contents (Elt F)),
    StableHlo.binary main_v3 main_v6 main_v7 (addi : (⟨S2000000, .i32⟩ : BufTy).Contents (Elt F) → (⟨S2000000, .i32⟩ : BufTy).Contents (Elt F) → (⟨S2000000, .i32⟩ : BufTy).Contents (Elt F)),
    StableHlo.ternary main_v5 main_v7 main_v3 main_v8 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v8 main_v9 (broadcastInDim S2000000x1 ![0] bcast_S2000000_S2000000x1_0 : (⟨S2000000, .i32⟩ : BufTy).Contents (Elt F) → (⟨S2000000x1, .i32⟩ : BufTy).Contents (Elt F)),
    StableHlo.binary main_arg0 main_v9 main_v10 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    StableHlo.nullary main_c_1 (constantI S_ 32 1#32),
    StableHlo.unary main_c_1 main_v11 (broadcastInDim S2000000 ![] bcast_S_S2000000 : (⟨S_, .i32⟩ : BufTy).Contents (Elt F) → (⟨S2000000, .i32⟩ : BufTy).Contents (Elt F)),
    StableHlo.binary main_arg4 main_v11 main_v12 (subi : (⟨S2000000, .i32⟩ : BufTy).Contents (Elt F) → (⟨S2000000, .i32⟩ : BufTy).Contents (Elt F) → (⟨S2000000, .i32⟩ : BufTy).Contents (Elt F)),
    StableHlo.nullary main_c_2 (constantI S_ 32 0#32),
    StableHlo.unary main_c_2 main_v13 (broadcastInDim S2000000 ![] bcast_S_S2000000 : (⟨S_, .i32⟩ : BufTy).Contents (Elt F) → (⟨S2000000, .i32⟩ : BufTy).Contents (Elt F)),
    StableHlo.binary main_v12 main_v13 main_v14 (cmpi .slt : (⟨S2000000, .i32⟩ : BufTy).Contents (Elt F) → (⟨S2000000, .i32⟩ : BufTy).Contents (Elt F) → (⟨S2000000, .i1⟩ : BufTy).Contents (Elt F)),
    StableHlo.nullary main_c_3 (constantI S_ 32 16#32),
    StableHlo.unary main_c_3 main_v15 (broadcastInDim S2000000 ![] bcast_S_S2000000 : (⟨S_, .i32⟩ : BufTy).Contents (Elt F) → (⟨S2000000, .i32⟩ : BufTy).Contents (Elt F)),
    StableHlo.binary main_v12 main_v15 main_v16 (addi : (⟨S2000000, .i32⟩ : BufTy).Contents (Elt F) → (⟨S2000000, .i32⟩ : BufTy).Contents (Elt F) → (⟨S2000000, .i32⟩ : BufTy).Contents (Elt F)),
    StableHlo.ternary main_v14 main_v16 main_v12 main_v17 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v17 main_v18 (broadcastInDim S2000000x1 ![0] bcast_S2000000_S2000000x1_0 : (⟨S2000000, .i32⟩ : BufTy).Contents (Elt F) → (⟨S2000000x1, .i32⟩ : BufTy).Contents (Elt F)),
    StableHlo.binary main_arg8 main_v18 main_v19 ((fun x i => Host.gather gather_S16x64_S2000000x1_S2000000x64_1_0_n_n_0_1_164 x i) : (⟨S16x64, .f32⟩ : BufTy).Contents (Elt F) → (⟨S2000000x1, .i32⟩ : BufTy).Contents (Elt F) → (⟨S2000000x64, .f32⟩ : BufTy).Contents (Elt F)),
    StableHlo.binary main_v10 main_v19 main_v20 (mulf : (⟨S2000000x64, .f32⟩ : BufTy).Contents (Elt F) → (⟨S2000000x64, .f32⟩ : BufTy).Contents (Elt F) → (⟨S2000000x64, .f32⟩ : BufTy).Contents (Elt F)),
    StableHlo.nullary main_cst (constant S_ .f32 0x00000000#32),
    StableHlo.unary main_cst main_v21 (broadcastInDim S100000x64 ![] bcast_S_S100000x64 : (⟨S_, .f32⟩ : BufTy).Contents (Elt F) → (⟨S100000x64, .f32⟩ : BufTy).Contents (Elt F)),
    StableHlo.unary main_v1 main_v22 (broadcastInDim S2000000x1 ![0] bcast_S2000000_S2000000x1_0 : (⟨S2000000, .i32⟩ : BufTy).Contents (Elt F) → (⟨S2000000x1, .i32⟩ : BufTy).Contents (Elt F)),
    StableHlo.ternary main_v21 main_v22 main_v20 main_v23 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    StableHlo.nullary main_cst_4 (constant S_ .f32 0x3F800000#32),
    StableHlo.unary main_cst_4 main_v24 (broadcastInDim S2000000 ![] bcast_S_S2000000 : (⟨S_, .f32⟩ : BufTy).Contents (Elt F) → (⟨S2000000, .f32⟩ : BufTy).Contents (Elt F)),
    StableHlo.nullary main_cst_5 (constant S_ .f32 0x00000000#32),
    StableHlo.unary main_cst_5 main_v25 (broadcastInDim S100000 ![] bcast_S_S100000 : (⟨S_, .f32⟩ : BufTy).Contents (Elt F) → (⟨S100000, .f32⟩ : BufTy).Contents (Elt F)),
    StableHlo.unary main_v1 main_v26 (broadcastInDim S2000000x1 ![0] bcast_S2000000_S2000000x1_0 : (⟨S2000000, .i32⟩ : BufTy).Contents (Elt F) → (⟨S2000000x1, .i32⟩ : BufTy).Contents (Elt F)),
    StableHlo.ternary main_v25 main_v26 main_v24 main_v27 ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)),
    StableHlo.nullary main_cst_6 (constant S_ .f32 0x3F800000#32),
    StableHlo.unary main_cst_6 main_v28 (broadcastInDim S100000 ![] bcast_S_S100000 : (⟨S_, .f32⟩ : BufTy).Contents (Elt F) → (⟨S100000, .f32⟩ : BufTy).Contents (Elt F)),
    StableHlo.binary main_v27 main_v28 main_v29 (maximumf : (⟨S100000, .f32⟩ : BufTy).Contents (Elt F) → (⟨S100000, .f32⟩ : BufTy).Contents (Elt F) → (⟨S100000, .f32⟩ : BufTy).Contents (Elt F)),
    StableHlo.unary main_v29 main_v30 (broadcastInDim S100000x1 ![0] bcast_S100000_S100000x1_0 : (⟨S100000, .f32⟩ : BufTy).Contents (Elt F) → (⟨S100000x1, .f32⟩ : BufTy).Contents (Elt F)),
    StableHlo.unary main_v30 main_v31 (broadcastInDim S100000x64 ![0, 1] bcast_S100000x1_S100000x64_0_1 : (⟨S100000x1, .f32⟩ : BufTy).Contents (Elt F) → (⟨S100000x64, .f32⟩ : BufTy).Contents (Elt F)),
    StableHlo.binary main_v23 main_v31 main_v32 (Host.divf : (⟨S100000x64, .f32⟩ : BufTy).Contents (Elt F) → (⟨S100000x64, .f32⟩ : BufTy).Contents (Elt F) → (⟨S100000x64, .f32⟩ : BufTy).Contents (Elt F)),
    StableHlo.unary main_arg7 main_v33 (broadcastInDim S2000000x1 ![0] bcast_S2000000_S2000000x1_0 : (⟨S2000000, .f32⟩ : BufTy).Contents (Elt F) → (⟨S2000000x1, .f32⟩ : BufTy).Contents (Elt F)),
    StableHlo.nullary main_c_7 (constantI S_ 32 0#32),
    StableHlo.unary main_c_7 main_v34 (broadcastInDim S2000000 ![] bcast_S_S2000000 : (⟨S_, .i32⟩ : BufTy).Contents (Elt F) → (⟨S2000000, .i32⟩ : BufTy).Contents (Elt F)),
    StableHlo.binary main_arg6 main_v34 main_v35 (cmpi .slt : (⟨S2000000, .i32⟩ : BufTy).Contents (Elt F) → (⟨S2000000, .i32⟩ : BufTy).Contents (Elt F) → (⟨S2000000, .i1⟩ : BufTy).Contents (Elt F)),
    StableHlo.nullary main_c_8 (constantI S_ 32 100000#32),
    StableHlo.unary main_c_8 main_v36 (broadcastInDim S2000000 ![] bcast_S_S2000000 : (⟨S_, .i32⟩ : BufTy).Contents (Elt F) → (⟨S2000000, .i32⟩ : BufTy).Contents (Elt F)),
    StableHlo.binary main_arg6 main_v36 main_v37 (addi : (⟨S2000000, .i32⟩ : BufTy).Contents (Elt F) → (⟨S2000000, .i32⟩ : BufTy).Contents (Elt F) → (⟨S2000000, .i32⟩ : BufTy).Contents (Elt F)),
    StableHlo.ternary main_v35 main_v37 main_arg6 main_v38 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v38 main_v39 (broadcastInDim S2000000x1 ![0] bcast_S2000000_S2000000x1_0 : (⟨S2000000, .i32⟩ : BufTy).Contents (Elt F) → (⟨S2000000x1, .i32⟩ : BufTy).Contents (Elt F)),
    StableHlo.binary main_arg0 main_v39 main_v40 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    StableHlo.unary main_v33 main_v41 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v41 main_v40 main_v42 (mulf : (⟨S2000000x64, .f32⟩ : BufTy).Contents (Elt F) → (⟨S2000000x64, .f32⟩ : BufTy).Contents (Elt F) → (⟨S2000000x64, .f32⟩ : BufTy).Contents (Elt F)),
    StableHlo.nullary main_cst_9 (constant S_ .f32 0x00000000#32),
    StableHlo.unary main_cst_9 main_v43 (broadcastInDim S50000x64 ![] bcast_S_S50000x64 : (⟨S_, .f32⟩ : BufTy).Contents (Elt F) → (⟨S50000x64, .f32⟩ : BufTy).Contents (Elt F)),
    StableHlo.unary main_arg5 main_v44 (broadcastInDim S2000000x1 ![0] bcast_S2000000_S2000000x1_0 : (⟨S2000000, .i32⟩ : BufTy).Contents (Elt F) → (⟨S2000000x1, .i32⟩ : BufTy).Contents (Elt F)),
    StableHlo.ternary main_v43 main_v44 main_v42 main_v45 ((fun x i u => Host.scatterAdd scatter_S50000x64_S2000000x1_S2000000x64_1_0_0_1 x i u) : (⟨S50000x64, .f32⟩ : BufTy).Contents (Elt F) → (⟨S2000000x1, .i32⟩ : BufTy).Contents (Elt F) → (⟨S2000000x64, .f32⟩ : BufTy).Contents (Elt F) → (⟨S50000x64, .f32⟩ : BufTy).Contents (Elt F)),
    StableHlo.unary main_arg14 main_v46 ((transpose S64x64 [1, 0] · transposes_S64x64_S64x64_1_0) : (⟨S64x64, .f32⟩ : BufTy).Contents (Elt F) → (⟨S64x64, .f32⟩ : BufTy).Contents (Elt F)),
    StableHlo.binary main_arg1 main_v46 main_v47 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

/-- Statements 61 … 120, the two calls written out. -/
abbrev ops1 : List (HloOp τ sig (Elt F)) :=
  [ StableHlo.unary main_arg15 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S50000x64 ![0, 1] bcast_S1x64_S50000x64_0_1 : (⟨S1x64, .f32⟩ : BufTy).Contents (Elt F) → (⟨S50000x64, .f32⟩ : BufTy).Contents (Elt F)),
    StableHlo.binary main_v47 main_v49 main_v50 (addf : (⟨S50000x64, .f32⟩ : BufTy).Contents (Elt F) → (⟨S50000x64, .f32⟩ : BufTy).Contents (Elt F) → (⟨S50000x64, .f32⟩ : BufTy).Contents (Elt F)),
    StableHlo.unary main_arg14 main_v51 ((transpose S64x64 [1, 0] · transposes_S64x64_S64x64_1_0) : (⟨S64x64, .f32⟩ : BufTy).Contents (Elt F) → (⟨S64x64, .f32⟩ : BufTy).Contents (Elt F)),
    StableHlo.binary main_arg2 main_v51 main_v52 ((fun l r => Host.dotGeneral dot_S8x64_S64x64_S8x64_1_0_0_1_n_n none l r) : (⟨S8x64, .f32⟩ : BufTy).Contents (Elt F) → (⟨S64x64, .f32⟩ : BufTy).Contents (Elt F) → (⟨S8x64, .f32⟩ : BufTy).Contents (Elt F)),
    StableHlo.unary main_arg15 main_v53 (broadcastInDim S1x64 ![1] bcast_S64_S1x64_1 : (⟨S64, .f32⟩ : BufTy).Contents (Elt F) → (⟨S1x64, .f32⟩ : BufTy).Contents (Elt F)),
    StableHlo.unary main_v53 main_v54 (broadcastInDim S8x64 ![0, 1] bcast_S1x64_S8x64_0_1 : (⟨S1x64, .f32⟩ : BufTy).Contents (Elt F) → (⟨S8x64, .f32⟩ : BufTy).Contents (Elt F)),
    StableHlo.binary main_v52 main_v54 main_v55 (addf : (⟨S8x64, .f32⟩ : BufTy).Contents (Elt F) → (⟨S8x64, .f32⟩ : BufTy).Contents (Elt F) → (⟨S8x64, .f32⟩ : BufTy).Contents (Elt F)),
    StableHlo.unary main_v55 main_v56 ((transpose S64x8 [1, 0] · transposes_S8x64_S64x8_1_0) : (⟨S8x64, .f32⟩ : BufTy).Contents (Elt F) → (⟨S64x8, .f32⟩ : BufTy).Contents (Elt F)),
    StableHlo.binary main_v50 main_v56 main_v57 ((fun l r => Host.dotGeneral dot_S50000x64_S64x8_S50000x8_1_0_0_1_n_n none l r) : (⟨S50000x64, .f32⟩ : BufTy).Contents (Elt F) → (⟨S64x8, .f32⟩ : BufTy).Contents (Elt F) → (⟨S50000x8, .f32⟩ : BufTy).Contents (Elt F)),
    StableHlo.unary main_arg10 main_v58 ((transpose S8x8 [1, 0] · transposes_S8x8_S8x8_1_0) : (⟨S8x8, .f32⟩ : BufTy).Contents (Elt F) → (⟨S8x8, .f32⟩ : BufTy).Contents (Elt F)),
    StableHlo.binary main_v57 main_v58 main_v59 ((fun l r => Host.dotGeneral dot_S50000x8_S8x8_S50000x8_1_0_0_1_n_n none l r) : (⟨S50000x8, .f32⟩ : BufTy).Contents (Elt F) → (⟨S8x8, .f32⟩ : BufTy).Contents (Elt F) → (⟨S50000x8, .f32⟩ : BufTy).Contents (Elt F)),
    StableHlo.unary main_arg11 main_v60 (broadcastInDim S1x8 ![1] bcast_S8_S1x8_1 : (⟨S8, .f32⟩ : BufTy).Contents (Elt F) → (⟨S1x8, .f32⟩ : BufTy).Contents (Elt F)),
    StableHlo.unary main_v60 main_v61 (broadcastInDim S50000x8 ![0, 1] bcast_S1x8_S50000x8_0_1 : (⟨S1x8, .f32⟩ : BufTy).Contents (Elt F) → (⟨S50000x8, .f32⟩ : BufTy).Contents (Elt F)),
    StableHlo.binary main_v59 main_v61 main_v62 (addf : (⟨S50000x8, .f32⟩ : BufTy).Contents (Elt F) → (⟨S50000x8, .f32⟩ : BufTy).Contents (Elt F) → (⟨S50000x8, .f32⟩ : BufTy).Contents (Elt F)),
    StableHlo.nullary main_cst_10 (constant S_ .f32 0x3E4CCCCD#32),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S50000x8, .f32⟩) (broadcastInDim S50000x8 ![] bcast_S_S50000x8),
    StableHlo.TRef.binary (.of main_v62 : StableHlo.TRef sig ⟨S50000x8, .f32⟩) (.of main_call0_v0 : StableHlo.TRef sig ⟨S50000x8, .f32⟩) (.of main_call0_v1 : StableHlo.TRef sig ⟨S50000x8, .i1⟩) (cmpf .oge),
    StableHlo.TRef.unary (.of main_cst_10 : StableHlo.TRef sig ⟨S_, .f32⟩) (.of main_call0_v2 : StableHlo.TRef sig ⟨S_, .f32⟩) id,
    StableHlo.TRef.unary (.of main_call0_v2 : StableHlo.TRef sig ⟨S_, .f32⟩) (.of main_call0_v3 : StableHlo.TRef sig ⟨S50000x8, .f32⟩) (broadcastInDim S50000x8 ![] bcast_S_S50000x8),
    StableHlo.TRef.binary (.of main_call0_v3 : StableHlo.TRef sig ⟨S50000x8, .f32⟩) (.of main_v62 : StableHlo.TRef sig ⟨S50000x8, .f32⟩) (.of main_call0_v4 : StableHlo.TRef sig ⟨S50000x8, .f32⟩) mulf,
    StableHlo.TRef.ternary (.of main_call0_v1 : StableHlo.TRef sig ⟨S50000x8, .i1⟩) (.of main_v62 : StableHlo.TRef sig ⟨S50000x8, .f32⟩) (.of main_call0_v4 : StableHlo.TRef sig ⟨S50000x8, .f32⟩) (.of main_v63 : StableHlo.TRef sig ⟨S50000x8, .f32⟩) select,
    StableHlo.nullary main_cst_11 (constant S_ .f32 0xFF800000#32),
    StableHlo.binary main_v63 main_cst_11 main_v64 ((fun x v => Host.reduce FloatOps.maximumf x v reducesTo_S50000x8_S50000_d1 h_S_) : (⟨S50000x8, .f32⟩ : BufTy).Contents (Elt F) → (⟨S_, .f32⟩ : BufTy).Contents (Elt F) → (⟨S50000, .f32⟩ : BufTy).Contents (Elt F)),
    StableHlo.nullary main_cst_12 (constant S_ .f32 0xFF800000#32),
    StableHlo.unary main_cst_12 main_v65 (broadcastInDim S50000 ![] bcast_S_S50000 : (⟨S_, .f32⟩ : BufTy).Contents (Elt F) → (⟨S50000, .f32⟩ : BufTy).Contents (Elt F)),
    StableHlo.binary main_v65 main_v64 main_v66 (maximumf : (⟨S50000, .f32⟩ : BufTy).Contents (Elt F) → (⟨S50000, .f32⟩ : BufTy).Contents (Elt F) → (⟨S50000, .f32⟩ : BufTy).Contents (Elt F)),
    StableHlo.unary main_v66 main_v67 (broadcastInDim S50000x1 ![0] bcast_S50000_S50000x1_0 : (⟨S50000, .f32⟩ : BufTy).Contents (Elt F) → (⟨S50000x1, .f32⟩ : BufTy).Contents (Elt F)),
    StableHlo.unary main_v67 main_v68 (broadcastInDim S50000x8 ![0, 1] bcast_S50000x1_S50000x8_0_1 : (⟨S50000x1, .f32⟩ : BufTy).Contents (Elt F) → (⟨S50000x8, .f32⟩ : BufTy).Contents (Elt F)),
    StableHlo.binary main_v63 main_v68 main_v69 (subf : (⟨S50000x8, .f32⟩ : BufTy).Contents (Elt F) → (⟨S50000x8, .f32⟩ : BufTy).Contents (Elt F) → (⟨S50000x8, .f32⟩ : BufTy).Contents (Elt F)),
    StableHlo.unary main_v69 main_v70 (Host.exp : (⟨S50000x8, .f32⟩ : BufTy).Contents (Elt F) → (⟨S50000x8, .f32⟩ : BufTy).Contents (Elt F)),
    StableHlo.nullary main_cst_13 (constant S_ .f32 0x00000000#32),
    StableHlo.binary main_v70 main_cst_13 main_v71 ((fun x v => Host.reduceAdd x v reducesTo_S50000x8_S50000_d1 h_S_) : (⟨S50000x8, .f32⟩ : BufTy).Contents (Elt F) → (⟨S_, .f32⟩ : BufTy).Contents (Elt F) → (⟨S50000, .f32⟩ : BufTy).Contents (Elt F)),
    StableHlo.unary main_v71 main_v72 (broadcastInDim S50000x1 ![0] bcast_S50000_S50000x1_0 : (⟨S50000, .f32⟩ : BufTy).Contents (Elt F) → (⟨S50000x1, .f32⟩ : BufTy).Contents (Elt F)),
    StableHlo.unary main_v72 main_v73 (broadcastInDim S50000x8 ![0, 1] bcast_S50000x1_S50000x8_0_1 : (⟨S50000x1, .f32⟩ : BufTy).Contents (Elt F) → (⟨S50000x8, .f32⟩ : BufTy).Contents (Elt F)),
    StableHlo.binary main_v70 main_v73 main_v74 (Host.divf : (⟨S50000x8, .f32⟩ : BufTy).Contents (Elt F) → (⟨S50000x8, .f32⟩ : BufTy).Contents (Elt F) → (⟨S50000x8, .f32⟩ : BufTy).Contents (Elt F)),
    StableHlo.unary main_arg16 main_v75 ((transpose S64x64 [1, 0] · transposes_S64x64_S64x64_1_0) : (⟨S64x64, .f32⟩ : BufTy).Contents (Elt F) → (⟨S64x64, .f32⟩ : BufTy).Contents (Elt F)),
    StableHlo.binary main_arg2 main_v75 main_v76 ((fun l r => Host.dotGeneral dot_S8x64_S64x64_S8x64_1_0_0_1_n_n none l r) : (⟨S8x64, .f32⟩ : BufTy).Contents (Elt F) → (⟨S64x64, .f32⟩ : BufTy).Contents (Elt F) → (⟨S8x64, .f32⟩ : BufTy).Contents (Elt F)),
    StableHlo.unary main_arg17 main_v77 (broadcastInDim S1x64 ![1] bcast_S64_S1x64_1 : (⟨S64, .f32⟩ : BufTy).Contents (Elt F) → (⟨S1x64, .f32⟩ : BufTy).Contents (Elt F)),
    StableHlo.unary main_v77 main_v78 (broadcastInDim S8x64 ![0, 1] bcast_S1x64_S8x64_0_1 : (⟨S1x64, .f32⟩ : BufTy).Contents (Elt F) → (⟨S8x64, .f32⟩ : BufTy).Contents (Elt F)),
    StableHlo.binary main_v76 main_v78 main_v79 (addf : (⟨S8x64, .f32⟩ : BufTy).Contents (Elt F) → (⟨S8x64, .f32⟩ : BufTy).Contents (Elt F) → (⟨S8x64, .f32⟩ : BufTy).Contents (Elt F)),
    StableHlo.unary main_arg16 main_v80 ((transpose S64x64 [1, 0] · transposes_S64x64_S64x64_1_0) : (⟨S64x64, .f32⟩ : BufTy).Contents (Elt F) → (⟨S64x64, .f32⟩ : BufTy).Contents (Elt F)),
    StableHlo.binary main_arg8 main_v80 main_v81 ((fun l r => Host.dotGeneral dot_S16x64_S64x64_S16x64_1_0_0_1_n_n none l r) : (⟨S16x64, .f32⟩ : BufTy).Contents (Elt F) → (⟨S64x64, .f32⟩ : BufTy).Contents (Elt F) → (⟨S16x64, .f32⟩ : BufTy).Contents (Elt F)),
    StableHlo.unary main_arg17 main_v82 (broadcastInDim S1x64 ![1] bcast_S64_S1x64_1 : (⟨S64, .f32⟩ : BufTy).Contents (Elt F) → (⟨S1x64, .f32⟩ : BufTy).Contents (Elt F)),
    StableHlo.unary main_v82 main_v83 (broadcastInDim S16x64 ![0, 1] bcast_S1x64_S16x64_0_1 : (⟨S1x64, .f32⟩ : BufTy).Contents (Elt F) → (⟨S16x64, .f32⟩ : BufTy).Contents (Elt F)),
    StableHlo.binary main_v81 main_v83 main_v84 (addf : (⟨S16x64, .f32⟩ : BufTy).Contents (Elt F) → (⟨S16x64, .f32⟩ : BufTy).Contents (Elt F) → (⟨S16x64, .f32⟩ : BufTy).Contents (Elt F)),
    StableHlo.unary main_v84 main_v85 ((transpose S64x16 [1, 0] · transposes_S16x64_S64x16_1_0) : (⟨S16x64, .f32⟩ : BufTy).Contents (Elt F) → (⟨S64x16, .f32⟩ : BufTy).Contents (Elt F)),
    StableHlo.binary main_v79 main_v85 main_v86 ((fun l r => Host.dotGeneral dot_S8x64_S64x16_S8x16_1_0_0_1_n_n none l r) : (⟨S8x64, .f32⟩ : BufTy).Contents (Elt F) → (⟨S64x16, .f32⟩ : BufTy).Contents (Elt F) → (⟨S8x16, .f32⟩ : BufTy).Contents (Elt F)),
    StableHlo.unary main_arg12 main_v87 ((transpose S16x16 [1, 0] · transposes_S16x16_S16x16_1_0) : (⟨S16x16, .f32⟩ : BufTy).Contents (Elt F) → (⟨S16x16, .f32⟩ : BufTy).Contents (Elt F)),
    StableHlo.binary main_v86 main_v87 main_v88 ((fun l r => Host.dotGeneral dot_S8x16_S16x16_S8x16_1_0_0_1_n_n none l r) : (⟨S8x16, .f32⟩ : BufTy).Contents (Elt F) → (⟨S16x16, .f32⟩ : BufTy).Contents (Elt F) → (⟨S8x16, .f32⟩ : BufTy).Contents (Elt F)),
    StableHlo.unary main_arg13 main_v89 (broadcastInDim S1x16 ![1] bcast_S16_S1x16_1 : (⟨S16, .f32⟩ : BufTy).Contents (Elt F) → (⟨S1x16, .f32⟩ : BufTy).Contents (Elt F)),
    StableHlo.unary main_v89 main_v90 (broadcastInDim S8x16 ![0, 1] bcast_S1x16_S8x16_0_1 : (⟨S1x16, .f32⟩ : BufTy).Contents (Elt F) → (⟨S8x16, .f32⟩ : BufTy).Contents (Elt F)),
    StableHlo.binary main_v88 main_v90 main_v91 (addf : (⟨S8x16, .f32⟩ : BufTy).Contents (Elt F) → (⟨S8x16, .f32⟩ : BufTy).Contents (Elt F) → (⟨S8x16, .f32⟩ : BufTy).Contents (Elt F)),
    StableHlo.nullary main_cst_14 (constant S_ .f32 0x3E4CCCCD#32),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S8x16, .f32⟩) (broadcastInDim S8x16 ![] bcast_S_S8x16),
    StableHlo.TRef.binary (.of main_v91 : StableHlo.TRef sig ⟨S8x16, .f32⟩) (.of main_call1_v0 : StableHlo.TRef sig ⟨S8x16, .f32⟩) (.of main_call1_v1 : StableHlo.TRef sig ⟨S8x16, .i1⟩) (cmpf .oge),
    StableHlo.TRef.unary (.of main_cst_14 : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S8x16, .f32⟩) (broadcastInDim S8x16 ![] bcast_S_S8x16),
    StableHlo.TRef.binary (.of main_call1_v3 : StableHlo.TRef sig ⟨S8x16, .f32⟩) (.of main_v91 : StableHlo.TRef sig ⟨S8x16, .f32⟩) (.of main_call1_v4 : StableHlo.TRef sig ⟨S8x16, .f32⟩) mulf,
    StableHlo.TRef.ternary (.of main_call1_v1 : StableHlo.TRef sig ⟨S8x16, .i1⟩) (.of main_v91 : StableHlo.TRef sig ⟨S8x16, .f32⟩) (.of main_call1_v4 : StableHlo.TRef sig ⟨S8x16, .f32⟩) (.of main_v92 : StableHlo.TRef sig ⟨S8x16, .f32⟩) select,
    StableHlo.nullary main_cst_15 (constant S_ .f32 0xFF800000#32),
    StableHlo.binary main_v92 main_cst_15 main_v93 ((fun x v => Host.reduce FloatOps.maximumf x v reducesTo_S8x16_S8_d1 h_S_) : (⟨S8x16, .f32⟩ : BufTy).Contents (Elt F) → (⟨S_, .f32⟩ : BufTy).Contents (Elt F) → (⟨S8, .f32⟩ : BufTy).Contents (Elt F)),
    StableHlo.nullary main_cst_16 (constant S_ .f32 0xFF800000#32),
    StableHlo.unary main_cst_16 main_v94 (broadcastInDim S8 ![] bcast_S_S8 : (⟨S_, .f32⟩ : BufTy).Contents (Elt F) → (⟨S8, .f32⟩ : BufTy).Contents (Elt F)),
    StableHlo.binary main_v94 main_v93 main_v95 (maximumf : (⟨S8, .f32⟩ : BufTy).Contents (Elt F) → (⟨S8, .f32⟩ : BufTy).Contents (Elt F) → (⟨S8, .f32⟩ : BufTy).Contents (Elt F)),
    StableHlo.unary main_v95 main_v96 (broadcastInDim S8x1 ![0] bcast_S8_S8x1_0 : (⟨S8, .f32⟩ : BufTy).Contents (Elt F) → (⟨S8x1, .f32⟩ : BufTy).Contents (Elt F)),
    StableHlo.unary main_v96 main_v97 (broadcastInDim S8x16 ![0, 1] bcast_S8x1_S8x16_0_1 : (⟨S8x1, .f32⟩ : BufTy).Contents (Elt F) → (⟨S8x16, .f32⟩ : BufTy).Contents (Elt F)),
    StableHlo.binary main_v92 main_v97 main_v98 (subf : (⟨S8x16, .f32⟩ : BufTy).Contents (Elt F) → (⟨S8x16, .f32⟩ : BufTy).Contents (Elt F) → (⟨S8x16, .f32⟩ : BufTy).Contents (Elt F)),
    StableHlo.unary main_v98 main_v99 (Host.exp : (⟨S8x16, .f32⟩ : BufTy).Contents (Elt F) → (⟨S8x16, .f32⟩ : BufTy).Contents (Elt F)),
    StableHlo.nullary main_cst_17 (constant S_ .f32 0x00000000#32) ]

/-- Statements 121 … 128. -/
abbrev ops2 : List (HloOp τ sig (Elt F)) :=
  [ StableHlo.binary main_v99 main_cst_17 main_v100 ((fun x v => Host.reduceAdd x v reducesTo_S8x16_S8_d1 h_S_) : (⟨S8x16, .f32⟩ : BufTy).Contents (Elt F) → (⟨S_, .f32⟩ : BufTy).Contents (Elt F) → (⟨S8, .f32⟩ : BufTy).Contents (Elt F)),
    StableHlo.unary main_v100 main_v101 (broadcastInDim S8x1 ![0] bcast_S8_S8x1_0 : (⟨S8, .f32⟩ : BufTy).Contents (Elt F) → (⟨S8x1, .f32⟩ : BufTy).Contents (Elt F)),
    StableHlo.unary main_v101 main_v102 (broadcastInDim S8x16 ![0, 1] bcast_S8x1_S8x16_0_1 : (⟨S8x1, .f32⟩ : BufTy).Contents (Elt F) → (⟨S8x16, .f32⟩ : BufTy).Contents (Elt F)),
    StableHlo.binary main_v99 main_v102 main_v103 (Host.divf : (⟨S8x16, .f32⟩ : BufTy).Contents (Elt F) → (⟨S8x16, .f32⟩ : BufTy).Contents (Elt F) → (⟨S8x16, .f32⟩ : BufTy).Contents (Elt F)),
    StableHlo.binary main_v103 main_arg8 main_v104 ((fun l r => Host.dotGeneral dot_S8x16_S16x64_S8x64_1_0_0_1_n_n none l r) : (⟨S8x16, .f32⟩ : BufTy).Contents (Elt F) → (⟨S16x64, .f32⟩ : BufTy).Contents (Elt F) → (⟨S8x64, .f32⟩ : BufTy).Contents (Elt F)),
    StableHlo.binary main_v74 main_v104 main_v105 ((fun l r => Host.dotGeneral dot_S50000x8_S8x64_S50000x64_1_0_0_1_n_n none l r) : (⟨S50000x8, .f32⟩ : BufTy).Contents (Elt F) → (⟨S8x64, .f32⟩ : BufTy).Contents (Elt F) → (⟨S50000x64, .f32⟩ : BufTy).Contents (Elt F)),
    StableHlo.binary main_v45 main_v105 main_v106 (mulf : (⟨S50000x64, .f32⟩ : BufTy).Contents (Elt F) → (⟨S50000x64, .f32⟩ : BufTy).Contents (Elt F) → (⟨S50000x64, .f32⟩ : BufTy).Contents (Elt F)),
    StableHlo.binary main_v106 main_v45 main_v107 (addf : (⟨S50000x64, .f32⟩ : BufTy).Contents (Elt F) → (⟨S50000x64, .f32⟩ : BufTy).Contents (Elt F) → (⟨S50000x64, .f32⟩ : BufTy).Contents (Elt F)) ]

/-- Every operation of @main, in program order. -/
abbrev ops : List (HloOp τ sig (Elt F)) :=
  [ StableHlo.unary main_arg3 main_v0 ((extractStridedSlice S1x2000000 ![0, 0] · slices_S2x2000000_S1x2000000_0_0) : (⟨S2x2000000, .i32⟩ : BufTy).Contents (Elt F) → (⟨S1x2000000, .i32⟩ : BufTy).Contents (Elt F)),
    StableHlo.reshape main_v0 main_v1 rfl shapeCasts_S1x2000000_S2000000,
    StableHlo.unary main_arg3 main_v2 ((extractStridedSlice S1x2000000 ![1, 0] · slices_S2x2000000_S1x2000000_1_0) : (⟨S2x2000000, .i32⟩ : BufTy).Contents (Elt F) → (⟨S1x2000000, .i32⟩ : BufTy).Contents (Elt F)),
    StableHlo.reshape main_v2 main_v3 rfl shapeCasts_S1x2000000_S2000000,
    StableHlo.nullary main_c (constantI S_ 32 0#32),
    StableHlo.unary main_c main_v4 (broadcastInDim S2000000 ![] bcast_S_S2000000 : (⟨S_, .i32⟩ : BufTy).Contents (Elt F) → (⟨S2000000, .i32⟩ : BufTy).Contents (Elt F)),
    StableHlo.binary main_v3 main_v4 main_v5 (cmpi .slt : (⟨S2000000, .i32⟩ : BufTy).Contents (Elt F) → (⟨S2000000, .i32⟩ : BufTy).Contents (Elt F) → (⟨S2000000, .i1⟩ : BufTy).Contents (Elt F)),
    StableHlo.nullary main_c_0 (constantI S_ 32 100000#32),
    StableHlo.unary main_c_0 main_v6 (broadcastInDim S2000000 ![] bcast_S_S2000000 : (⟨S_, .i32⟩ : BufTy).Contents (Elt F) → (⟨S2000000, .i32⟩ : BufTy).Contents (Elt F)),
    StableHlo.binary main_v3 main_v6 main_v7 (addi : (⟨S2000000, .i32⟩ : BufTy).Contents (Elt F) → (⟨S2000000, .i32⟩ : BufTy).Contents (Elt F) → (⟨S2000000, .i32⟩ : BufTy).Contents (Elt F)),
    StableHlo.ternary main_v5 main_v7 main_v3 main_v8 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v8 main_v9 (broadcastInDim S2000000x1 ![0] bcast_S2000000_S2000000x1_0 : (⟨S2000000, .i32⟩ : BufTy).Contents (Elt F) → (⟨S2000000x1, .i32⟩ : BufTy).Contents (Elt F)),
    StableHlo.binary main_arg0 main_v9 main_v10 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    StableHlo.nullary main_c_1 (constantI S_ 32 1#32),
    StableHlo.unary main_c_1 main_v11 (broadcastInDim S2000000 ![] bcast_S_S2000000 : (⟨S_, .i32⟩ : BufTy).Contents (Elt F) → (⟨S2000000, .i32⟩ : BufTy).Contents (Elt F)),
    StableHlo.binary main_arg4 main_v11 main_v12 (subi : (⟨S2000000, .i32⟩ : BufTy).Contents (Elt F) → (⟨S2000000, .i32⟩ : BufTy).Contents (Elt F) → (⟨S2000000, .i32⟩ : BufTy).Contents (Elt F)),
    StableHlo.nullary main_c_2 (constantI S_ 32 0#32),
    StableHlo.unary main_c_2 main_v13 (broadcastInDim S2000000 ![] bcast_S_S2000000 : (⟨S_, .i32⟩ : BufTy).Contents (Elt F) → (⟨S2000000, .i32⟩ : BufTy).Contents (Elt F)),
    StableHlo.binary main_v12 main_v13 main_v14 (cmpi .slt : (⟨S2000000, .i32⟩ : BufTy).Contents (Elt F) → (⟨S2000000, .i32⟩ : BufTy).Contents (Elt F) → (⟨S2000000, .i1⟩ : BufTy).Contents (Elt F)),
    StableHlo.nullary main_c_3 (constantI S_ 32 16#32),
    StableHlo.unary main_c_3 main_v15 (broadcastInDim S2000000 ![] bcast_S_S2000000 : (⟨S_, .i32⟩ : BufTy).Contents (Elt F) → (⟨S2000000, .i32⟩ : BufTy).Contents (Elt F)),
    StableHlo.binary main_v12 main_v15 main_v16 (addi : (⟨S2000000, .i32⟩ : BufTy).Contents (Elt F) → (⟨S2000000, .i32⟩ : BufTy).Contents (Elt F) → (⟨S2000000, .i32⟩ : BufTy).Contents (Elt F)),
    StableHlo.ternary main_v14 main_v16 main_v12 main_v17 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v17 main_v18 (broadcastInDim S2000000x1 ![0] bcast_S2000000_S2000000x1_0 : (⟨S2000000, .i32⟩ : BufTy).Contents (Elt F) → (⟨S2000000x1, .i32⟩ : BufTy).Contents (Elt F)),
    StableHlo.binary main_arg8 main_v18 main_v19 ((fun x i => Host.gather gather_S16x64_S2000000x1_S2000000x64_1_0_n_n_0_1_164 x i) : (⟨S16x64, .f32⟩ : BufTy).Contents (Elt F) → (⟨S2000000x1, .i32⟩ : BufTy).Contents (Elt F) → (⟨S2000000x64, .f32⟩ : BufTy).Contents (Elt F)),
    StableHlo.binary main_v10 main_v19 main_v20 (mulf : (⟨S2000000x64, .f32⟩ : BufTy).Contents (Elt F) → (⟨S2000000x64, .f32⟩ : BufTy).Contents (Elt F) → (⟨S2000000x64, .f32⟩ : BufTy).Contents (Elt F)),
    StableHlo.nullary main_cst (constant S_ .f32 0x00000000#32),
    StableHlo.unary main_cst main_v21 (broadcastInDim S100000x64 ![] bcast_S_S100000x64 : (⟨S_, .f32⟩ : BufTy).Contents (Elt F) → (⟨S100000x64, .f32⟩ : BufTy).Contents (Elt F)),
    StableHlo.unary main_v1 main_v22 (broadcastInDim S2000000x1 ![0] bcast_S2000000_S2000000x1_0 : (⟨S2000000, .i32⟩ : BufTy).Contents (Elt F) → (⟨S2000000x1, .i32⟩ : BufTy).Contents (Elt F)),
    StableHlo.ternary main_v21 main_v22 main_v20 main_v23 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    StableHlo.nullary main_cst_4 (constant S_ .f32 0x3F800000#32),
    StableHlo.unary main_cst_4 main_v24 (broadcastInDim S2000000 ![] bcast_S_S2000000 : (⟨S_, .f32⟩ : BufTy).Contents (Elt F) → (⟨S2000000, .f32⟩ : BufTy).Contents (Elt F)),
    StableHlo.nullary main_cst_5 (constant S_ .f32 0x00000000#32),
    StableHlo.unary main_cst_5 main_v25 (broadcastInDim S100000 ![] bcast_S_S100000 : (⟨S_, .f32⟩ : BufTy).Contents (Elt F) → (⟨S100000, .f32⟩ : BufTy).Contents (Elt F)),
    StableHlo.unary main_v1 main_v26 (broadcastInDim S2000000x1 ![0] bcast_S2000000_S2000000x1_0 : (⟨S2000000, .i32⟩ : BufTy).Contents (Elt F) → (⟨S2000000x1, .i32⟩ : BufTy).Contents (Elt F)),
    StableHlo.ternary main_v25 main_v26 main_v24 main_v27 ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)),
    StableHlo.nullary main_cst_6 (constant S_ .f32 0x3F800000#32),
    StableHlo.unary main_cst_6 main_v28 (broadcastInDim S100000 ![] bcast_S_S100000 : (⟨S_, .f32⟩ : BufTy).Contents (Elt F) → (⟨S100000, .f32⟩ : BufTy).Contents (Elt F)),
    StableHlo.binary main_v27 main_v28 main_v29 (maximumf : (⟨S100000, .f32⟩ : BufTy).Contents (Elt F) → (⟨S100000, .f32⟩ : BufTy).Contents (Elt F) → (⟨S100000, .f32⟩ : BufTy).Contents (Elt F)),
    StableHlo.unary main_v29 main_v30 (broadcastInDim S100000x1 ![0] bcast_S100000_S100000x1_0 : (⟨S100000, .f32⟩ : BufTy).Contents (Elt F) → (⟨S100000x1, .f32⟩ : BufTy).Contents (Elt F)),
    StableHlo.unary main_v30 main_v31 (broadcastInDim S100000x64 ![0, 1] bcast_S100000x1_S100000x64_0_1 : (⟨S100000x1, .f32⟩ : BufTy).Contents (Elt F) → (⟨S100000x64, .f32⟩ : BufTy).Contents (Elt F)),
    StableHlo.binary main_v23 main_v31 main_v32 (Host.divf : (⟨S100000x64, .f32⟩ : BufTy).Contents (Elt F) → (⟨S100000x64, .f32⟩ : BufTy).Contents (Elt F) → (⟨S100000x64, .f32⟩ : BufTy).Contents (Elt F)),
    StableHlo.unary main_arg7 main_v33 (broadcastInDim S2000000x1 ![0] bcast_S2000000_S2000000x1_0 : (⟨S2000000, .f32⟩ : BufTy).Contents (Elt F) → (⟨S2000000x1, .f32⟩ : BufTy).Contents (Elt F)),
    StableHlo.nullary main_c_7 (constantI S_ 32 0#32),
    StableHlo.unary main_c_7 main_v34 (broadcastInDim S2000000 ![] bcast_S_S2000000 : (⟨S_, .i32⟩ : BufTy).Contents (Elt F) → (⟨S2000000, .i32⟩ : BufTy).Contents (Elt F)),
    StableHlo.binary main_arg6 main_v34 main_v35 (cmpi .slt : (⟨S2000000, .i32⟩ : BufTy).Contents (Elt F) → (⟨S2000000, .i32⟩ : BufTy).Contents (Elt F) → (⟨S2000000, .i1⟩ : BufTy).Contents (Elt F)),
    StableHlo.nullary main_c_8 (constantI S_ 32 100000#32),
    StableHlo.unary main_c_8 main_v36 (broadcastInDim S2000000 ![] bcast_S_S2000000 : (⟨S_, .i32⟩ : BufTy).Contents (Elt F) → (⟨S2000000, .i32⟩ : BufTy).Contents (Elt F)),
    StableHlo.binary main_arg6 main_v36 main_v37 (addi : (⟨S2000000, .i32⟩ : BufTy).Contents (Elt F) → (⟨S2000000, .i32⟩ : BufTy).Contents (Elt F) → (⟨S2000000, .i32⟩ : BufTy).Contents (Elt F)),
    StableHlo.ternary main_v35 main_v37 main_arg6 main_v38 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v38 main_v39 (broadcastInDim S2000000x1 ![0] bcast_S2000000_S2000000x1_0 : (⟨S2000000, .i32⟩ : BufTy).Contents (Elt F) → (⟨S2000000x1, .i32⟩ : BufTy).Contents (Elt F)),
    StableHlo.binary main_arg0 main_v39 main_v40 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    StableHlo.unary main_v33 main_v41 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v41 main_v40 main_v42 (mulf : (⟨S2000000x64, .f32⟩ : BufTy).Contents (Elt F) → (⟨S2000000x64, .f32⟩ : BufTy).Contents (Elt F) → (⟨S2000000x64, .f32⟩ : BufTy).Contents (Elt F)),
    StableHlo.nullary main_cst_9 (constant S_ .f32 0x00000000#32),
    StableHlo.unary main_cst_9 main_v43 (broadcastInDim S50000x64 ![] bcast_S_S50000x64 : (⟨S_, .f32⟩ : BufTy).Contents (Elt F) → (⟨S50000x64, .f32⟩ : BufTy).Contents (Elt F)),
    StableHlo.unary main_arg5 main_v44 (broadcastInDim S2000000x1 ![0] bcast_S2000000_S2000000x1_0 : (⟨S2000000, .i32⟩ : BufTy).Contents (Elt F) → (⟨S2000000x1, .i32⟩ : BufTy).Contents (Elt F)),
    StableHlo.ternary main_v43 main_v44 main_v42 main_v45 ((fun x i u => Host.scatterAdd scatter_S50000x64_S2000000x1_S2000000x64_1_0_0_1 x i u) : (⟨S50000x64, .f32⟩ : BufTy).Contents (Elt F) → (⟨S2000000x1, .i32⟩ : BufTy).Contents (Elt F) → (⟨S2000000x64, .f32⟩ : BufTy).Contents (Elt F) → (⟨S50000x64, .f32⟩ : BufTy).Contents (Elt F)),
    StableHlo.unary main_arg14 main_v46 ((transpose S64x64 [1, 0] · transposes_S64x64_S64x64_1_0) : (⟨S64x64, .f32⟩ : BufTy).Contents (Elt F) → (⟨S64x64, .f32⟩ : BufTy).Contents (Elt F)),
    StableHlo.binary main_arg1 main_v46 main_v47 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg15 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S50000x64 ![0, 1] bcast_S1x64_S50000x64_0_1 : (⟨S1x64, .f32⟩ : BufTy).Contents (Elt F) → (⟨S50000x64, .f32⟩ : BufTy).Contents (Elt F)),
    StableHlo.binary main_v47 main_v49 main_v50 (addf : (⟨S50000x64, .f32⟩ : BufTy).Contents (Elt F) → (⟨S50000x64, .f32⟩ : BufTy).Contents (Elt F) → (⟨S50000x64, .f32⟩ : BufTy).Contents (Elt F)),
    StableHlo.unary main_arg14 main_v51 ((transpose S64x64 [1, 0] · transposes_S64x64_S64x64_1_0) : (⟨S64x64, .f32⟩ : BufTy).Contents (Elt F) → (⟨S64x64, .f32⟩ : BufTy).Contents (Elt F)),
    StableHlo.binary main_arg2 main_v51 main_v52 ((fun l r => Host.dotGeneral dot_S8x64_S64x64_S8x64_1_0_0_1_n_n none l r) : (⟨S8x64, .f32⟩ : BufTy).Contents (Elt F) → (⟨S64x64, .f32⟩ : BufTy).Contents (Elt F) → (⟨S8x64, .f32⟩ : BufTy).Contents (Elt F)),
    StableHlo.unary main_arg15 main_v53 (broadcastInDim S1x64 ![1] bcast_S64_S1x64_1 : (⟨S64, .f32⟩ : BufTy).Contents (Elt F) → (⟨S1x64, .f32⟩ : BufTy).Contents (Elt F)),
    StableHlo.unary main_v53 main_v54 (broadcastInDim S8x64 ![0, 1] bcast_S1x64_S8x64_0_1 : (⟨S1x64, .f32⟩ : BufTy).Contents (Elt F) → (⟨S8x64, .f32⟩ : BufTy).Contents (Elt F)),
    StableHlo.binary main_v52 main_v54 main_v55 (addf : (⟨S8x64, .f32⟩ : BufTy).Contents (Elt F) → (⟨S8x64, .f32⟩ : BufTy).Contents (Elt F) → (⟨S8x64, .f32⟩ : BufTy).Contents (Elt F)),
    StableHlo.unary main_v55 main_v56 ((transpose S64x8 [1, 0] · transposes_S8x64_S64x8_1_0) : (⟨S8x64, .f32⟩ : BufTy).Contents (Elt F) → (⟨S64x8, .f32⟩ : BufTy).Contents (Elt F)),
    StableHlo.binary main_v50 main_v56 main_v57 ((fun l r => Host.dotGeneral dot_S50000x64_S64x8_S50000x8_1_0_0_1_n_n none l r) : (⟨S50000x64, .f32⟩ : BufTy).Contents (Elt F) → (⟨S64x8, .f32⟩ : BufTy).Contents (Elt F) → (⟨S50000x8, .f32⟩ : BufTy).Contents (Elt F)),
    StableHlo.unary main_arg10 main_v58 ((transpose S8x8 [1, 0] · transposes_S8x8_S8x8_1_0) : (⟨S8x8, .f32⟩ : BufTy).Contents (Elt F) → (⟨S8x8, .f32⟩ : BufTy).Contents (Elt F)),
    StableHlo.binary main_v57 main_v58 main_v59 ((fun l r => Host.dotGeneral dot_S50000x8_S8x8_S50000x8_1_0_0_1_n_n none l r) : (⟨S50000x8, .f32⟩ : BufTy).Contents (Elt F) → (⟨S8x8, .f32⟩ : BufTy).Contents (Elt F) → (⟨S50000x8, .f32⟩ : BufTy).Contents (Elt F)),
    StableHlo.unary main_arg11 main_v60 (broadcastInDim S1x8 ![1] bcast_S8_S1x8_1 : (⟨S8, .f32⟩ : BufTy).Contents (Elt F) → (⟨S1x8, .f32⟩ : BufTy).Contents (Elt F)),
    StableHlo.unary main_v60 main_v61 (broadcastInDim S50000x8 ![0, 1] bcast_S1x8_S50000x8_0_1 : (⟨S1x8, .f32⟩ : BufTy).Contents (Elt F) → (⟨S50000x8, .f32⟩ : BufTy).Contents (Elt F)),
    StableHlo.binary main_v59 main_v61 main_v62 (addf : (⟨S50000x8, .f32⟩ : BufTy).Contents (Elt F) → (⟨S50000x8, .f32⟩ : BufTy).Contents (Elt F) → (⟨S50000x8, .f32⟩ : BufTy).Contents (Elt F)),
    StableHlo.nullary main_cst_10 (constant S_ .f32 0x3E4CCCCD#32),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S50000x8, .f32⟩) (broadcastInDim S50000x8 ![] bcast_S_S50000x8),
    StableHlo.TRef.binary (.of main_v62 : StableHlo.TRef sig ⟨S50000x8, .f32⟩) (.of main_call0_v0 : StableHlo.TRef sig ⟨S50000x8, .f32⟩) (.of main_call0_v1 : StableHlo.TRef sig ⟨S50000x8, .i1⟩) (cmpf .oge),
    StableHlo.TRef.unary (.of main_cst_10 : StableHlo.TRef sig ⟨S_, .f32⟩) (.of main_call0_v2 : StableHlo.TRef sig ⟨S_, .f32⟩) id,
    StableHlo.TRef.unary (.of main_call0_v2 : StableHlo.TRef sig ⟨S_, .f32⟩) (.of main_call0_v3 : StableHlo.TRef sig ⟨S50000x8, .f32⟩) (broadcastInDim S50000x8 ![] bcast_S_S50000x8),
    StableHlo.TRef.binary (.of main_call0_v3 : StableHlo.TRef sig ⟨S50000x8, .f32⟩) (.of main_v62 : StableHlo.TRef sig ⟨S50000x8, .f32⟩) (.of main_call0_v4 : StableHlo.TRef sig ⟨S50000x8, .f32⟩) mulf,
    StableHlo.TRef.ternary (.of main_call0_v1 : StableHlo.TRef sig ⟨S50000x8, .i1⟩) (.of main_v62 : StableHlo.TRef sig ⟨S50000x8, .f32⟩) (.of main_call0_v4 : StableHlo.TRef sig ⟨S50000x8, .f32⟩) (.of main_v63 : StableHlo.TRef sig ⟨S50000x8, .f32⟩) select,
    StableHlo.nullary main_cst_11 (constant S_ .f32 0xFF800000#32),
    StableHlo.binary main_v63 main_cst_11 main_v64 ((fun x v => Host.reduce FloatOps.maximumf x v reducesTo_S50000x8_S50000_d1 h_S_) : (⟨S50000x8, .f32⟩ : BufTy).Contents (Elt F) → (⟨S_, .f32⟩ : BufTy).Contents (Elt F) → (⟨S50000, .f32⟩ : BufTy).Contents (Elt F)),
    StableHlo.nullary main_cst_12 (constant S_ .f32 0xFF800000#32),
    StableHlo.unary main_cst_12 main_v65 (broadcastInDim S50000 ![] bcast_S_S50000 : (⟨S_, .f32⟩ : BufTy).Contents (Elt F) → (⟨S50000, .f32⟩ : BufTy).Contents (Elt F)),
    StableHlo.binary main_v65 main_v64 main_v66 (maximumf : (⟨S50000, .f32⟩ : BufTy).Contents (Elt F) → (⟨S50000, .f32⟩ : BufTy).Contents (Elt F) → (⟨S50000, .f32⟩ : BufTy).Contents (Elt F)),
    StableHlo.unary main_v66 main_v67 (broadcastInDim S50000x1 ![0] bcast_S50000_S50000x1_0 : (⟨S50000, .f32⟩ : BufTy).Contents (Elt F) → (⟨S50000x1, .f32⟩ : BufTy).Contents (Elt F)),
    StableHlo.unary main_v67 main_v68 (broadcastInDim S50000x8 ![0, 1] bcast_S50000x1_S50000x8_0_1 : (⟨S50000x1, .f32⟩ : BufTy).Contents (Elt F) → (⟨S50000x8, .f32⟩ : BufTy).Contents (Elt F)),
    StableHlo.binary main_v63 main_v68 main_v69 (subf : (⟨S50000x8, .f32⟩ : BufTy).Contents (Elt F) → (⟨S50000x8, .f32⟩ : BufTy).Contents (Elt F) → (⟨S50000x8, .f32⟩ : BufTy).Contents (Elt F)),
    StableHlo.unary main_v69 main_v70 (Host.exp : (⟨S50000x8, .f32⟩ : BufTy).Contents (Elt F) → (⟨S50000x8, .f32⟩ : BufTy).Contents (Elt F)),
    StableHlo.nullary main_cst_13 (constant S_ .f32 0x00000000#32),
    StableHlo.binary main_v70 main_cst_13 main_v71 ((fun x v => Host.reduceAdd x v reducesTo_S50000x8_S50000_d1 h_S_) : (⟨S50000x8, .f32⟩ : BufTy).Contents (Elt F) → (⟨S_, .f32⟩ : BufTy).Contents (Elt F) → (⟨S50000, .f32⟩ : BufTy).Contents (Elt F)),
    StableHlo.unary main_v71 main_v72 (broadcastInDim S50000x1 ![0] bcast_S50000_S50000x1_0 : (⟨S50000, .f32⟩ : BufTy).Contents (Elt F) → (⟨S50000x1, .f32⟩ : BufTy).Contents (Elt F)),
    StableHlo.unary main_v72 main_v73 (broadcastInDim S50000x8 ![0, 1] bcast_S50000x1_S50000x8_0_1 : (⟨S50000x1, .f32⟩ : BufTy).Contents (Elt F) → (⟨S50000x8, .f32⟩ : BufTy).Contents (Elt F)),
    StableHlo.binary main_v70 main_v73 main_v74 (Host.divf : (⟨S50000x8, .f32⟩ : BufTy).Contents (Elt F) → (⟨S50000x8, .f32⟩ : BufTy).Contents (Elt F) → (⟨S50000x8, .f32⟩ : BufTy).Contents (Elt F)),
    StableHlo.unary main_arg16 main_v75 ((transpose S64x64 [1, 0] · transposes_S64x64_S64x64_1_0) : (⟨S64x64, .f32⟩ : BufTy).Contents (Elt F) → (⟨S64x64, .f32⟩ : BufTy).Contents (Elt F)),
    StableHlo.binary main_arg2 main_v75 main_v76 ((fun l r => Host.dotGeneral dot_S8x64_S64x64_S8x64_1_0_0_1_n_n none l r) : (⟨S8x64, .f32⟩ : BufTy).Contents (Elt F) → (⟨S64x64, .f32⟩ : BufTy).Contents (Elt F) → (⟨S8x64, .f32⟩ : BufTy).Contents (Elt F)),
    StableHlo.unary main_arg17 main_v77 (broadcastInDim S1x64 ![1] bcast_S64_S1x64_1 : (⟨S64, .f32⟩ : BufTy).Contents (Elt F) → (⟨S1x64, .f32⟩ : BufTy).Contents (Elt F)),
    StableHlo.unary main_v77 main_v78 (broadcastInDim S8x64 ![0, 1] bcast_S1x64_S8x64_0_1 : (⟨S1x64, .f32⟩ : BufTy).Contents (Elt F) → (⟨S8x64, .f32⟩ : BufTy).Contents (Elt F)),
    StableHlo.binary main_v76 main_v78 main_v79 (addf : (⟨S8x64, .f32⟩ : BufTy).Contents (Elt F) → (⟨S8x64, .f32⟩ : BufTy).Contents (Elt F) → (⟨S8x64, .f32⟩ : BufTy).Contents (Elt F)),
    StableHlo.unary main_arg16 main_v80 ((transpose S64x64 [1, 0] · transposes_S64x64_S64x64_1_0) : (⟨S64x64, .f32⟩ : BufTy).Contents (Elt F) → (⟨S64x64, .f32⟩ : BufTy).Contents (Elt F)),
    StableHlo.binary main_arg8 main_v80 main_v81 ((fun l r => Host.dotGeneral dot_S16x64_S64x64_S16x64_1_0_0_1_n_n none l r) : (⟨S16x64, .f32⟩ : BufTy).Contents (Elt F) → (⟨S64x64, .f32⟩ : BufTy).Contents (Elt F) → (⟨S16x64, .f32⟩ : BufTy).Contents (Elt F)),
    StableHlo.unary main_arg17 main_v82 (broadcastInDim S1x64 ![1] bcast_S64_S1x64_1 : (⟨S64, .f32⟩ : BufTy).Contents (Elt F) → (⟨S1x64, .f32⟩ : BufTy).Contents (Elt F)),
    StableHlo.unary main_v82 main_v83 (broadcastInDim S16x64 ![0, 1] bcast_S1x64_S16x64_0_1 : (⟨S1x64, .f32⟩ : BufTy).Contents (Elt F) → (⟨S16x64, .f32⟩ : BufTy).Contents (Elt F)),
    StableHlo.binary main_v81 main_v83 main_v84 (addf : (⟨S16x64, .f32⟩ : BufTy).Contents (Elt F) → (⟨S16x64, .f32⟩ : BufTy).Contents (Elt F) → (⟨S16x64, .f32⟩ : BufTy).Contents (Elt F)),
    StableHlo.unary main_v84 main_v85 ((transpose S64x16 [1, 0] · transposes_S16x64_S64x16_1_0) : (⟨S16x64, .f32⟩ : BufTy).Contents (Elt F) → (⟨S64x16, .f32⟩ : BufTy).Contents (Elt F)),
    StableHlo.binary main_v79 main_v85 main_v86 ((fun l r => Host.dotGeneral dot_S8x64_S64x16_S8x16_1_0_0_1_n_n none l r) : (⟨S8x64, .f32⟩ : BufTy).Contents (Elt F) → (⟨S64x16, .f32⟩ : BufTy).Contents (Elt F) → (⟨S8x16, .f32⟩ : BufTy).Contents (Elt F)),
    StableHlo.unary main_arg12 main_v87 ((transpose S16x16 [1, 0] · transposes_S16x16_S16x16_1_0) : (⟨S16x16, .f32⟩ : BufTy).Contents (Elt F) → (⟨S16x16, .f32⟩ : BufTy).Contents (Elt F)),
    StableHlo.binary main_v86 main_v87 main_v88 ((fun l r => Host.dotGeneral dot_S8x16_S16x16_S8x16_1_0_0_1_n_n none l r) : (⟨S8x16, .f32⟩ : BufTy).Contents (Elt F) → (⟨S16x16, .f32⟩ : BufTy).Contents (Elt F) → (⟨S8x16, .f32⟩ : BufTy).Contents (Elt F)),
    StableHlo.unary main_arg13 main_v89 (broadcastInDim S1x16 ![1] bcast_S16_S1x16_1 : (⟨S16, .f32⟩ : BufTy).Contents (Elt F) → (⟨S1x16, .f32⟩ : BufTy).Contents (Elt F)),
    StableHlo.unary main_v89 main_v90 (broadcastInDim S8x16 ![0, 1] bcast_S1x16_S8x16_0_1 : (⟨S1x16, .f32⟩ : BufTy).Contents (Elt F) → (⟨S8x16, .f32⟩ : BufTy).Contents (Elt F)),
    StableHlo.binary main_v88 main_v90 main_v91 (addf : (⟨S8x16, .f32⟩ : BufTy).Contents (Elt F) → (⟨S8x16, .f32⟩ : BufTy).Contents (Elt F) → (⟨S8x16, .f32⟩ : BufTy).Contents (Elt F)),
    StableHlo.nullary main_cst_14 (constant S_ .f32 0x3E4CCCCD#32),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S8x16, .f32⟩) (broadcastInDim S8x16 ![] bcast_S_S8x16),
    StableHlo.TRef.binary (.of main_v91 : StableHlo.TRef sig ⟨S8x16, .f32⟩) (.of main_call1_v0 : StableHlo.TRef sig ⟨S8x16, .f32⟩) (.of main_call1_v1 : StableHlo.TRef sig ⟨S8x16, .i1⟩) (cmpf .oge),
    StableHlo.TRef.unary (.of main_cst_14 : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S8x16, .f32⟩) (broadcastInDim S8x16 ![] bcast_S_S8x16),
    StableHlo.TRef.binary (.of main_call1_v3 : StableHlo.TRef sig ⟨S8x16, .f32⟩) (.of main_v91 : StableHlo.TRef sig ⟨S8x16, .f32⟩) (.of main_call1_v4 : StableHlo.TRef sig ⟨S8x16, .f32⟩) mulf,
    StableHlo.TRef.ternary (.of main_call1_v1 : StableHlo.TRef sig ⟨S8x16, .i1⟩) (.of main_v91 : StableHlo.TRef sig ⟨S8x16, .f32⟩) (.of main_call1_v4 : StableHlo.TRef sig ⟨S8x16, .f32⟩) (.of main_v92 : StableHlo.TRef sig ⟨S8x16, .f32⟩) select,
    StableHlo.nullary main_cst_15 (constant S_ .f32 0xFF800000#32),
    StableHlo.binary main_v92 main_cst_15 main_v93 ((fun x v => Host.reduce FloatOps.maximumf x v reducesTo_S8x16_S8_d1 h_S_) : (⟨S8x16, .f32⟩ : BufTy).Contents (Elt F) → (⟨S_, .f32⟩ : BufTy).Contents (Elt F) → (⟨S8, .f32⟩ : BufTy).Contents (Elt F)),
    StableHlo.nullary main_cst_16 (constant S_ .f32 0xFF800000#32),
    StableHlo.unary main_cst_16 main_v94 (broadcastInDim S8 ![] bcast_S_S8 : (⟨S_, .f32⟩ : BufTy).Contents (Elt F) → (⟨S8, .f32⟩ : BufTy).Contents (Elt F)),
    StableHlo.binary main_v94 main_v93 main_v95 (maximumf : (⟨S8, .f32⟩ : BufTy).Contents (Elt F) → (⟨S8, .f32⟩ : BufTy).Contents (Elt F) → (⟨S8, .f32⟩ : BufTy).Contents (Elt F)),
    StableHlo.unary main_v95 main_v96 (broadcastInDim S8x1 ![0] bcast_S8_S8x1_0 : (⟨S8, .f32⟩ : BufTy).Contents (Elt F) → (⟨S8x1, .f32⟩ : BufTy).Contents (Elt F)),
    StableHlo.unary main_v96 main_v97 (broadcastInDim S8x16 ![0, 1] bcast_S8x1_S8x16_0_1 : (⟨S8x1, .f32⟩ : BufTy).Contents (Elt F) → (⟨S8x16, .f32⟩ : BufTy).Contents (Elt F)),
    StableHlo.binary main_v92 main_v97 main_v98 (subf : (⟨S8x16, .f32⟩ : BufTy).Contents (Elt F) → (⟨S8x16, .f32⟩ : BufTy).Contents (Elt F) → (⟨S8x16, .f32⟩ : BufTy).Contents (Elt F)),
    StableHlo.unary main_v98 main_v99 (Host.exp : (⟨S8x16, .f32⟩ : BufTy).Contents (Elt F) → (⟨S8x16, .f32⟩ : BufTy).Contents (Elt F)),
    StableHlo.nullary main_cst_17 (constant S_ .f32 0x00000000#32),
    StableHlo.binary main_v99 main_cst_17 main_v100 ((fun x v => Host.reduceAdd x v reducesTo_S8x16_S8_d1 h_S_) : (⟨S8x16, .f32⟩ : BufTy).Contents (Elt F) → (⟨S_, .f32⟩ : BufTy).Contents (Elt F) → (⟨S8, .f32⟩ : BufTy).Contents (Elt F)),
    StableHlo.unary main_v100 main_v101 (broadcastInDim S8x1 ![0] bcast_S8_S8x1_0 : (⟨S8, .f32⟩ : BufTy).Contents (Elt F) → (⟨S8x1, .f32⟩ : BufTy).Contents (Elt F)),
    StableHlo.unary main_v101 main_v102 (broadcastInDim S8x16 ![0, 1] bcast_S8x1_S8x16_0_1 : (⟨S8x1, .f32⟩ : BufTy).Contents (Elt F) → (⟨S8x16, .f32⟩ : BufTy).Contents (Elt F)),
    StableHlo.binary main_v99 main_v102 main_v103 (Host.divf : (⟨S8x16, .f32⟩ : BufTy).Contents (Elt F) → (⟨S8x16, .f32⟩ : BufTy).Contents (Elt F) → (⟨S8x16, .f32⟩ : BufTy).Contents (Elt F)),
    StableHlo.binary main_v103 main_arg8 main_v104 ((fun l r => Host.dotGeneral dot_S8x16_S16x64_S8x64_1_0_0_1_n_n none l r) : (⟨S8x16, .f32⟩ : BufTy).Contents (Elt F) → (⟨S16x64, .f32⟩ : BufTy).Contents (Elt F) → (⟨S8x64, .f32⟩ : BufTy).Contents (Elt F)),
    StableHlo.binary main_v74 main_v104 main_v105 ((fun l r => Host.dotGeneral dot_S50000x8_S8x64_S50000x64_1_0_0_1_n_n none l r) : (⟨S50000x8, .f32⟩ : BufTy).Contents (Elt F) → (⟨S8x64, .f32⟩ : BufTy).Contents (Elt F) → (⟨S50000x64, .f32⟩ : BufTy).Contents (Elt F)),
    StableHlo.binary main_v45 main_v105 main_v106 (mulf : (⟨S50000x64, .f32⟩ : BufTy).Contents (Elt F) → (⟨S50000x64, .f32⟩ : BufTy).Contents (Elt F) → (⟨S50000x64, .f32⟩ : BufTy).Contents (Elt F)),
    StableHlo.binary main_v106 main_v45 main_v107 (addf : (⟨S50000x64, .f32⟩ : BufTy).Contents (Elt F) → (⟨S50000x64, .f32⟩ : BufTy).Contents (Elt F) → (⟨S50000x64, .f32⟩ : BufTy).Contents (Elt F)) ]

theorem ops_eq : (ops : List (HloOp τ sig (Elt F))) = ops0 ++ (ops1 ++ ops2) := rfl

set_option maxRecDepth 4096 in
theorem main_part0_eq (c : Dev nD) : main_part0 (F := F) c = seq ops0 := rfl

set_option maxRecDepth 4096 in
theorem main_part1_eq (c : Dev nD) : main_part1 (F := F) c = seq ops1 := by
  simp only [main_part1, fn_leaky_relu.body, fn_leaky_relu_0.body, fn_where.body, fn_where_1.body, seq, bind_assoc, pure_bind]
  rfl

set_option maxRecDepth 4096 in
theorem main_part2_eq (c : Dev nD) : main_part2 (F := F) c = seq ops2 := rfl

theorem main_eq (c : Dev nD) : main (F := F) c = seq ops := by
  rw [ops_eq, seq_append, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., unary_bufs_sub .., ternary_bufs_sub ..,
    nullary_bufs_sub .., unary_bufs_sub .., nullary_bufs_sub .., unary_bufs_sub .., unary_bufs_sub .., ternary_bufs_sub ..,
    nullary_bufs_sub .., unary_bufs_sub .., binary_bufs_sub .., unary_bufs_sub .., unary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., binary_bufs_sub ..,
    unary_bufs_sub .., unary_bufs_sub .., binary_bufs_sub .., unary_bufs_sub .., binary_bufs_sub .., unary_bufs_sub ..,
    unary_bufs_sub .., binary_bufs_sub .., unary_bufs_sub .., binary_bufs_sub .., unary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., unary_bufs_sub .., binary_bufs_sub .., unary_bufs_sub .., unary_bufs_sub .., binary_bufs_sub ..,
    unary_bufs_sub .., binary_bufs_sub .., unary_bufs_sub .., unary_bufs_sub .., binary_bufs_sub .., unary_bufs_sub ..,
    binary_bufs_sub .., unary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub .., binary_bufs_sub .., binary_bufs_sub ..,
    binary_bufs_sub .., binary_bufs_sub ..⟩

/-- At the compiled mesh, for any float values, from any memory with zero counters: every weakly fair execution of
    @main terminates, and every final state has each buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibReadThrough.lean ====
/-
  Two facts that let a one-pass reading of a fold of host lines go all the way down to the buffers the lines start from,
  and the pass that uses them.
  • TRANSPORTS. A line of a module-local function is written through typed references: it reads an operand through
    `ofBuf` and writes its result through `toBuf`, transports along the reference's type fact. Contents written through a
    typed reference and read back through the same one are the contents (`TRef.ofBuf_toBuf`): with it a chain of such
    lines reads as the plain composition of the lines' functions, transports left only where a typed line meets a
    plain one.
  • A TWO-OPERAND CONCATENATE. The printed `concatenate t a [⟨s₁, x⟩, ⟨s₂, y⟩] h` carries a fact `h` stated over the operand
    list itself, so a rewriting pass may not change the list and never looks inside it. As `joinTwo t a s₁ s₂ h' x y`,
    an ordinary function of the two operands, the pass goes on into `x` and `y` (`concatenate_two`, by `rfl`).
  • `after_results_through`: the library's one-pass reading (`after_results_simp`) with these two added. Use it on a goal
    `after ops V (Proc.devRef .tc r) = …` over a literal list `ops`; what is left is the composed term over `V` at the
    argument buffers, for `rfl` against the intended function.
-/
import Idealize.ShloMosaic.Lib.StableHlo.Run

noncomputable section

namespace Idealize.ShloMosaic.StableHlo.TRef

variable {sig : RefSig} {Val : EltTy → Type} {T : BufTy}

/-- Contents written through a typed reference and read back through the same one are the contents. -/
theorem ofBuf_toBuf (x : TRef sig T) (v : T.Contents Val) : x.ofBuf (x.toBuf v) = v := by
  obtain ⟨r, rfl, _, _⟩ := x
  rfl

end Idealize.ShloMosaic.StableHlo.TRef

namespace Cert.LibReadThrough

open Idealize.ShloMosaic

/-- Two arrays joined along axis `a` of the result shape `t`, as a function of the two arrays. -/
def joinTwo {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The printed two-operand concatenate is that function, whatever proof of the shapes' fit it carries (the fact is
    stated over the operand list, so its type is read off the printed term). -/
theorem concatenate_two {α : Type} (t : Shape) (a : Fin t.rank) (s₁ s₂ : Shape) (x : s₁.Idx → α) (y : s₂.Idx → α) {h} :
    concatenate t a [⟨s₁, x⟩, ⟨s₂, y⟩] h = joinTwo t a s₁ s₂ h x y := rfl

end Cert.LibReadThrough

/-- The library's one-pass reading of a fold of host lines at a buffer, reading through typed-reference transports and
    into the operands of a two-operand concatenate. -/
macro "after_results_through" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Cert.LibReadThrough.concatenate_two, Idealize.ShloMosaic.StableHlo.TRef.ofBuf_toBuf]))

end
-- ==== Proof.Shared.lean ====
/-
  The host stretches the two programs share compute the same arrays.

  Both programs gather the tail rows of the entity table and the relation rows of the weight table, multiply them and
  add the products into the rows their head indices name (the sums), count the edges per head row, gather and scale
  the interaction rows and add them per user (the aggregated rows), and form the two small tables (the projected
  latent rows; the relation-attention mix of the weight rows) by the same chain of products, bias additions, leaky
  rectifier and row softmax.  Operation for operation the two chains are the same functions of the argument arrays —
  only the buffers they pass through are numbered differently — so reading each fold down to the arguments leaves one
  and the same term on both sides.
-/
import proofs.«123379_j13546326851764_2_alg».proof.Proof.RefRun
import proofs.«123379_j13546326851764_2_alg».proof.Proof.Gen.KernelIdeal.Launch
import proofs.«123379_j13546326851764_2_alg».proof.Proof.LibReadThrough
import Idealize.ShloMosaic.Lib.StableHlo.Run

noncomputable section

namespace Cert.Bridge.Shared

open Idealize.ShloMosaic Idealize.ShloMosaic.TcCoe Idealize.SL.Sem Idealize.ShloMosaic.StableHlo

variable {F : FTy → Type} [FloatOps F]
variable (VK : Valuation Cert.KernelIdeal.τ Cert.KernelIdeal.sig (Elt F))
  (VR : Valuation Cert.ReferenceIdeal.τ Cert.ReferenceIdeal.sig (Elt F))

/-- The accumulated sums. -/
theorem sums_eq
    (h0 : VK (Proc.devRef .tc Cert.KernelIdeal.main_arg0) = VR (Proc.devRef .tc Cert.ReferenceIdeal.main_arg0))
    (h3 : VK (Proc.devRef .tc Cert.KernelIdeal.main_arg3) = VR (Proc.devRef .tc Cert.ReferenceIdeal.main_arg3))
    (h4 : VK (Proc.devRef .tc Cert.KernelIdeal.main_arg4) = VR (Proc.devRef .tc Cert.ReferenceIdeal.main_arg4))
    (h8 : VK (Proc.devRef .tc Cert.KernelIdeal.main_arg8) = VR (Proc.devRef .tc Cert.ReferenceIdeal.main_arg8)) :
    after Cert.KernelIdeal.Gen.hostOps0 VK (Proc.devRef .tc Cert.KernelIdeal.main_v23)
      = after Cert.ReferenceIdeal.RefRun.ops VR (Proc.devRef .tc Cert.ReferenceIdeal.main_v23) := by
  dsimp only [Cert.KernelIdeal.Gen.hostOps0, Cert.ReferenceIdeal.RefRun.ops]
  after_results_simp
  rw [h0, h3, h4, h8]
  rfl

/-- The edge counts per head row. -/
theorem cnt_eq
    (h3 : VK (Proc.devRef .tc Cert.KernelIdeal.main_arg3) = VR (Proc.devRef .tc Cert.ReferenceIdeal.main_arg3)) :
    after Cert.KernelIdeal.Gen.hostOps0 VK (Proc.devRef .tc Cert.KernelIdeal.main_v27)
      = after Cert.ReferenceIdeal.RefRun.ops VR (Proc.devRef .tc Cert.ReferenceIdeal.main_v27) := by
  dsimp only [Cert.KernelIdeal.Gen.hostOps0, Cert.ReferenceIdeal.RefRun.ops]
  after_results_simp
  rw [h3]
  rfl

/-- The aggregated user rows. -/
theorem uagg_eq
    (h0 : VK (Proc.devRef .tc Cert.KernelIdeal.main_arg0) = VR (Proc.devRef .tc Cert.ReferenceIdeal.main_arg0))
    (h5 : VK (Proc.devRef .tc Cert.KernelIdeal.main_arg5) = VR (Proc.devRef .tc Cert.ReferenceIdeal.main_arg5))
    (h6 : VK (Proc.devRef .tc Cert.KernelIdeal.main_arg6) = VR (Proc.devRef .tc Cert.ReferenceIdeal.main_arg6))
    (h7 : VK (Proc.devRef .tc Cert.KernelIdeal.main_arg7) = VR (Proc.devRef .tc Cert.ReferenceIdeal.main_arg7)) :
    after Cert.KernelIdeal.Gen.hostOps1_2 (after Cert.KernelIdeal.Gen.hostOps1_1 (after Cert.KernelIdeal.Gen.hostOps1 VK))
        (Proc.devRef .tc Cert.KernelIdeal.main_v42)
      = after Cert.ReferenceIdeal.RefRun.ops VR (Proc.devRef .tc Cert.ReferenceIdeal.main_v45) := by
  dsimp only [Cert.KernelIdeal.Gen.hostOps1_2, Cert.KernelIdeal.Gen.hostOps1_1, Cert.KernelIdeal.Gen.hostOps1, Cert.ReferenceIdeal.RefRun.ops]
  after_results_through
  rw [h0, h5, h6, h7]
  rfl

/-- The projected latent rows. -/
theorem lat1_eq
    (h2 : VK (Proc.devRef .tc Cert.KernelIdeal.main_arg2) = VR (Proc.devRef .tc Cert.ReferenceIdeal.main_arg2))
    (h14 : VK (Proc.devRef .tc Cert.KernelIdeal.main_arg14) = VR (Proc.devRef .tc Cert.ReferenceIdeal.main_arg14))
    (h15 : VK (Proc.devRef .tc Cert.KernelIdeal.main_arg15) = VR (Proc.devRef .tc Cert.ReferenceIdeal.main_arg15)) :
    after Cert.KernelIdeal.Gen.hostOps1_2 (after Cert.KernelIdeal.Gen.hostOps1_1 (after Cert.KernelIdeal.Gen.hostOps1 VK))
        (Proc.devRef .tc Cert.KernelIdeal.main_v47)
      = after Cert.ReferenceIdeal.RefRun.ops VR (Proc.devRef .tc Cert.ReferenceIdeal.main_v55) := by
  dsimp only [Cert.KernelIdeal.Gen.hostOps1_2, Cert.KernelIdeal.Gen.hostOps1_1, Cert.KernelIdeal.Gen.hostOps1, Cert.ReferenceIdeal.RefRun.ops]
  after_results_through
  rw [h2, h14, h15]
  rfl

set_option maxHeartbeats 4000000 in
set_option maxRecDepth 8192 in
/-- The new latent table. -/
theorem latnew_eq
    (h2 : VK (Proc.devRef .tc Cert.KernelIdeal.main_arg2) = VR (Proc.devRef .tc Cert.ReferenceIdeal.main_arg2))
    (h8 : VK (Proc.devRef .tc Cert.KernelIdeal.main_arg8) = VR (Proc.devRef .tc Cert.ReferenceIdeal.main_arg8))
    (h12 : VK (Proc.devRef .tc Cert.KernelIdeal.main_arg12) = VR (Proc.devRef .tc Cert.ReferenceIdeal.main_arg12))
    (h13 : VK (Proc.devRef .tc Cert.KernelIdeal.main_arg13) = VR (Proc.devRef .tc Cert.ReferenceIdeal.main_arg13))
    (h16 : VK (Proc.devRef .tc Cert.KernelIdeal.main_arg16) = VR (Proc.devRef .tc Cert.ReferenceIdeal.main_arg16))
    (h17 : VK (Proc.devRef .tc Cert.KernelIdeal.main_arg17) = VR (Proc.devRef .tc Cert.ReferenceIdeal.main_arg17)) :
    after Cert.KernelIdeal.Gen.hostOps1_2 (after Cert.KernelIdeal.Gen.hostOps1_1 (after Cert.KernelIdeal.Gen.hostOps1 VK))
        (Proc.devRef .tc Cert.KernelIdeal.main_v77)
      = after Cert.ReferenceIdeal.RefRun.ops VR (Proc.devRef .tc Cert.ReferenceIdeal.main_v104) := by
  dsimp only [Cert.KernelIdeal.Gen.hostOps1_2, Cert.KernelIdeal.Gen.hostOps1_1, Cert.KernelIdeal.Gen.hostOps1, Cert.ReferenceIdeal.RefRun.ops]
  after_results_through
  rw [h2, h8, h12, h13, h16, h17]
  rfl

end Cert.Bridge.Shared

end
-- ==== Proof.RefTail.lean ====
/-
  The two dense stages of the reference, each as one function of the arrays it starts from.

  * `out0 sums cnt` is the mean of the neighbour rows: every row of the accumulated sums divided by the larger of
    that row's count and one, the count spread along the row.
  * `tail ue agg lat1 latnew w1 b1 watt batt` is the attention stage over the user rows, stage by stage:
    `lin1` is ue · w1ᵀ + b1; `score` multiplies it by lat1ᵀ; `uatt` is score · wattᵀ + batt; `lrelu` keeps a
    nonnegative entry and scales a negative one by the slope word; `smax` is the softmax along each row (the row
    maximum taken against −∞ once more, the shifted exponentials divided by their row sum); `comb` is
    agg · (softmax · latnew) + agg.
  Every stage produces row r of its result from row r of its first operand and the small tables alone.
-/
import proofs.«123379_j13546326851764_2_alg».proof.Proof.Gen.ReferenceIdeal

noncomputable section

namespace Cert.Bridge

open Idealize.ShloMosaic Cert.ReferenceIdeal Cert.ReferenceIdeal.Facts₀

variable {F : FTy → Type} [FloatOps F]

/-- Row means: sums divided by max(count, 1), the count spread along the row. -/
def out0 (sums : FVec F S100000x64 .f32) (cnt : FVec F S100000 .f32) : FVec F S100000x64 .f32 :=
  Host.divf sums (broadcastInDim S100000x64 ![0, 1] bcast_S100000x1_S100000x64_0_1
    (broadcastInDim S100000x1 ![0] bcast_S100000_S100000x1_0
      (maximumf cnt (broadcastInDim S100000 ![] bcast_S_S100000 (constant S_ .f32 0x3F800000#32)))))

/-- ue · w1ᵀ + b1. -/
def lin1 (ue : FVec F S50000x64 .f32) (w1 : FVec F S64x64 .f32) (b1 : FVec F S64 .f32) : FVec F S50000x64 .f32 :=
  addf (Host.dotGeneral dot_S50000x64_S64x64_S50000x64_1_0_0_1_n_n none ue (transpose S64x64 [1, 0] w1 transposes_S64x64_S64x64_1_0))
    (broadcastInDim S50000x64 ![0, 1] bcast_S1x64_S50000x64_0_1 (broadcastInDim S1x64 ![1] bcast_S64_S1x64_1 b1))

/-- l · lat1ᵀ. -/
def score (l : FVec F S50000x64 .f32) (lat1 : FVec F S8x64 .f32) : FVec F S50000x8 .f32 :=
  Host.dotGeneral dot_S50000x64_S64x8_S50000x8_1_0_0_1_n_n none l (transpose S64x8 [1, 0] lat1 transposes_S8x64_S64x8_1_0)

/-- s · wattᵀ + batt. -/
def uatt (s : FVec F S50000x8 .f32) (watt : FVec F S8x8 .f32) (batt : FVec F S8 .f32) : FVec F S50000x8 .f32 :=
  addf (Host.dotGeneral dot_S50000x8_S8x8_S50000x8_1_0_0_1_n_n none s (transpose S8x8 [1, 0] watt transposes_S8x8_S8x8_1_0))
    (broadcastInDim S50000x8 ![0, 1] bcast_S1x8_S50000x8_0_1 (broadcastInDim S1x8 ![1] bcast_S8_S1x8_1 batt))

/-- The leaky rectifier: u where u ≥ 0, the slope word times u elsewhere. -/
def lrelu (u : FVec F S50000x8 .f32) : FVec F S50000x8 .f32 :=
  select (cmpf .oge u (broadcastInDim S50000x8 ![] bcast_S_S50000x8 (constant S_ .f32 0x00000000#32))) u
    (mulf (broadcastInDim S50000x8 ![] bcast_S_S50000x8 (id (constant S_ .f32 0x3E4CCCCD#32))) u)

/-- The row maximum, taken against −∞ once more. -/
def rowMax (l : FVec F S50000x8 .f32) : FVec F S50000 .f32 :=
  maximumf (broadcastInDim S50000 ![] bcast_S_S50000 (constant S_ .f32 0xFF800000#32))
    (Host.reduce FloatOps.maximumf l (constant S_ .f32 0xFF800000#32) reducesTo_S50000x8_S50000_d1 h_S_)

/-- exp (l − row maximum). -/
def expShift (l : FVec F S50000x8 .f32) : FVec F S50000x8 .f32 :=
  Host.exp (subf l (broadcastInDim S50000x8 ![0, 1] bcast_S50000x1_S50000x8_0_1
    (broadcastInDim S50000x1 ![0] bcast_S50000_S50000x1_0 (rowMax l))))

/-- The softmax along each row. -/
def smax (l : FVec F S50000x8 .f32) : FVec F S50000x8 .f32 :=
  Host.divf (expShift l) (broadcastInDim S50000x8 ![0, 1] bcast_S50000x1_S50000x8_0_1
    (broadcastInDim S50000x1 ![0] bcast_S50000_S50000x1_0
      (Host.reduceAdd (expShift l) (constant S_ .f32 0x00000000#32) reducesTo_S50000x8_S50000_d1 h_S_)))

/-- agg · (sc · latnew) + agg. -/
def comb (agg : FVec F S50000x64 .f32) (sc : FVec F S50000x8 .f32) (latnew : FVec F S8x64 .f32) : FVec F S50000x64 .f32 :=
  addf (mulf agg (Host.dotGeneral dot_S50000x8_S8x64_S50000x64_1_0_0_1_n_n none sc latnew)) agg

/-- The attention stage over the user rows. -/
def tail (ue agg : FVec F S50000x64 .f32) (lat1 latnew : FVec F S8x64 .f32) (w1 : FVec F S64x64 .f32)
    (b1 : FVec F S64 .f32) (watt : FVec F S8x8 .f32) (batt : FVec F S8 .f32) : FVec F S50000x64 .f32 :=
  comb agg (smax (lrelu (uatt (score (lin1 ue w1 b1) lat1) watt batt))) latnew

end Cert.Bridge

end
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.LibHostColumns.lean ====
/-
  Host forms of a keepdims reduction, read at coordinates. A reduction over the columns of an `[a, b]` array leaves one
  value per row; the index of row `p` with column `k` put back is `(p, k)`. The host lays a per-row value back against
  the rows by two `broadcast_in_dim`s: `[a]` to the column `[a, 1]` (operand axis 0 on result axis 0), then the column
  to `[a, b]` (operand axes on the same result axes, the unit axis repeated). At `(p, c)` the result is the value of
  row `p`.
-/
import Idealize.ShloMosaic.Lib.ValueIdx
import Idealize.ShloMosaic.Lib.Pipeline.Value
import Idealize.ShloMosaic.PureOps.Reduce

namespace Idealize.ShloMosaic.ValueIdx

variable {α : Type}

/-- The reduced index `p` of a reduction over the columns, with column `k` put back, is `(p, k)`. -/
theorem lift_ix1_columns {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- An `[a]` array laid out as the column `[a, 1]` by the host's broadcast reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` laid against `b` columns by the host's broadcast reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value laid out as a column and then against every column reads, at `(p, c)`, the value of row `p`. -/
theorem broadcastInDim_column_apply {a b : ℕ} (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![a, 1]⟩ (![0] : Fin 1 → Fin 2) h1 x) (ix2 p c)
      = x (ix1 p) :=
  (broadcastInDim_a1_ab_apply _ h2 p c).trans (broadcastInDim_a_a1_apply x h1 p 0)

end Idealize.ShloMosaic.ValueIdx
-- ==== Proof.Region0.lean ====
/-
  The first region: the row means.

  At every grid point t the body reads block t of the accumulated sums (5000 rows of 64 lanes) and block t of the
  counts column (5000 rows of one lane), and stores sums / max(count, 1), the row's count spread along its lanes.
  Entry (p, q) of the block is therefore sums(5000·t + p, q) / max(count(5000·t + p), 1): the reference's row mean at
  row 5000·t + p.  The twenty blocks tile the 100000 rows, so the array the region leaves is the reference's
  `out0` of the sums and of the counts, the counts read through their one-lane column.
-/
import proofs.«123379_j13546326851764_2_alg».proof.Proof.Gen.KernelIdeal.Frame
import proofs.«123379_j13546326851764_2_alg».proof.Proof.RefTail
import proofs.«123379_j13546326851764_2_alg».proof.Proof.LibColumns
import proofs.«123379_j13546326851764_2_alg».proof.Proof.LibHostColumns
import Idealize.ShloMosaic.Lib.ValueIdx
import Idealize.ShloMosaic.Lib.Pipeline.Value
import Idealize.ShloMosaic.PureOps.Ideal

set_option maxRecDepth 16384

noncomputable section

namespace Cert.Bridge.Region0

open Idealize.ShloMosaic Idealize.ShloMosaic.TcCoe Idealize.ShloMosaic.ValueIdx Idealize.SL.Sem
open Idealize.ShloMosaic.Pipeline (Dat)
open Cert.KernelIdeal Cert.KernelIdeal.Gen

/-- The mean at one entry: the body's value at (p, q) of a block is the reference's at (r, q) when the block's sums
    entry is the array's and the block's count of row p is the array's count of row r. -/
theorem point_eq (x0 : Vec Ideal S5000x64 .f32) (x1 : Vec Ideal S5000x1 .f32)
    (S : FVec Ideal Cert.ReferenceIdeal.S100000x64 .f32) (C : FVec Ideal Cert.ReferenceIdeal.S100000 .f32)
    (p : Fin 5000) (q : Fin 64) (r : Fin 100000)
    (h0 : x0 (ix2 p q) = S (ix2 r q)) (h1 : x1 (ix2 p (0 : Fin 1)) = C (ix1 r)) :
    k0_pay1 (F := Ideal) x0 x1 (ix2 p q) = Cert.Bridge.out0 (F := Ideal) S C (ix2 r q) := by
  unfold k0_pay1 Cert.Bridge.out0
  show Ideal.div (shapeCast S5000x64 x0 _ (ix2 p q))
      (broadcastTo S5000x64 (maximumf (shapeCast S5000x1 x1 _) (broadcast S5000x1 (Scalar.ofBits (F := Ideal) .f32 0x3F800000#32))) _ (ix2 p q))
    = Ideal.div (S (ix2 r q)) (broadcastInDim Cert.ReferenceIdeal.S100000x64 ![0, 1] _
        (broadcastInDim Cert.ReferenceIdeal.S100000x1 ![0] _
          (maximumf C (broadcastInDim Cert.ReferenceIdeal.S100000 ![] _ (constant (F := Ideal) Cert.ReferenceIdeal.S_ .f32 0x3F800000#32)))) (ix2 r q))
  rw [shapeCast_self, shapeCast_self, broadcastTo_a1_ab_apply, broadcastInDim_column_apply, h0]
  show Ideal.div (S (ix2 r q)) (max (x1 (ix2 p (0 : Fin 1))) (Ideal.ofBits .f32 0x3F800000#32))
    = Ideal.div (S (ix2 r q)) (max (C (ix1 r)) (broadcastInDim Cert.ReferenceIdeal.S100000 ![] _ (constant (F := Ideal) Cert.ReferenceIdeal.S_ .f32 0x3F800000#32) (ix1 r)))
  rw [h1, broadcastInDim_apply _ _ _ (ix1 r) (fun a => a.elim0) (fun a => a.elim0)]
  rfl

/-- The same over plain indices: j in the block, i in the array, on the same lane. -/
theorem point_eq' (x0 : Vec Ideal S5000x64 .f32) (x1 : Vec Ideal S5000x1 .f32)
    (S : FVec Ideal Cert.ReferenceIdeal.S100000x64 .f32) (C : FVec Ideal Cert.ReferenceIdeal.S100000 .f32)
    (j : S5000x64.Idx) (i : Cert.ReferenceIdeal.S100000x64.Idx) (hq : (i 1).val = (j 1).val)
    (h0 : x0 j = S i)
    (h1 : x1 (ix2 (⟨(j 0).val, (j 0).isLt⟩ : Fin 5000) (0 : Fin 1)) = C (ix1 (⟨(i 0).val, (i 0).isLt⟩ : Fin 100000))) :
    k0_pay1 (F := Ideal) x0 x1 j = Cert.Bridge.out0 (F := Ideal) S C i := by
  obtain ⟨p, q, rfl⟩ : ∃ (p : Fin 5000) (q : Fin 64), j = ix2 p q := ⟨j 0, j 1, eq_ix2 j⟩
  obtain ⟨r, q', rfl⟩ : ∃ (r : Fin 100000) (q' : Fin 64), i = ix2 r q' := ⟨i 0, i 1, eq_ix2 i⟩
  have hqq : q' = q := Fin.ext hq
  subst hqq
  exact point_eq x0 x1 S C p q' r h0 h1

theorem hz : (![0, 0] : Fin 2 → Nat) = fun _ => 0 := funext fun a => by fin_cases a <;> rfl

/-- The printed index maps over the grid: every window's block index is the grid point on the rows and 0 on the lanes. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the reference's row means. -/
theorem flushed_eq (c : Dev nD) (S : FVec Ideal Cert.ReferenceIdeal.S100000x64 .f32) (C : FVec Ideal Cert.ReferenceIdeal.S100000 .f32)
    (hS : V c main_v23 = S) (hC : ∀ r : Fin 100000, V c main_v28 (ix2 r (0 : Fin 1)) = C (ix1 r)) (t : Fin cfg0.N) :
    (dat0 V c).flushed 2 t = ((cfg0.win 2).blk t).view.read (Elt Ideal) (Cert.Bridge.out0 (F := Ideal) S C) := by
  show (cfg0.win 2).cut (grid0.coords t) ((dat0 V c).after 2 t) = _
  rw [after0_2]
  unfold out0_2
  rw [View.canon_unit_zero hz]
  simp only [View.ld_unit_zero (S := S5000x64) hz, View.ld_unit_zero (S := S5000x1) hz]
  obtain ⟨e0, e1, e2, e3, e4, e5⟩ := idx_facts t
  funext j
  show k0_pay1 (F := Ideal) (iblk0 V c 0 t) (iblk0 V c 1 t) j = Cert.Bridge.out0 (F := Ideal) S C (((cfg0.win 2).blk t).view.emb j)
  refine point_eq' _ _ S C j (((cfg0.win 2).blk t).view.emb j) ?_ ?_ ?_
  · show win0_2.index t (1 : Fin 2) * 64 + 1 * (j 1).val = (j 1).val
    omega
  · show V c main_v23 (((cfg0.win 0).blk t).view.emb j) = S (((cfg0.win 2).blk t).view.emb j)
    rw [hS]
    refine congrArg S (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * (j 1).val = win0_2.index t (1 : Fin 2) * 64 + 1 * (j 1).val; omega
  · have hj : (j 0).val < 5000 := (j 0).isLt
    have htN : t.val < 20 := lt_of_lt_of_eq t.isLt N_0
    have hr : win0_2.index t (0 : Fin 2) * 5000 + 1 * (j 0).val < 100000 := by omega
    show V c main_v28 (((cfg0.win 1).blk t).view.emb (ix2 (⟨(j 0).val, (j 0).isLt⟩ : Fin 5000) (0 : Fin 1))) = C (ix1 ⟨win0_2.index t (0 : Fin 2) * 5000 + 1 * (j 0).val, hr⟩)
    rw [← hC]
    refine congrArg (V c main_v28) (funext fun a => Fin.ext ?_)
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 1 + 1 * 0 = 0; omega

/-- An index of the array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v29).slice (win0_2.rect t)).set ↔ _
  rw [View.set_slice_whole, Rect.mem_set_unit]
  exact Iff.rfl

/-- Every row of the array is in the block of the point its number divided by 5000 names. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have ht : (i 0).val / 5000 < cfg0.N := lt_of_lt_of_eq (by omega : (i 0).val / 5000 < 20) N_0.symm
  refine ⟨⟨(i 0).val / 5000, ht⟩, flush0_2 _, ?_⟩
  obtain ⟨e0, e1, e2, e3, e4, e5⟩ := idx_facts ⟨(i 0).val / 5000, ht⟩
  rw [mem_blk]
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; rw [e4]; show (i 0).val / 5000 * 5000 ≤ (i 0).val ∧ (i 0).val < (i 0).val / 5000 * 5000 + 5000; omega
  | ⟨1, _⟩ => show win0_2.index ⟨(i 0).val / 5000, ht⟩ (1 : Fin 2) * 64 ≤ (i 1).val ∧ (i 1).val < win0_2.index ⟨(i 0).val / 5000, ht⟩ (1 : Fin 2) * 64 + 64; rw [e5]; omega

/-- The array the first region leaves is the reference's row means of the sums and counts it was entered with. -/
theorem final (c : Dev nD) (S : FVec Ideal Cert.ReferenceIdeal.S100000x64 .f32) (C : FVec Ideal Cert.ReferenceIdeal.S100000 .f32)
    (hS : V c main_v23 = S) (hC : ∀ r : Fin 100000, V c main_v28 (ix2 r (0 : Fin 1)) = C (ix1 r)) :
    (dat0 V c).arrAt 2 cfg0.N = Cert.Bridge.out0 (F := Ideal) S C :=
  (dat0 V c).arrAt_eq_of_cover 2 (Cert.Bridge.out0 (F := Ideal) S C) (fun t _ => flushed_eq V c S C hS hC t) cover

end Cert.Bridge.Region0

end
-- ==== Proof.Region1Kernel.lean ====
/-
  The attention stage of the kernel's second region, stage by stage, on one block of 5000 user rows.

  `kLin1` is x · w1ᵀ + b1 (both operands of the product narrowed to bf16, the product into a zero accumulator, the bias
  cast to one row and repeated down the block); `kScore` multiplies it by lat1ᵀ; `kUatt` is score · wattᵀ + batt;
  `kLrelu` keeps an entry that is at least zero and scales the others by the slope word; `kSmax` is the softmax along
  each row (the row maximum from −∞ taken against −∞ once more, the shifted exponentials divided by their row sum);
  `kComb` is agg · (softmax · latnew) + agg.  The two payloads of the kernel's body are these stages composed.
-/
import proofs.«123379_j13546326851764_2_alg».proof.Proof.Gen.KernelIdeal.Skeleton

noncomputable section

namespace Cert.Bridge.Region1

open Idealize.ShloMosaic Cert.KernelIdeal Cert.KernelIdeal.Facts₀

variable {F : FTy → Type} [FloatOps F]

/-- x · wᵀ + b on a block of rows. -/
def kLin1 (x : FVec F S5000x64 .f32) (w : FVec F S64x64 .f32) (b : FVec F S64 .f32) : FVec F S5000x64 .f32 :=
  addf (matmul dot_S5000x64_S64x64_S5000x64_1_0_0_1_n_n none (truncf .bf16 x bitsLt_bf16_f32)
      (transpose S64x64 [1, 0] (truncf .bf16 w bitsLt_bf16_f32) transposes_S64x64_p1_0_S64x64)
      (constant S5000x64 .f32 0x00000000#32))
    (broadcastTo S5000x64 (shapeCast S1x64 b shapeCasts_S64_S1x64) broadcasts_S1x64_S5000x64)

/-- l · lat1ᵀ on a block of rows. -/
def kScore (l : FVec F S5000x64 .f32) (lat1 : FVec F S8x64 .f32) : FVec F S5000x8 .f32 :=
  matmul dot_S5000x64_S64x8_S5000x8_1_0_0_1_n_n none (truncf .bf16 l bitsLt_bf16_f32)
    (transpose S64x8 [1, 0] (truncf .bf16 (shapeCast S8x64 lat1 shapeCasts_S8x64_S8x64) bitsLt_bf16_f32)
      transposes_S8x64_p1_0_S64x8)
    (constant S5000x8 .f32 0x00000000#32)

/-- s · wattᵀ + batt on a block of rows. -/
def kUatt (s : FVec F S5000x8 .f32) (watt : FVec F S8x8 .f32) (batt : FVec F S8 .f32) : FVec F S5000x8 .f32 :=
  addf (matmul dot_S5000x8_S8x8_S5000x8_1_0_0_1_n_n none (truncf .bf16 s bitsLt_bf16_f32)
      (transpose S8x8 [1, 0] (truncf .bf16 watt bitsLt_bf16_f32) transposes_S8x8_p1_0_S8x8)
      (constant S5000x8 .f32 0x00000000#32))
    (broadcastTo S5000x8 (shapeCast S1x8 batt shapeCasts_S8_S1x8) broadcasts_S1x8_S5000x8)

/-- The leaky rectifier on a block of rows. -/
def kLrelu (u : FVec F S5000x8 .f32) : FVec F S5000x8 .f32 :=
  select (cmpf .oge u (broadcast S5000x8 (Scalar.ofBits .f32 0x00000000#32))) u
    (mulf (broadcast S5000x8 (Scalar.ofBits .f32 0x3E4CCCCD#32)) u)

/-- The row maximum, taken against −∞ once more. -/
def kRowMax (l : FVec F S5000x8 .f32) : FVec F S5000 .f32 :=
  maximumf (broadcast S5000 (Scalar.ofBits .f32 0xFF800000#32))
    (multiReduction .maximumf [1] S5000 l 0xFF800000#32 reduces_S5000x8_S5000 (.inl rfl) rfl)

/-- exp (l − row maximum). -/
def kExpShift (l : FVec F S5000x8 .f32) : FVec F S5000x8 .f32 :=
  exp (subf l (broadcastTo S5000x8 (shapeCast S5000x1 (kRowMax l) shapeCasts_S5000_S5000x1) broadcasts_S5000x1_S5000x8))

/-- The softmax along each row. -/
def kSmax (l : FVec F S5000x8 .f32) : FVec F S5000x8 .f32 :=
  divf (kExpShift l) (broadcastTo S5000x8
    (shapeCast S5000x1 (multiReduction .add [1] S5000 (kExpShift l) 0x00000000#32 reduces_S5000x8_S5000 (.inl rfl) rfl)
      shapeCasts_S5000_S5000x1) broadcasts_S5000x1_S5000x8)

/-- agg · (sc · latnew) + agg on a block of rows. -/
def kComb (agg : FVec F S5000x64 .f32) (sc : FVec F S5000x8 .f32) (latnew : FVec F S8x64 .f32) : FVec F S5000x64 .f32 :=
  addf (mulf (shapeCast S5000x64 agg shapeCasts_S5000x64_S5000x64)
      (matmul dot_S5000x8_S8x64_S5000x64_1_0_0_1_n_n none (truncf .bf16 sc bitsLt_bf16_f32)
        (truncf .bf16 (shapeCast S8x64 latnew shapeCasts_S8x64_S8x64) bitsLt_bf16_f32)
        (constant S5000x64 .f32 0x00000000#32)))
    (shapeCast S5000x64 agg shapeCasts_S5000x64_S5000x64)

/-- The body's softmax payload is the stages composed. -/
theorem pay2_eq (v0 : Vec F S5000x64 .f32) (v2 : Vec F S64x64 .f32) (v6 : Vec F S64 .f32) (v10 : Vec F S8x64 .f32)
    (v16 : Vec F S8x8 .f32) (v21 : Vec F S8 .f32) :
    Gen.k1_pay2 v0 v2 v6 v10 v16 v21 = kSmax (kLrelu (kUatt (kScore (kLin1 v0 v2 v6) v10) v16 v21)) := rfl

/-- The body's stored payload is the last stage. -/
theorem pay1_eq (v40 : FVec F S5000x8 .f32) (v41 : Vec F S8x64 .f32) (v46 : Vec F S5000x64 .f32) :
    Gen.k1_pay1 v40 v41 v46 = kComb v46 v40 v41 := rfl

end Cert.Bridge.Region1

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.LibRowReduce.lean ====
/-
  A matrix reduced along its rows, and small values spread over a block, read at coordinates for any extents.
  • REDUCTIONS over the extended reals of an `[a, b]` vector along its LAST axis, one value per row: the sum at row `p`
    is the sum over `k` of the source at `(p, k)`, and the maximum is the fold of `max`, from the starting word's value,
    over `k` of the source at `(p, k)` (`multiReduction_add_rows`, `multiReduction_max_rows`) — what a softmax along
    the lanes of a row needs.
  • A ROW VECTOR GIVEN TWO UNIT AXES: `[1, c] → [1, 1, c]` reads `(0, 0, f)` at `(0, f)` (`shapeCast_1c_11c_apply`).
  • ONE VALUE SPREAD OVER A MATRIX: `[1, 1] → [a, b]` reads the one entry everywhere (`broadcastTo_11_ab_apply`).
-/
import Idealize.ShloMosaic.Lib.Pipeline.Value
import Idealize.ShloMosaic.Lib.ValueIdx
import Idealize.ShloMosaic.PureOps.Ideal.Laws

noncomputable section

open scoped BigOperators

namespace Cert.LibRowReduce

open Idealize.ShloMosaic Idealize.ShloMosaic.ValueIdx

variable {α : Type}

/-- A `[1, c]` row cast to `[1, 1, c]` reads, at `(u, v, f)`, the operand at `(0, f)`. -/
theorem shapeCast_1c_11c_apply {c : ℕ} (x : (⟨2, ![1, c]⟩ : Shape).Idx → α)
    (h : (⟨2, ![1, c]⟩ : Shape).ShapeCasts ⟨3, ![1, 1, c]⟩) (u v : Fin 1) (f : Fin c) :
    shapeCast ⟨3, ![1, 1, c]⟩ x h (ix3 u v f) = x (ix2 (0 : Fin 1) f) :=
  shapeCast_apply x h _ _ (by
    have hu : u.val = 0 := by omega
    have hv : v.val = 0 := by omega
    rw [Shape.rowMajor_val_three, Shape.rowMajor_val_two]
    show 0 * c + f.val = (u.val * 1 + v.val) * c + f.val
    rw [hu, hv])

/-- A `[1, 1]` array spread to `[a, b]` reads its one entry at every `(p, q)`. -/
theorem broadcastTo_11_ab_apply {a b : ℕ} (x : (⟨2, ![1, 1]⟩ : Shape).Idx → α)
    (h : (⟨2, ![1, 1]⟩ : Shape).Broadcasts ⟨2, ![a, b]⟩) (p : Fin a) (q : Fin b) :
    broadcastTo ⟨2, ![a, b]⟩ x h (ix2 p q) = x (ix2 (0 : Fin 1) (0 : Fin 1)) := by
  refine broadcastTo_apply x h (ix2 p q) (ix2 (0 : Fin 1) (0 : Fin 1)) fun ax => ?_
  match ax with
  | ⟨0, _⟩ => rfl
  | ⟨1, _⟩ => rfl

section Reductions
variable {φ : FTy}

/-- A sum along the rows of an `[a, b]` vector: at row `p`, the sum over `k` of the source at `(p, k)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A maximum along the rows of an `[a, b]` vector: at row `p`, the fold of `max`, from the starting word's value, over
    `k` of the source at `(p, k)`. -/
theorem multiReduction_max_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (Finset.fold_congr fun k _ => congrArg src (funext fun ax => Fin.ext (by
      match ax with
      | ⟨0, _⟩ => rfl
      | ⟨1, _⟩ => rfl)))

end Reductions

end Cert.LibRowReduce

end
-- ==== Proof.LibHostRows.lean ====
/-
  The host's keepdims broadcasts for a ROW, read at coordinates, for any extents and element type:
  a vector [b] laid out as the row [1, b] (broadcast_in_dim with dims [1]) reads (u, q) at q, and a row [1, b] laid
  against a rows (dims [0, 1]) reads (p, q) at (0, q): what a bias b[None, :] added to every row of a matrix needs.
-/
import Idealize.ShloMosaic.Lib.ValueIdx
import Idealize.ShloMosaic.Lib.Pipeline.Value

namespace Idealize.ShloMosaic.ValueIdx

variable {α : Type}

/-- A `[b]` array laid out as the row `[1, b]` by the host's broadcast reads, at `(u, q)`, the operand at `q`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row `[1, b]` laid against `a` rows by the host's broadcast reads, at `(p, q)`, the row at `(0, q)`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) := by
  refine broadcastInDim_apply _ h v (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

/-- A per-column value laid out as a row and then against every row reads, at `(p, q)`, the value of column `q`. -/
theorem broadcastInDim_row_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h2 (broadcastInDim ⟨2, ![1, b]⟩ (![1] : Fin 1 → Fin 2) h1 x) (ix2 p q)
      = x (ix1 q) :=
  (broadcastInDim_1b_ab_apply _ h2 p q).trans (broadcastInDim_b_1b_apply x h1 0 q)

end Idealize.ShloMosaic.ValueIdx
-- ==== Proof.LibRowAgree.lean ====
/-
  One row of a matrix through the stages of a row-wise attention block, in the two spellings a blocked kernel and a
  whole-array host program give them, on the extended reals.

  Each statement compares a stage applied to an [a, ·] array at row p with the same stage applied to an [A, ·] array
  at row r, under the hypothesis that row p of the first operand is row r of the second:
  * a matrix product into a zero accumulator against the host's dot product, the right operands equal entry by entry;
  * a vector cast to one row and repeated down the rows against the host's two broadcasts of it;
  * the leaky rectifier (a comparison with the zero word, a select, a product with the slope word), pointwise;
  * the row maximum from the −∞ word, taken against −∞ once more, and the row sum (the host's sum starts from the value
    of the zero word, which is zero);
  * a per-row value laid against every entry of its row.
-/
import proofs.«123379_j13546326851764_2_alg».proof.Proof.LibMatmul
import proofs.«123379_j13546326851764_2_alg».proof.Proof.LibRowReduce
import proofs.«123379_j13546326851764_2_alg».proof.Proof.LibColumns
import proofs.«123379_j13546326851764_2_alg».proof.Proof.LibHostColumns
import proofs.«123379_j13546326851764_2_alg».proof.Proof.LibHostRows
import Idealize.ShloMosaic.Lib.ValueLayout
import Idealize.ShloMosaic.Lib.IdealHost
import Idealize.ShloMosaic.PureOps.Ideal

open scoped BigOperators

noncomputable section

namespace Cert.Bridge.Rows

open Idealize.ShloMosaic Idealize.ShloMosaic.ValueIdx

variable {a A k n : ℕ}

/-- Dimension numbers of a plain rows-by-columns product: the left operand's second axis against the right operand's
    first, rows and columns kept, no batch axis. -/
def RowsByCols {a k n : ℕ} (d : DotDims ⟨2, ![a, k]⟩ ⟨2, ![k, n]⟩ ⟨2, ![a, n]⟩) : Prop :=
  d.lhsContracting = [1] ∧ d.rhsContracting = [0] ∧ d.lhsNonContracting = [0] ∧ d.rhsNonContracting = [1]
    ∧ d.lhsBatch = [] ∧ d.rhsBatch = []

/-- The matrix unit's product into a zero accumulator at (p, q) is the host's dot product at (r, q) when row p of the one
    left operand is row r of the other and the right operands agree entry by entry. -/
theorem mm_agree {φ₁ φ₂ φ₃ φ₄ : FTy}
    (dK : DotDims ⟨2, ![a, k]⟩ ⟨2, ![k, n]⟩ ⟨2, ![a, n]⟩) (dR : DotDims ⟨2, ![A, k]⟩ ⟨2, ![k, n]⟩ ⟨2, ![A, n]⟩)
    (hK : RowsByCols dK) (hR : RowsByCols dR)
    (lK : FVec Ideal ⟨2, ![a, k]⟩ φ₁) (rK : FVec Ideal ⟨2, ![k, n]⟩ φ₂)
    (lR : FVec Ideal ⟨2, ![A, k]⟩ φ₃) (rR : FVec Ideal ⟨2, ![k, n]⟩ φ₄) (p : Fin a) (r : Fin A)
    (hl : ∀ j : Fin k, (lK (ix2 p j) : EReal) = lR (ix2 r j))
    (hr : ∀ (j : Fin k) (q : Fin n), (rK (ix2 j q) : EReal) = rR (ix2 j q)) (q : Fin n) :
    (matmul dK none lK rK (constant (F := Ideal) ⟨2, ![a, n]⟩ .f32 0x00000000#32) (ix2 p q) : EReal)
      = Host.dotGeneral dR none lR rR (ix2 r q) := by
  obtain ⟨k1, k2, k3, k4, k5, k6⟩ := hK
  obtain ⟨r1, r2, r3, r4, r5, r6⟩ := hR
  show FloatOps.matmul dK none lK rK (constant (F := Ideal) ⟨2, ![a, n]⟩ .f32 0x00000000#32) (ix2 p q) = _
  simp only [Host.dotGeneral]
  rw [matmul_zero_ix2 dK k1 k2 k3 k4 k5 k6, dotGeneral_ix2 dR r1 r2 r3 r4 r5 r6]
  exact Finset.sum_congr rfl fun j _ => by rw [hl j, hr j q]

/-- A vector cast to one row and repeated down a rows (kernel) reads at (p, q) what the host's two broadcasts of it,
    [n] → [1, n] → [A, n], read at (r, q): its entry q. -/
theorem bias_agree {α : Type} (b : (⟨1, ![n]⟩ : Shape).Idx → α)
    (hsc : (⟨1, ![n]⟩ : Shape).ShapeCasts ⟨2, ![1, n]⟩) (hbc : (⟨2, ![1, n]⟩ : Shape).Broadcasts ⟨2, ![a, n]⟩)
    (h1 : (⟨1, ![n]⟩ : Shape).BroadcastsInDim ⟨2, ![1, n]⟩ (![1] : Fin 1 → Fin 2))
    (h2 : (⟨2, ![1, n]⟩ : Shape).BroadcastsInDim ⟨2, ![A, n]⟩ (![0, 1] : Fin 2 → Fin 2)) (p : Fin a) (r : Fin A) (q : Fin n) :
    broadcastTo ⟨2, ![a, n]⟩ (shapeCast ⟨2, ![1, n]⟩ b hsc) hbc (ix2 p q)
      = broadcastInDim ⟨2, ![A, n]⟩ (![0, 1] : Fin 2 → Fin 2) h2 (broadcastInDim ⟨2, ![1, n]⟩ (![1] : Fin 1 → Fin 2) h1 b) (ix2 r q) :=
  ((broadcastTo_1b_ab_apply _ hbc p q).trans (shapeCast_apply b hsc (ix2 (0 : Fin 1) q) (ix1 q) (by
      rw [Shape.rowMajor_val_one, Shape.rowMajor_val_two]; show q.val = 0 * n + q.val; omega))).trans
    (broadcastInDim_row_apply b h1 h2 r q).symm

/-- The leaky rectifier at one entry: the kernel's splats of the zero and slope words against the host's broadcast
    constants. -/
theorem lrelu_agree {S S' : Shape} (hb : (⟨0, ![]⟩ : Shape).BroadcastsInDim S' ![])
    (u : FVec Ideal S .f32) (U : FVec Ideal S' .f32) (i : S.Idx) (i' : S'.Idx) (h : u i = U i') :
    select (cmpf .oge u (broadcast S (Scalar.ofBits (F := Ideal) .f32 0x00000000#32))) u
        (mulf (broadcast S (Scalar.ofBits (F := Ideal) .f32 0x3E4CCCCD#32)) u) i
      = select (cmpf .oge U (broadcastInDim S' ![] hb (constant (F := Ideal) ⟨0, ![]⟩ .f32 0x00000000#32))) U
        (mulf (broadcastInDim S' ![] hb (id (constant (F := Ideal) ⟨0, ![]⟩ .f32 0x3E4CCCCD#32))) U) i' := by
  rw [select_apply, select_apply, cmpf_apply, cmpf_apply, mulf_apply, mulf_apply, broadcast_apply, broadcast_apply,
    broadcastInDim_scalar_apply, broadcastInDim_scalar_apply, h]
  rfl

/-- The row maximum from the −∞ word, taken against −∞ once more: row p of the kernel's lane reduction against row r of
    the host's reduce. -/
theorem rowmax_agree (u : FVec Ideal ⟨2, ![a, n]⟩ .f32) (U : FVec Ideal ⟨2, ![A, n]⟩ .f32)
    (hred : (⟨2, ![a, n]⟩ : Shape).Reduces [1] ⟨1, ![a]⟩) (hφ : FKind.Formats .f32)
    (hacc : (0xFF800000#32 : BitVec FTy.f32.bits) = FKind.maximumf.neutral .f32 hφ)
    (hredTo : (⟨2, ![A, n]⟩ : Shape).ReducesTo [1] ⟨1, ![A]⟩) (hredR : (⟨2, ![A, n]⟩ : Shape).Reduces [1] ⟨1, ![A]⟩)
    (hu : 0 < (⟨0, ![]⟩ : Shape).numel) (hb : (⟨0, ![]⟩ : Shape).BroadcastsInDim ⟨1, ![A]⟩ ![])
    (p : Fin a) (r : Fin A) (h : ∀ j : Fin n, u (ix2 p j) = U (ix2 r j)) :
    maximumf (broadcast ⟨1, ![a]⟩ (Scalar.ofBits (F := Ideal) .f32 0xFF800000#32))
        (multiReduction .maximumf [1] ⟨1, ![a]⟩ u 0xFF800000#32 hred hφ hacc) (ix1 p)
      = maximumf (broadcastInDim ⟨1, ![A]⟩ ![] hb (constant (F := Ideal) ⟨0, ![]⟩ .f32 0xFF800000#32))
        (Host.reduce FloatOps.maximumf U (constant (F := Ideal) ⟨0, ![]⟩ .f32 0xFF800000#32) hredTo hu) (ix1 r) := by
  have e1 := Cert.LibRowReduce.multiReduction_max_rows u 0xFF800000#32 hred hφ hacc p
  have e2 := Host.reduce_eq_fold_single FloatOps.maximumf U (constant (F := Ideal) ⟨0, ![]⟩ .f32 0xFF800000#32) hredTo hredR hu (ix1 r)
  have hf : (U ∘ hredR.lift (ix1 r)) = fun j : Fin n => U (ix2 r j) := funext fun j => congrArg U (lift_ix1_columns hredR r j)
  have hrow : (fun j : Fin n => u (ix2 p j)) = fun j : Fin n => U (ix2 r j) := funext h
  rw [maximumf_apply, maximumf_apply, e1, e2, broadcastInDim_scalar_apply, broadcast_apply, hrow]
  exact congrArg (fun f => max (Ideal.ofBits .f32 0xFF800000#32)
    (Finset.fold max (Ideal.ofBits .f32 0xFF800000#32) f (Finset.univ : Finset (Fin n)))) hf.symm

/-- The row sum: row p of the kernel's lane sum against row r of the host's reduce from the zero word. -/
theorem rowsum_agree (e : FVec Ideal ⟨2, ![a, n]⟩ .f32) (E : FVec Ideal ⟨2, ![A, n]⟩ .f32)
    (hred : (⟨2, ![a, n]⟩ : Shape).Reduces [1] ⟨1, ![a]⟩) (hφ : FKind.Formats .f32)
    (hacc : (0x00000000#32 : BitVec FTy.f32.bits) = FKind.add.neutral .f32 hφ)
    (hredTo : (⟨2, ![A, n]⟩ : Shape).ReducesTo [1] ⟨1, ![A]⟩) (hredR : (⟨2, ![A, n]⟩ : Shape).Reduces [1] ⟨1, ![A]⟩)
    (hu : 0 < (⟨0, ![]⟩ : Shape).numel)
    (p : Fin a) (r : Fin A) (h : ∀ j : Fin n, e (ix2 p j) = E (ix2 r j)) :
    multiReduction .add [1] ⟨1, ![a]⟩ e 0x00000000#32 hred hφ hacc (ix1 p)
      = Host.reduceAdd E (constant (F := Ideal) ⟨0, ![]⟩ .f32 0x00000000#32) hredTo hu (ix1 r) := by
  have e1 := Cert.LibRowReduce.multiReduction_add_rows e 0x00000000#32 hred hφ hacc p
  have e2 := Ideal.hostReduceAdd_single hredTo hredR E (Ideal.ofBits .f32 0x00000000#32) (ix1 r)
  rw [e1, hostReduceAdd_apply]
  refine Eq.trans ?_ e2.symm
  rw [Ideal.ofBits_zero_f32, zero_add]
  exact Finset.sum_congr rfl fun j _ => (h j).trans (congrArg E (lift_ix1_columns hredR r j).symm)

end Cert.Bridge.Rows

end
-- ==== Proof.Region1.lean ====
/-
  One block of the kernel's attention stage against the reference's, row by row.

  Grid point t of the kernel sees rows t·5000 … t·5000 + 4999 of the user rows and of the aggregated rows; the small
  tables are whole.  Every stage — the two linear layers, the product with lat1ᵀ, the leaky rectifier, the softmax
  along a row, the final agg · (softmax · latnew) + agg — makes row p of its result from row p of its first operand
  and the tables alone, and the reference's stage makes row r of its result from row r of its operand in the same way.
  So if row p of the block is row r of the array going in, it is so coming out; the chain of the stages gives the
  block's entry (p, q) as the reference's entry (t·5000 + p, q).  The only arithmetic fact used is that the host's row
  sum starts from the value of the zero word, which is zero.
-/
import proofs.«123379_j13546326851764_2_alg».proof.Proof.Region1Kernel
import proofs.«123379_j13546326851764_2_alg».proof.Proof.RefTail
import proofs.«123379_j13546326851764_2_alg».proof.Proof.LibRowAgree

noncomputable section

namespace Cert.Bridge.Region1

open Idealize.ShloMosaic Idealize.ShloMosaic.ValueIdx

/-- x · w1ᵀ + b1: row p of the block's result is row r of the array's. -/
theorem lin1_agree (X : FVec Ideal Cert.KernelIdeal.S5000x64 .f32) (Y : FVec Ideal Cert.ReferenceIdeal.S50000x64 .f32)
    (w : FVec Ideal Cert.KernelIdeal.S64x64 .f32) (b : FVec Ideal Cert.KernelIdeal.S64 .f32) (p : Fin 5000) (r : Fin 50000)
    (h : ∀ j : Fin 64, X (ix2 p j) = Y (ix2 r j)) (q : Fin 64) :
    kLin1 X w b (ix2 p q) = Cert.Bridge.lin1 Y w b (ix2 r q) := by
  unfold kLin1 Cert.Bridge.lin1
  rw [addf_apply, addf_apply]
  refine congrArg₂ (· + ·) ?_ ?_
  · refine Rows.mm_agree _ _ ⟨rfl, rfl, rfl, rfl, rfl, rfl⟩ ⟨rfl, rfl, rfl, rfl, rfl, rfl⟩ _ _ _ _ p r h (fun j q' => ?_) q
    rw [transpose_ix2_apply, transpose_ix2_apply]; rfl
  · exact Rows.bias_agree b _ _ _ _ p r q

/-- l · lat1ᵀ: row p of the block's result is row r of the array's. -/
theorem score_agree (X : FVec Ideal Cert.KernelIdeal.S5000x64 .f32) (Y : FVec Ideal Cert.ReferenceIdeal.S50000x64 .f32)
    (lat1 : FVec Ideal Cert.KernelIdeal.S8x64 .f32) (p : Fin 5000) (r : Fin 50000)
    (h : ∀ j : Fin 64, X (ix2 p j) = Y (ix2 r j)) (q : Fin 8) :
    kScore X lat1 (ix2 p q) = Cert.Bridge.score Y lat1 (ix2 r q) := by
  unfold kScore Cert.Bridge.score
  refine Rows.mm_agree _ _ ⟨rfl, rfl, rfl, rfl, rfl, rfl⟩ ⟨rfl, rfl, rfl, rfl, rfl, rfl⟩ _ _ _ _ p r h (fun j q' => ?_) q
  rw [transpose_ix2_apply, transpose_ix2_apply, truncf_apply, shapeCast_self]

/-- s · wattᵀ + batt: row p of the block's result is row r of the array's. -/
theorem uatt_agree (X : FVec Ideal Cert.KernelIdeal.S5000x8 .f32) (Y : FVec Ideal Cert.ReferenceIdeal.S50000x8 .f32)
    (w : FVec Ideal Cert.KernelIdeal.S8x8 .f32) (b : FVec Ideal Cert.KernelIdeal.S8 .f32) (p : Fin 5000) (r : Fin 50000)
    (h : ∀ j : Fin 8, X (ix2 p j) = Y (ix2 r j)) (q : Fin 8) :
    kUatt X w b (ix2 p q) = Cert.Bridge.uatt Y w b (ix2 r q) := by
  unfold kUatt Cert.Bridge.uatt
  rw [addf_apply, addf_apply]
  refine congrArg₂ (· + ·) ?_ ?_
  · refine Rows.mm_agree _ _ ⟨rfl, rfl, rfl, rfl, rfl, rfl⟩ ⟨rfl, rfl, rfl, rfl, rfl, rfl⟩ _ _ _ _ p r h (fun j q' => ?_) q
    rw [transpose_ix2_apply, transpose_ix2_apply]; rfl
  · exact Rows.bias_agree b _ _ _ _ p r q

/-- The leaky rectifier, entry by entry. -/
theorem lrelu_agree (u : FVec Ideal Cert.KernelIdeal.S5000x8 .f32) (U : FVec Ideal Cert.ReferenceIdeal.S50000x8 .f32) (p : Fin 5000) (r : Fin 50000)
    (q : Fin 8) (h : u (ix2 p q) = U (ix2 r q)) : kLrelu u (ix2 p q) = Cert.Bridge.lrelu U (ix2 r q) := by
  unfold kLrelu Cert.Bridge.lrelu
  exact Rows.lrelu_agree _ u U _ _ h

/-- The row maximum of row p of the block is that of row r of the array. -/
theorem rowMax_agree (u : FVec Ideal Cert.KernelIdeal.S5000x8 .f32) (U : FVec Ideal Cert.ReferenceIdeal.S50000x8 .f32) (p : Fin 5000) (r : Fin 50000)
    (h : ∀ j : Fin 8, u (ix2 p j) = U (ix2 r j)) : kRowMax u (ix1 p) = Cert.Bridge.rowMax U (ix1 r) := by
  unfold kRowMax Cert.Bridge.rowMax
  exact Rows.rowmax_agree u U _ _ _ _ (by decide) _ _ p r h

/-- The shifted exponentials of row p of the block are those of row r of the array. -/
theorem expShift_agree (u : FVec Ideal Cert.KernelIdeal.S5000x8 .f32) (U : FVec Ideal Cert.ReferenceIdeal.S50000x8 .f32) (p : Fin 5000) (r : Fin 50000)
    (h : ∀ j : Fin 8, u (ix2 p j) = U (ix2 r j)) (q : Fin 8) :
    kExpShift u (ix2 p q) = Cert.Bridge.expShift U (ix2 r q) := by
  unfold kExpShift Cert.Bridge.expShift
  show Ideal.exp (subf u _ (ix2 p q)) = Ideal.exp (subf U _ (ix2 r q))
  rw [subf_apply, subf_apply, h q]
  refine congrArg (fun m => Ideal.exp (U (ix2 r q) - m)) ?_
  exact (broadcastTo_column_apply _ _ _ p q).trans
    ((rowMax_agree u U p r h).trans (broadcastInDim_column_apply _ _ _ r q).symm)

/-- The softmax of row p of the block is that of row r of the array. -/
theorem smax_agree (u : FVec Ideal Cert.KernelIdeal.S5000x8 .f32) (U : FVec Ideal Cert.ReferenceIdeal.S50000x8 .f32) (p : Fin 5000) (r : Fin 50000)
    (h : ∀ j : Fin 8, u (ix2 p j) = U (ix2 r j)) (q : Fin 8) :
    kSmax u (ix2 p q) = Cert.Bridge.smax U (ix2 r q) := by
  have hE : ∀ j : Fin 8, kExpShift u (ix2 p j) = Cert.Bridge.expShift U (ix2 r j) := fun j => expShift_agree u U p r h j
  unfold kSmax Cert.Bridge.smax
  rw [divf_apply, hostDivf_apply]
  refine congrArg₂ Ideal.div (hE q) ?_
  exact (broadcastTo_column_apply _ _ _ p q).trans
    ((Rows.rowsum_agree (kExpShift u) (Cert.Bridge.expShift U) _ _ _ _ (by decide) _ p r hE).trans
      (broadcastInDim_column_apply _ _ _ r q).symm)

/-- agg · (sc · latnew) + agg: row p of the block's result is row r of the array's. -/
theorem comb_agree (agg : FVec Ideal Cert.KernelIdeal.S5000x64 .f32) (AGG : FVec Ideal Cert.ReferenceIdeal.S50000x64 .f32)
    (sc : FVec Ideal Cert.KernelIdeal.S5000x8 .f32) (SC : FVec Ideal Cert.ReferenceIdeal.S50000x8 .f32) (latnew : FVec Ideal Cert.KernelIdeal.S8x64 .f32)
    (p : Fin 5000) (r : Fin 50000) (hagg : ∀ j : Fin 64, agg (ix2 p j) = AGG (ix2 r j))
    (hsc : ∀ j : Fin 8, sc (ix2 p j) = SC (ix2 r j)) (q : Fin 64) :
    kComb agg sc latnew (ix2 p q) = Cert.Bridge.comb AGG SC latnew (ix2 r q) := by
  unfold kComb Cert.Bridge.comb
  rw [addf_apply, addf_apply, mulf_apply, mulf_apply, shapeCast_self, hagg q]
  refine congrArg (fun m => AGG (ix2 r q) * m + AGG (ix2 r q)) ?_
  refine Rows.mm_agree _ _ ⟨rfl, rfl, rfl, rfl, rfl, rfl⟩ ⟨rfl, rfl, rfl, rfl, rfl, rfl⟩ _ _ _ _ p r hsc (fun j q' => ?_) q
  rw [truncf_apply, shapeCast_self]

/-- Entry (p, q) of what grid point t of the attention kernel stores is entry (t·5000 + p, q) of the reference's
    attention stage, when the point's two row blocks are rows t·5000 … of the user rows and of the aggregated rows. -/
theorem point_eq (t : Fin 10)
    (x0 x1 : Vec Ideal Cert.KernelIdeal.S5000x64 .f32) (x2 x3 : Vec Ideal Cert.KernelIdeal.S8x64 .f32) (x4 : Vec Ideal Cert.KernelIdeal.S64x64 .f32)
    (x5 : Vec Ideal Cert.KernelIdeal.S64 .f32) (x6 : Vec Ideal Cert.KernelIdeal.S8x8 .f32) (x7 : Vec Ideal Cert.KernelIdeal.S8 .f32)
    (UE AGG : FVec Ideal Cert.ReferenceIdeal.S50000x64 .f32)
    (h0 : ∀ (p : Fin 5000) (k : Fin 64), x0 (ix2 p k) = UE (ix2 (⟨t.val * 5000 + p.val, by omega⟩ : Fin 50000) k))
    (h1 : ∀ (p : Fin 5000) (k : Fin 64), x1 (ix2 p k) = AGG (ix2 (⟨t.val * 5000 + p.val, by omega⟩ : Fin 50000) k))
    (p : Fin 5000) (q : Fin 64) :
    Cert.KernelIdeal.Gen.k1_pay1 (F := Ideal) (Cert.KernelIdeal.Gen.k1_pay2 (F := Ideal) x0 x4 x5 x2 x6 x7) x3 x1 (ix2 p q)
      = Cert.Bridge.tail (F := Ideal) UE AGG x2 x3 x4 x5 x6 x7 (ix2 (⟨t.val * 5000 + p.val, by omega⟩ : Fin 50000) q) := by
  rw [pay1_eq, pay2_eq]
  unfold Cert.Bridge.tail
  refine comb_agree x1 AGG _ _ x3 p _ (h1 p) (fun j => ?_) q
  refine smax_agree _ _ p _ (fun j => ?_) j
  refine lrelu_agree _ _ p _ j ?_
  refine uatt_agree _ _ x6 x7 p _ (fun j => ?_) j
  refine score_agree _ _ x2 p _ (fun j => ?_) j
  exact lin1_agree x0 UE x4 x5 p _ (h0 p) j

end Cert.Bridge.Region1

end
-- ==== Proof.Region1Array.lean ====
/-
  The second region: from blocks to the array.

  At every grid point t the body reads block t of the user rows and block t of the aggregated rows (5000 rows of 64
  lanes each) and the six small tables whole, and stores the attention stage of those 5000 rows.  Row p of block t is
  row 5000·t + p of the arrays, and every stage makes row r of its result from row r of its operand and the tables
  alone, so what point t writes back is block t of the reference's attention stage of the whole arrays.  The ten
  blocks tile the 50000 rows: the array the region leaves is the reference's `tail`.
-/
import proofs.«123379_j13546326851764_2_alg».proof.Proof.Gen.KernelIdeal.Frame
import proofs.«123379_j13546326851764_2_alg».proof.Proof.RefTail
import proofs.«123379_j13546326851764_2_alg».proof.Proof.Region1
import Idealize.ShloMosaic.Lib.ValueIdx
import Idealize.ShloMosaic.Lib.Pipeline.Value
import Idealize.ShloMosaic.PureOps.Ideal

set_option maxRecDepth 16384

noncomputable section

namespace Cert.Bridge.Region1Array

open Idealize.ShloMosaic Idealize.ShloMosaic.TcCoe Idealize.ShloMosaic.ValueIdx Idealize.SL.Sem
open Idealize.ShloMosaic.Pipeline (Dat)
open Cert.KernelIdeal Cert.KernelIdeal.Gen

theorem hz : (![0, 0] : Fin 2 → Nat) = fun _ => 0 := funext fun a => by fin_cases a <;> rfl
theorem hz1 : (![0] : Fin 1 → Nat) = fun _ => 0 := funext fun a => by fin_cases a; rfl

/-- The printed index maps over the grid: the two row-tiled inputs and the output sit at block t on the rows; every small
    table is its one whole block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0 :=
  (by decide +kernel : ∀ t : Fin grid1.N, _)

/-- The attention stage at one entry over plain indices: j in the block of point tv, i in the array, i's row the block's
    row 5000·tv + j's and the same lane. -/
theorem point_eq' (tv : ℕ) (htv : tv < 10)
    (x0 x1 : Vec Ideal S5000x64 .f32) (x2 x3 : Vec Ideal S8x64 .f32) (x4 : Vec Ideal S64x64 .f32) (x5 : Vec Ideal S64 .f32)
    (x6 : Vec Ideal S8x8 .f32) (x7 : Vec Ideal S8 .f32)
    (UE AGG : FVec Ideal Cert.ReferenceIdeal.S50000x64 .f32)
    (h0 : ∀ (p : Fin 5000) (k : Fin 64), x0 (ix2 p k) = UE (ix2 (⟨tv * 5000 + p.val, by omega⟩ : Fin 50000) k))
    (h1 : ∀ (p : Fin 5000) (k : Fin 64), x1 (ix2 p k) = AGG (ix2 (⟨tv * 5000 + p.val, by omega⟩ : Fin 50000) k))
    (j : S5000x64.Idx) (i : Cert.ReferenceIdeal.S50000x64.Idx)
    (hi0 : (i 0).val = tv * 5000 + (j 0).val) (hi1 : (i 1).val = (j 1).val) :
    k1_pay1 (F := Ideal) (k1_pay2 (F := Ideal) x0 x4 x5 x2 x6 x7) x3 x1 j
      = Cert.Bridge.tail (F := Ideal) UE AGG x2 x3 x4 x5 x6 x7 i := by
  obtain ⟨p, q, rfl⟩ : ∃ (p : Fin 5000) (q : Fin 64), j = ix2 p q := ⟨j 0, j 1, eq_ix2 j⟩
  obtain ⟨r, q', rfl⟩ : ∃ (r : Fin 50000) (q' : Fin 64), i = ix2 r q' := ⟨i 0, i 1, eq_ix2 i⟩
  have hb : tv * 5000 + p.val < 50000 := by have hp := p.isLt; clear hi0 hi1; omega
  have hr : r = (⟨tv * 5000 + p.val, hb⟩ : Fin 50000) := Fin.ext hi0
  have hq : q' = q := Fin.ext hi1
  rw [hr, hq]
  exact Cert.Bridge.Region1.point_eq ⟨tv, htv⟩ x0 x1 x2 x3 x4 x5 x6 x7 UE AGG h0 h1 p q

variable (V : (c : Dev nD) → (b : Ref sig .tc) → Buf (Elt Ideal) ((c : Thread nD τ).loc b))

/-! ### A small table's one block is the table -/

theorem iblk_2 (c : Dev nD) (t : Fin cfg1.N) : iblk1 V c 2 t = V c main_v47 := by
  obtain ⟨-, -, -, -, e4, e5, -⟩ := idx_facts t
  funext y
  show V c main_v47 (((cfg1.win 2).blk t).view.emb y) = V c main_v47 y
  refine congrArg (V c main_v47) (funext fun a => Fin.ext ?_)
  match a with
  | ⟨0, _⟩ => show win1_2.index t (0 : Fin 2) * 8 + 1 * (y 0).val = (y 0).val; omega
  | ⟨1, _⟩ => show win1_2.index t (1 : Fin 2) * 64 + 1 * (y 1).val = (y 1).val; omega

theorem iblk_3 (c : Dev nD) (t : Fin cfg1.N) : iblk1 V c 3 t = V c main_v77 := by
  obtain ⟨-, -, -, -, -, -, e6, e7, -⟩ := idx_facts t
  funext y
  show V c main_v77 (((cfg1.win 3).blk t).view.emb y) = V c main_v77 y
  refine congrArg (V c main_v77) (funext fun a => Fin.ext ?_)
  match a with
  | ⟨0, _⟩ => show win1_3.index t (0 : Fin 2) * 8 + 1 * (y 0).val = (y 0).val; omega
  | ⟨1, _⟩ => show win1_3.index t (1 : Fin 2) * 64 + 1 * (y 1).val = (y 1).val; omega

theorem iblk_4 (c : Dev nD) (t : Fin cfg1.N) : iblk1 V c 4 t = V c main_arg14 := by
  obtain ⟨-, -, -, -, -, -, -, -, e8, e9, -⟩ := idx_facts t
  funext y
  show V c main_arg14 (((cfg1.win 4).blk t).view.emb y) = V c main_arg14 y
  refine congrArg (V c main_arg14) (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega

theorem iblk_5 (c : Dev nD) (t : Fin cfg1.N) : iblk1 V c 5 t = V c main_arg15 := by
  obtain ⟨-, -, -, -, -, -, -, -, -, -, e10, -⟩ := idx_facts t
  funext y
  show V c main_arg15 (((cfg1.win 5).blk t).view.emb y) = V c main_arg15 y
  refine congrArg (V c main_arg15) (funext fun a => Fin.ext ?_)
  match a with
  | ⟨0, _⟩ => show win1_5.index t (0 : Fin 1) * 64 + 1 * (y 0).val = (y 0).val; omega

theorem iblk_6 (c : Dev nD) (t : Fin cfg1.N) : iblk1 V c 6 t = V c main_arg10 := by
  obtain ⟨-, -, -, -, -, -, -, -, -, -, -, e11, e12, -⟩ := idx_facts t
  funext y
  show V c main_arg10 (((cfg1.win 6).blk t).view.emb y) = V c main_arg10 y
  refine congrArg (V c main_arg10) (funext fun a => Fin.ext ?_)
  match a with
  | ⟨0, _⟩ => show win1_6.index t (0 : Fin 2) * 8 + 1 * (y 0).val = (y 0).val; omega
  | ⟨1, _⟩ => show win1_6.index t (1 : Fin 2) * 8 + 1 * (y 1).val = (y 1).val; omega

theorem iblk_7 (c : Dev nD) (t : Fin cfg1.N) : iblk1 V c 7 t = V c main_arg11 := by
  obtain ⟨-, -, -, -, -, -, -, -, -, -, -, -, -, e13, -⟩ := idx_facts t
  funext y
  show V c main_arg11 (((cfg1.win 7).blk t).view.emb y) = V c main_arg11 y
  refine congrArg (V c main_arg11) (funext fun a => Fin.ext ?_)
  match a with
  | ⟨0, _⟩ => show win1_7.index t (0 : Fin 1) * 8 + 1 * (y 0).val = (y 0).val; omega

/-- What point t writes back is block t of the reference's attention stage of the arrays the region was entered with. -/
theorem flushed_eq (c : Dev nD) (t : Fin cfg1.N) :
    (dat1 V c).flushed 8 t = ((cfg1.win 8).blk t).view.read (Elt Ideal)
      (Cert.Bridge.tail (F := Ideal) (V c main_arg1) (V c main_v42) (V c main_v47) (V c main_v77) (V c main_arg14) (V c main_arg15)
        (V c main_arg10) (V c main_arg11)) := by
  show (cfg1.win 8).cut (grid1.coords t) ((dat1 V c).after 8 t) = _
  rw [after1_8]
  unfold out1_8
  rw [View.canon_unit_zero hz]
  simp only [View.ld_unit_zero (S := S5000x64) hz, View.ld_unit_zero (S := S64x64) hz, View.ld_unit_zero (S := S64) hz1,
    View.ld_unit_zero (S := S8x64) hz, View.ld_unit_zero (S := S8x8) hz, View.ld_unit_zero (S := S8) hz1]
  rw [iblk_2 V c t, iblk_3 V c t, iblk_4 V c t, iblk_5 V c t, iblk_6 V c t, iblk_7 V c t]
  obtain ⟨e0, e1, e2, e3, -, -, -, -, -, -, -, -, -, -, e14, e15⟩ := idx_facts t
  have htN : t.val < 10 := lt_of_lt_of_eq t.isLt N_1
  funext j
  show k1_pay1 (F := Ideal) (k1_pay2 (F := Ideal) (iblk1 V c 0 t) (V c main_arg14) (V c main_arg15) (V c main_v47) (V c main_arg10) (V c main_arg11))
      (V c main_v77) (iblk1 V c 1 t) j
    = Cert.Bridge.tail (F := Ideal) (V c main_arg1) (V c main_v42) (V c main_v47) (V c main_v77) (V c main_arg14) (V c main_arg15)
        (V c main_arg10) (V c main_arg11) (((cfg1.win 8).blk t).view.emb j)
  refine point_eq' t.val htN _ _ _ _ _ _ _ _ _ _ ?_ ?_ j _ ?_ ?_
  · intro p k
    show V c main_arg1 (((cfg1.win 0).blk t).view.emb (ix2 p k)) = V c main_arg1 (ix2 (⟨t.val * 5000 + p.val, by omega⟩ : Fin 50000) k)
    refine congrArg (V c main_arg1) (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  · intro p k
    show V c main_v42 (((cfg1.win 1).blk t).view.emb (ix2 p k)) = V c main_v42 (ix2 (⟨t.val * 5000 + p.val, by omega⟩ : Fin 50000) k)
    refine congrArg (V c main_v42) (funext fun a => Fin.ext ?_)
    match a with
    | ⟨0, _⟩ => show win1_1.index t (0 : Fin 2) * 5000 + 1 * p.val = t.val * 5000 + p.val; omega
    | ⟨1, _⟩ => show win1_1.index t (1 : Fin 2) * 64 + 1 * k.val = k.val; omega
  · show win1_8.index t (0 : Fin 2) * 5000 + 1 * (j 0).val = t.val * 5000 + (j 0).val; omega
  · show win1_8.index t (1 : Fin 2) * 64 + 1 * (j 1).val = (j 1).val; omega

/-- An index of the array is in point t's block iff each coordinate is in the block's range on its axis. -/
theorem mem_blk (t : Fin cfg1.N) (i : S50000x64.Idx) :
    i ∈ ((cfg1.win 8).blk t).view.set ↔ ∀ a : Fin 2, win1_8.index t a * S5000x64.size a ≤ (i a).val ∧ (i a).val < win1_8.index t a * S5000x64.size a + S5000x64.size a := by
  show i ∈ ((View.whole main_v78).slice (win1_8.rect t)).set ↔ _
  rw [View.set_slice_whole, Rect.mem_set_unit]
  exact Iff.rfl

/-- Every row of the array is in the block of the point its number divided by 5000 names. -/
theorem cover (i : S50000x64.Idx) : ∃ t : Fin cfg1.N, (cfg1.win 8).flush t = true ∧ i ∈ ((cfg1.win 8).blk t).view.set := by
  have hi0 : (i 0).val < 50000 := (i 0).isLt
  have hi1 : (i 1).val < 64 := (i 1).isLt
  have ht : (i 0).val / 5000 < cfg1.N := lt_of_lt_of_eq (by omega : (i 0).val / 5000 < 10) N_1.symm
  refine ⟨⟨(i 0).val / 5000, ht⟩, flush1_8 _, ?_⟩
  obtain ⟨-, -, -, -, -, -, -, -, -, -, -, -, -, -, e14, e15⟩ := idx_facts ⟨(i 0).val / 5000, ht⟩
  rw [mem_blk]
  intro a
  match a with
  | ⟨0, _⟩ => show win1_8.index ⟨(i 0).val / 5000, ht⟩ (0 : Fin 2) * 5000 ≤ (i 0).val ∧ (i 0).val < win1_8.index ⟨(i 0).val / 5000, ht⟩ (0 : Fin 2) * 5000 + 5000; rw [e14]; show (i 0).val / 5000 * 5000 ≤ (i 0).val ∧ (i 0).val < (i 0).val / 5000 * 5000 + 5000; omega
  | ⟨1, _⟩ => show win1_8.index ⟨(i 0).val / 5000, ht⟩ (1 : Fin 2) * 64 ≤ (i 1).val ∧ (i 1).val < win1_8.index ⟨(i 0).val / 5000, ht⟩ (1 : Fin 2) * 64 + 64; rw [e15]; omega

/-- The array the second region leaves is the reference's attention stage of the arrays it was entered with. -/
theorem final (c : Dev nD) :
    (dat1 V c).arrAt 8 cfg1.N = Cert.Bridge.tail (F := Ideal) (V c main_arg1) (V c main_v42) (V c main_v47) (V c main_v77)
      (V c main_arg14) (V c main_arg15) (V c main_arg10) (V c main_arg11) :=
  (dat1 V c).arrAt_eq_of_cover 8 _ (fun t _ => flushed_eq V c t) cover

end Cert.Bridge.Region1Array

end
-- ==== Proof.KernelBoundary.lean ====
/-
  What the last boundary's contents are at the three result arrays, and what each region finds in the arrays it reads.

  * The row-mean result is written by the first region only: no later host operation and no window of the second region
    touches it, so at the end it still holds what the first region's write-backs left.
  * The attention result is what the second region's write-backs leave.
  * The new latent table is an INPUT of the second region, which leaves it as it found it: the host stretches' value.
  * The second region's other inputs that are program arguments hold their launch contents when it is entered, and so do
    the arguments the host stretches read: nothing before writes an argument.
-/
import proofs.«123379_j13546326851764_2_alg».proof.Proof.Gen.KernelIdeal.Frame

set_option maxRecDepth 16384

noncomputable section

namespace Cert.KernelIdeal.Boundary

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- No operation of a literal list of host operations writes the buffer: each operation writes the one buffer it is
    printed with, a different one. -/
macro "none_writes" : tactic =>
  `(tactic| (refine List.forall_iff_forall_mem.mp ?_; simp only [hostOps0, hostOps1, hostOps1_1, hostOps1_2, List.flatten_cons, List.flatten_nil, List.append_nil, List.cons_append,
                List.nil_append, List.Forall, StableHlo.nullary_writes, StableHlo.unary_writes, StableHlo.binary_writes,
                StableHlo.ternary_writes, StableHlo.quaternary_writes, StableHlo.reshape_writes, StableHlo.binaryIndexed_writes,
                Finset.mem_singleton]; (repeat' apply And.intro); all_goals exact StableHlo.devRef_ne_of_ne (by decide)))

/-- A buffer that is no array of the second region and that the three later host stretches do not write holds at the
    end what the first region's exit left. -/
theorem W6_eq_W2 (c : Dev nD) (b : Ref sig .tc) (h1 : ∀ w, Pipeline.arrRef spec1 w ≠ b)
    (h12 : ∀ op ∈ (hostOps1_2 : List (HloOp τ sig (Elt F))), (Proc.devRef .tc b : DevRef τ sig) ∉ op.writes)
    (h11 : ∀ op ∈ (hostOps1_1 : List (HloOp τ sig (Elt F))), (Proc.devRef .tc b : DevRef τ sig) ∉ op.writes)
    (h10 : ∀ op ∈ (hostOps1 : List (HloOp τ sig (Elt F))), (Proc.devRef .tc b : DevRef τ sig) ∉ op.writes) :
    W6 m ρ c (Proc.devRef .tc b) = W2 m ρ c (Proc.devRef .tc b) :=
  calc W6 m ρ c (Proc.devRef .tc b)
    _ = W5 m ρ c (Proc.devRef .tc b) := W6_of_ne m ρ c b h1
    _ = W4 m ρ c (Proc.devRef .tc b) := StableHlo.after_of_forall_not_mem (b := Proc.devRef .tc b) _ _ h12
    _ = W3 m ρ c (Proc.devRef .tc b) := StableHlo.after_of_forall_not_mem (b := Proc.devRef .tc b) _ _ h11
    _ = W2 m ρ c (Proc.devRef .tc b) := StableHlo.after_of_forall_not_mem (b := Proc.devRef .tc b) _ _ h10

/-- The row-mean result at the end: what the first region's write-backs left. -/
theorem W6_v29 (c : Dev nD) : W6 m ρ c (Proc.devRef .tc main_v29) = (dat0 (V1 m ρ) c).arrAt 2 cfg0.N :=
  (W6_eq_W2 m ρ c main_v29 (by decide) (by none_writes) (by none_writes) (by none_writes)).trans (W2_arr m ρ c 2)

/-- The attention result at the end: what the second region's write-backs leave. -/
theorem W6_v78 (c : Dev nD) : W6 m ρ c (Proc.devRef .tc main_v78) = (dat1 (V5 m ρ) c).arrAt 8 cfg1.N :=
  W6_arr m ρ c 8

/-- The new latent table at the end: the second region reads it and leaves it. -/
theorem W6_v77 (c : Dev nD) : W6 m ρ c (Proc.devRef .tc main_v77) = W5 m ρ c (Proc.devRef .tc main_v77) :=
  (W6_arr m ρ c 3).trans (((dat1 (V5 m ρ) c).arrAt_in 3 rfl _).trans (A_eq1 (V5 m ρ) c 3))

/-! ### The arguments the second region reads, as it finds them -/

theorem V5_arg1 (c : Dev nD) : V5 m ρ c main_arg1 = m ((c : Thread nD τ).loc main_arg1) :=
  ((W6_arr m ρ c 0).trans (((dat1 (V5 m ρ) c).arrAt_in 0 rfl _).trans (A_eq1 (V5 m ρ) c 0))).symm.trans (W6_main_arg1 m ρ c)
theorem V5_arg14 (c : Dev nD) : V5 m ρ c main_arg14 = m ((c : Thread nD τ).loc main_arg14) :=
  ((W6_arr m ρ c 4).trans (((dat1 (V5 m ρ) c).arrAt_in 4 rfl _).trans (A_eq1 (V5 m ρ) c 4))).symm.trans (W6_main_arg14 m ρ c)
theorem V5_arg15 (c : Dev nD) : V5 m ρ c main_arg15 = m ((c : Thread nD τ).loc main_arg15) :=
  ((W6_arr m ρ c 5).trans (((dat1 (V5 m ρ) c).arrAt_in 5 rfl _).trans (A_eq1 (V5 m ρ) c 5))).symm.trans (W6_main_arg15 m ρ c)
theorem V5_arg10 (c : Dev nD) : V5 m ρ c main_arg10 = m ((c : Thread nD τ).loc main_arg10) :=
  ((W6_arr m ρ c 6).trans (((dat1 (V5 m ρ) c).arrAt_in 6 rfl _).trans (A_eq1 (V5 m ρ) c 6))).symm.trans (W6_main_arg10 m ρ c)
theorem V5_arg11 (c : Dev nD) : V5 m ρ c main_arg11 = m ((c : Thread nD τ).loc main_arg11) :=
  ((W6_arr m ρ c 7).trans (((dat1 (V5 m ρ) c).arrAt_in 7 rfl _).trans (A_eq1 (V5 m ρ) c 7))).symm.trans (W6_main_arg11 m ρ c)

/-! ### The arguments the later host stretches read hold their launch contents at the first region's exit -/

/-- An argument that is no array of the first region and that the first host stretch does not write. -/
theorem W2_kept (c : Dev nD) (b : Ref sig .tc) (h0 : ∀ w, Pipeline.arrRef spec0 w ≠ b)
    (h : ∀ op ∈ (hostOps0 : List (HloOp τ sig (Elt F))), (Proc.devRef .tc b : DevRef τ sig) ∉ op.writes) :
    W2 m ρ c (Proc.devRef .tc b) = m ((c : Thread nD τ).loc b) :=
  (W2_of_ne m ρ c b h0).trans (StableHlo.after_of_forall_not_mem (b := Proc.devRef .tc b) _ _ h)

theorem W2_arg0 (c : Dev nD) : W2 m ρ c (Proc.devRef .tc main_arg0) = m ((c : Thread nD τ).loc main_arg0) := W2_kept m ρ c main_arg0 (by decide) (by none_writes)
theorem W2_arg2 (c : Dev nD) : W2 m ρ c (Proc.devRef .tc main_arg2) = m ((c : Thread nD τ).loc main_arg2) := W2_kept m ρ c main_arg2 (by decide) (by none_writes)
theorem W2_arg5 (c : Dev nD) : W2 m ρ c (Proc.devRef .tc main_arg5) = m ((c : Thread nD τ).loc main_arg5) := W2_kept m ρ c main_arg5 (by decide) (by none_writes)
theorem W2_arg6 (c : Dev nD) : W2 m ρ c (Proc.devRef .tc main_arg6) = m ((c : Thread nD τ).loc main_arg6) := W2_kept m ρ c main_arg6 (by decide) (by none_writes)
theorem W2_arg7 (c : Dev nD) : W2 m ρ c (Proc.devRef .tc main_arg7) = m ((c : Thread nD τ).loc main_arg7) := W2_kept m ρ c main_arg7 (by decide) (by none_writes)
theorem W2_arg8 (c : Dev nD) : W2 m ρ c (Proc.devRef .tc main_arg8) = m ((c : Thread nD τ).loc main_arg8) := W2_kept m ρ c main_arg8 (by decide) (by none_writes)
theorem W2_arg12 (c : Dev nD) : W2 m ρ c (Proc.devRef .tc main_arg12) = m ((c : Thread nD τ).loc main_arg12) := W2_kept m ρ c main_arg12 (by decide) (by none_writes)
theorem W2_arg13 (c : Dev nD) : W2 m ρ c (Proc.devRef .tc main_arg13) = m ((c : Thread nD τ).loc main_arg13) := W2_kept m ρ c main_arg13 (by decide) (by none_writes)
theorem W2_arg14 (c : Dev nD) : W2 m ρ c (Proc.devRef .tc main_arg14) = m ((c : Thread nD τ).loc main_arg14) := W2_kept m ρ c main_arg14 (by decide) (by none_writes)
theorem W2_arg15 (c : Dev nD) : W2 m ρ c (Proc.devRef .tc main_arg15) = m ((c : Thread nD τ).loc main_arg15) := W2_kept m ρ c main_arg15 (by decide) (by none_writes)
theorem W2_arg16 (c : Dev nD) : W2 m ρ c (Proc.devRef .tc main_arg16) = m ((c : Thread nD τ).loc main_arg16) := W2_kept m ρ c main_arg16 (by decide) (by none_writes)
theorem W2_arg17 (c : Dev nD) : W2 m ρ c (Proc.devRef .tc main_arg17) = m ((c : Thread nD τ).loc main_arg17) := W2_kept m ρ c main_arg17 (by decide) (by none_writes)

end Cert.KernelIdeal.Boundary

end
-- ==== Proof.KernelHost.lean ====
/-
  The counts column the first region reads is the counts vector laid out as one lane per row: the column's entry (r, 0)
  is the vector's entry r.
-/
import proofs.«123379_j13546326851764_2_alg».proof.Proof.Gen.KernelIdeal.Launch
import proofs.«123379_j13546326851764_2_alg».proof.Proof.LibColumns
import Idealize.ShloMosaic.Lib.StableHlo.Run

noncomputable section

namespace Cert.KernelIdeal.HostRead

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]

/-- After the first host stretch the counts column is the reshape of the counts vector. -/
theorem v28_eq (V : Valuation τ sig (Elt F)) :
    after hostOps0 V (main_v28 : DevRef τ sig)
      = fun i => shapeCast S100000x1 (after hostOps0 V (main_v27 : DevRef τ sig)) Facts₀.shapeCasts_S100000_S100000x1 i := by
  dsimp only [hostOps0]
  after_results_simp
  rfl

/-- The column at (r, 0) is the vector at r. -/
theorem v28_col (V : Valuation τ sig (Elt F)) (r : Fin 100000) :
    after hostOps0 V (main_v28 : DevRef τ sig) (ix2 r (0 : Fin 1)) = after hostOps0 V (main_v27 : DevRef τ sig) (ix1 r) := by
  rw [v28_eq V]
  exact shapeCast_a_a1_apply _ _ r 0

end Cert.KernelIdeal.HostRead

end
-- ==== Proof.KernelValues.lean ====
/-
  What the kernel program's three result arrays hold at the end, as the reference's functions of the reference's own
  host arrays, for a reference memory that agrees with the kernel's on the arguments.

  * The row means: the first region leaves the reference's row means of its sums and counts, and those are the
    reference's sums and counts.
  * The attention result: the second region leaves the reference's attention stage of the arrays it is entered with —
    the user rows, the weight and bias arguments, and the aggregated rows and the two small tables that the host
    stretches computed as the reference computes them.
  * The new latent table: the host stretches' value, the reference's.
-/
import proofs.«123379_j13546326851764_2_alg».proof.Proof.Shared
import proofs.«123379_j13546326851764_2_alg».proof.Proof.Region0
import proofs.«123379_j13546326851764_2_alg».proof.Proof.Region1Array
import proofs.«123379_j13546326851764_2_alg».proof.Proof.KernelBoundary
import proofs.«123379_j13546326851764_2_alg».proof.Proof.KernelHost

set_option maxRecDepth 16384

noncomputable section

namespace Cert.Bridge.KernelValues

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)
  (VR : Valuation Cert.ReferenceIdeal.τ Cert.ReferenceIdeal.sig (Elt Ideal)) (c : Dev nD)

/-- The row means at the end. -/
theorem v29
    (a0 : VR (Proc.devRef .tc Cert.ReferenceIdeal.main_arg0) = m ((c : Thread nD τ).loc main_arg0))
    (a3 : VR (Proc.devRef .tc Cert.ReferenceIdeal.main_arg3) = m ((c : Thread nD τ).loc main_arg3))
    (a4 : VR (Proc.devRef .tc Cert.ReferenceIdeal.main_arg4) = m ((c : Thread nD τ).loc main_arg4))
    (a8 : VR (Proc.devRef .tc Cert.ReferenceIdeal.main_arg8) = m ((c : Thread nD τ).loc main_arg8)) :
    W6 m ρ c (Proc.devRef .tc main_v29)
      = Cert.Bridge.out0 (F := Ideal) (after Cert.ReferenceIdeal.RefRun.ops VR (Proc.devRef .tc Cert.ReferenceIdeal.main_v23))
          (after Cert.ReferenceIdeal.RefRun.ops VR (Proc.devRef .tc Cert.ReferenceIdeal.main_v27)) :=
  (Cert.KernelIdeal.Boundary.W6_v29 m ρ c).trans
    (Cert.Bridge.Region0.final (V1 m ρ) c _ _
      (Cert.Bridge.Shared.sums_eq (W0 m ρ c) VR a0.symm a3.symm a4.symm a8.symm)
      (fun r => (Cert.KernelIdeal.HostRead.v28_col (W0 m ρ c) r).trans
        (congrFun (Cert.Bridge.Shared.cnt_eq (W0 m ρ c) VR a3.symm) (ix1 r))))

/-- The new latent table at the end. -/
theorem v77
    (a2 : VR (Proc.devRef .tc Cert.ReferenceIdeal.main_arg2) = m ((c : Thread nD τ).loc main_arg2))
    (a8 : VR (Proc.devRef .tc Cert.ReferenceIdeal.main_arg8) = m ((c : Thread nD τ).loc main_arg8))
    (a12 : VR (Proc.devRef .tc Cert.ReferenceIdeal.main_arg12) = m ((c : Thread nD τ).loc main_arg12))
    (a13 : VR (Proc.devRef .tc Cert.ReferenceIdeal.main_arg13) = m ((c : Thread nD τ).loc main_arg13))
    (a16 : VR (Proc.devRef .tc Cert.ReferenceIdeal.main_arg16) = m ((c : Thread nD τ).loc main_arg16))
    (a17 : VR (Proc.devRef .tc Cert.ReferenceIdeal.main_arg17) = m ((c : Thread nD τ).loc main_arg17)) :
    W6 m ρ c (Proc.devRef .tc main_v77)
      = after Cert.ReferenceIdeal.RefRun.ops VR (Proc.devRef .tc Cert.ReferenceIdeal.main_v104) :=
  (Cert.KernelIdeal.Boundary.W6_v77 m ρ c).trans
    (Cert.Bridge.Shared.latnew_eq (W2 m ρ c) VR
      ((Cert.KernelIdeal.Boundary.W2_arg2 m ρ c).trans a2.symm) ((Cert.KernelIdeal.Boundary.W2_arg8 m ρ c).trans a8.symm)
      ((Cert.KernelIdeal.Boundary.W2_arg12 m ρ c).trans a12.symm) ((Cert.KernelIdeal.Boundary.W2_arg13 m ρ c).trans a13.symm)
      ((Cert.KernelIdeal.Boundary.W2_arg16 m ρ c).trans a16.symm) ((Cert.KernelIdeal.Boundary.W2_arg17 m ρ c).trans a17.symm))

/-- The attention result at the end. -/
theorem v78
    (a0 : VR (Proc.devRef .tc Cert.ReferenceIdeal.main_arg0) = m ((c : Thread nD τ).loc main_arg0))
    (a1 : VR (Proc.devRef .tc Cert.ReferenceIdeal.main_arg1) = m ((c : Thread nD τ).loc main_arg1))
    (a2 : VR (Proc.devRef .tc Cert.ReferenceIdeal.main_arg2) = m ((c : Thread nD τ).loc main_arg2))
    (a5 : VR (Proc.devRef .tc Cert.ReferenceIdeal.main_arg5) = m ((c : Thread nD τ).loc main_arg5))
    (a6 : VR (Proc.devRef .tc Cert.ReferenceIdeal.main_arg6) = m ((c : Thread nD τ).loc main_arg6))
    (a7 : VR (Proc.devRef .tc Cert.ReferenceIdeal.main_arg7) = m ((c : Thread nD τ).loc main_arg7))
    (a8 : VR (Proc.devRef .tc Cert.ReferenceIdeal.main_arg8) = m ((c : Thread nD τ).loc main_arg8))
    (a10 : VR (Proc.devRef .tc Cert.ReferenceIdeal.main_arg10) = m ((c : Thread nD τ).loc main_arg10))
    (a11 : VR (Proc.devRef .tc Cert.ReferenceIdeal.main_arg11) = m ((c : Thread nD τ).loc main_arg11))
    (a12 : VR (Proc.devRef .tc Cert.ReferenceIdeal.main_arg12) = m ((c : Thread nD τ).loc main_arg12))
    (a13 : VR (Proc.devRef .tc Cert.ReferenceIdeal.main_arg13) = m ((c : Thread nD τ).loc main_arg13))
    (a14 : VR (Proc.devRef .tc Cert.ReferenceIdeal.main_arg14) = m ((c : Thread nD τ).loc main_arg14))
    (a15 : VR (Proc.devRef .tc Cert.ReferenceIdeal.main_arg15) = m ((c : Thread nD τ).loc main_arg15))
    (a16 : VR (Proc.devRef .tc Cert.ReferenceIdeal.main_arg16) = m ((c : Thread nD τ).loc main_arg16))
    (a17 : VR (Proc.devRef .tc Cert.ReferenceIdeal.main_arg17) = m ((c : Thread nD τ).loc main_arg17)) :
    W6 m ρ c (Proc.devRef .tc main_v78)
      = Cert.Bridge.tail (F := Ideal) (VR (Proc.devRef .tc Cert.ReferenceIdeal.main_arg1))
          (after Cert.ReferenceIdeal.RefRun.ops VR (Proc.devRef .tc Cert.ReferenceIdeal.main_v45))
          (after Cert.ReferenceIdeal.RefRun.ops VR (Proc.devRef .tc Cert.ReferenceIdeal.main_v55))
          (after Cert.ReferenceIdeal.RefRun.ops VR (Proc.devRef .tc Cert.ReferenceIdeal.main_v104))
          (VR (Proc.devRef .tc Cert.ReferenceIdeal.main_arg14)) (VR (Proc.devRef .tc Cert.ReferenceIdeal.main_arg15))
          (VR (Proc.devRef .tc Cert.ReferenceIdeal.main_arg10)) (VR (Proc.devRef .tc Cert.ReferenceIdeal.main_arg11)) := by
  have e1 : V5 m ρ c main_arg1 = VR (Proc.devRef .tc Cert.ReferenceIdeal.main_arg1) := (Cert.KernelIdeal.Boundary.V5_arg1 m ρ c).trans a1.symm
  have e14 : V5 m ρ c main_arg14 = VR (Proc.devRef .tc Cert.ReferenceIdeal.main_arg14) := (Cert.KernelIdeal.Boundary.V5_arg14 m ρ c).trans a14.symm
  have e15 : V5 m ρ c main_arg15 = VR (Proc.devRef .tc Cert.ReferenceIdeal.main_arg15) := (Cert.KernelIdeal.Boundary.V5_arg15 m ρ c).trans a15.symm
  have e10 : V5 m ρ c main_arg10 = VR (Proc.devRef .tc Cert.ReferenceIdeal.main_arg10) := (Cert.KernelIdeal.Boundary.V5_arg10 m ρ c).trans a10.symm
  have e11 : V5 m ρ c main_arg11 = VR (Proc.devRef .tc Cert.ReferenceIdeal.main_arg11) := (Cert.KernelIdeal.Boundary.V5_arg11 m ρ c).trans a11.symm
  have e42 : V5 m ρ c main_v42 = after Cert.ReferenceIdeal.RefRun.ops VR (Proc.devRef .tc Cert.ReferenceIdeal.main_v45) :=
    Cert.Bridge.Shared.uagg_eq (W2 m ρ c) VR
      ((Cert.KernelIdeal.Boundary.W2_arg0 m ρ c).trans a0.symm) ((Cert.KernelIdeal.Boundary.W2_arg5 m ρ c).trans a5.symm)
      ((Cert.KernelIdeal.Boundary.W2_arg6 m ρ c).trans a6.symm) ((Cert.KernelIdeal.Boundary.W2_arg7 m ρ c).trans a7.symm)
  have e47 : V5 m ρ c main_v47 = after Cert.ReferenceIdeal.RefRun.ops VR (Proc.devRef .tc Cert.ReferenceIdeal.main_v55) :=
    Cert.Bridge.Shared.lat1_eq (W2 m ρ c) VR
      ((Cert.KernelIdeal.Boundary.W2_arg2 m ρ c).trans a2.symm) ((Cert.KernelIdeal.Boundary.W2_arg14 m ρ c).trans a14.symm)
      ((Cert.KernelIdeal.Boundary.W2_arg15 m ρ c).trans a15.symm)
  have e77 : V5 m ρ c main_v77 = after Cert.ReferenceIdeal.RefRun.ops VR (Proc.devRef .tc Cert.ReferenceIdeal.main_v104) :=
    Cert.Bridge.Shared.latnew_eq (W2 m ρ c) VR
      ((Cert.KernelIdeal.Boundary.W2_arg2 m ρ c).trans a2.symm) ((Cert.KernelIdeal.Boundary.W2_arg8 m ρ c).trans a8.symm)
      ((Cert.KernelIdeal.Boundary.W2_arg12 m ρ c).trans a12.symm) ((Cert.KernelIdeal.Boundary.W2_arg13 m ρ c).trans a13.symm)
      ((Cert.KernelIdeal.Boundary.W2_arg16 m ρ c).trans a16.symm) ((Cert.KernelIdeal.Boundary.W2_arg17 m ρ c).trans a17.symm)
  rw [Cert.KernelIdeal.Boundary.W6_v78 m ρ c, Cert.Bridge.Region1Array.final (V5 m ρ) c, e1, e14, e15, e10, e11, e42, e47, e77]

end Cert.Bridge.KernelValues

end
-- ==== Proof.RefRead.lean ====
/-
  What the reference's run leaves in the buffers the certificate reads.
  • No operation of @main writes an argument: each argument buffer ends as it was launched.
  • The first result is the row mean `out0` of the accumulated sums and the counts.
  • The second result is the attention stage `tail` of the user rows, the aggregated rows, the two latent tables
    and the four small weight arrays.
  • The frame claim of the reference: it runs, and its arguments end unchanged.
-/
import proofs.«123379_j13546326851764_2_alg».proof.Defs
import proofs.«123379_j13546326851764_2_alg».proof.Proof.Gen.Pre_finite_inputs
import proofs.«123379_j13546326851764_2_alg».proof.Proof.RefRun
import proofs.«123379_j13546326851764_2_alg».proof.Proof.RefTail

noncomputable section

namespace Cert.ReferenceIdeal.RefRead

open Cert.ReferenceIdeal Cert.ReferenceIdeal.Facts₀ Cert.ReferenceIdeal.RefRun Idealize.ShloMosaic Idealize.ShloMosaic.TcCoe Idealize.SL.Sem Idealize.ShloMosaic.StableHlo

variable {F : FTy → Type} [FloatOps F]

/-- The buffers @main's operations write, in program order: each operation writes the one at its own position. -/
abbrev written : List (Ref sig .tc) :=
  [ main_v0, main_v1, main_v2, main_v3, main_c, main_v4, main_v5, main_c_0,
    main_v6, main_v7, main_v8, main_v9, main_v10, main_c_1, main_v11, main_v12,
    main_c_2, main_v13, main_v14, main_c_3, main_v15, main_v16, main_v17, main_v18,
    main_v19, main_v20, main_cst, main_v21, main_v22, main_v23, main_cst_4, main_v24,
    main_cst_5, main_v25, main_v26, main_v27, main_cst_6, main_v28, main_v29, main_v30,
    main_v31, main_v32, main_v33, main_c_7, main_v34, main_v35, main_c_8, main_v36,
    main_v37, main_v38, main_v39, main_v40, main_v41, main_v42, main_cst_9, main_v43,
    main_v44, main_v45, main_v46, main_v47, main_v48, main_v49, main_v50, main_v51,
    main_v52, main_v53, main_v54, main_v55, main_v56, main_v57, main_v58, main_v59,
    main_v60, main_v61, main_v62, main_cst_10, main_call0_cst, main_call0_v0, main_call0_v1, main_call0_v2,
    main_call0_v3, main_call0_v4, main_v63, main_cst_11, main_v64, main_cst_12, main_v65, main_v66,
    main_v67, main_v68, main_v69, main_v70, main_cst_13, main_v71, main_v72, main_v73,
    main_v74, main_v75, main_v76, main_v77, main_v78, main_v79, main_v80, main_v81,
    main_v82, main_v83, main_v84, main_v85, main_v86, main_v87, main_v88, main_v89,
    main_v90, main_v91, main_cst_14, main_call1_cst, main_call1_v0, main_call1_v1, main_call1_v2, main_call1_v3,
    main_call1_v4, main_v92, main_cst_15, main_v93, main_cst_16, main_v94, main_v95, main_v96,
    main_v97, main_v98, main_v99, main_cst_17, main_v100, main_v101, main_v102, main_v103,
    main_v104, main_v105, main_v106, main_v107 ]

theorem writes_sub {op : HloOp τ sig (Elt F)} (y : Ref sig .tc) (j : Nat) (hw : op.writes = {Proc.devRef .tc y})
    (hy : written[j]? = some y) : op.writes ⊆ (written.map (Proc.devRef (τ := τ) .tc)).toFinset := by
  rw [hw, Finset.singleton_subset_iff, List.mem_toFinset]
  exact List.mem_map_of_mem (List.mem_of_getElem? hy)

set_option maxRecDepth 8192 in
/-- Every operation of @main writes a buffer of that list. -/
theorem ops_writes : (ops : List (HloOp τ sig (Elt F))).Forall fun op => op.writes ⊆ (written.map (Proc.devRef (τ := τ) .tc)).toFinset :=
  ⟨writes_sub main_v0 0 rfl rfl, writes_sub main_v1 1 rfl rfl, writes_sub main_v2 2 rfl rfl, writes_sub main_v3 3 rfl rfl,
    writes_sub main_c 4 rfl rfl, writes_sub main_v4 5 rfl rfl, writes_sub main_v5 6 rfl rfl, writes_sub main_c_0 7 rfl rfl,
    writes_sub main_v6 8 rfl rfl, writes_sub main_v7 9 rfl rfl, writes_sub main_v8 10 rfl rfl, writes_sub main_v9 11 rfl rfl,
    writes_sub main_v10 12 rfl rfl, writes_sub main_c_1 13 rfl rfl, writes_sub main_v11 14 rfl rfl, writes_sub main_v12 15 rfl rfl,
    writes_sub main_c_2 16 rfl rfl, writes_sub main_v13 17 rfl rfl, writes_sub main_v14 18 rfl rfl, writes_sub main_c_3 19 rfl rfl,
    writes_sub main_v15 20 rfl rfl, writes_sub main_v16 21 rfl rfl, writes_sub main_v17 22 rfl rfl, writes_sub main_v18 23 rfl rfl,
    writes_sub main_v19 24 rfl rfl, writes_sub main_v20 25 rfl rfl, writes_sub main_cst 26 rfl rfl, writes_sub main_v21 27 rfl rfl,
    writes_sub main_v22 28 rfl rfl, writes_sub main_v23 29 rfl rfl, writes_sub main_cst_4 30 rfl rfl, writes_sub main_v24 31 rfl rfl,
    writes_sub main_cst_5 32 rfl rfl, writes_sub main_v25 33 rfl rfl, writes_sub main_v26 34 rfl rfl, writes_sub main_v27 35 rfl rfl,
    writes_sub main_cst_6 36 rfl rfl, writes_sub main_v28 37 rfl rfl, writes_sub main_v29 38 rfl rfl, writes_sub main_v30 39 rfl rfl,
    writes_sub main_v31 40 rfl rfl, writes_sub main_v32 41 rfl rfl, writes_sub main_v33 42 rfl rfl, writes_sub main_c_7 43 rfl rfl,
    writes_sub main_v34 44 rfl rfl, writes_sub main_v35 45 rfl rfl, writes_sub main_c_8 46 rfl rfl, writes_sub main_v36 47 rfl rfl,
    writes_sub main_v37 48 rfl rfl, writes_sub main_v38 49 rfl rfl, writes_sub main_v39 50 rfl rfl, writes_sub main_v40 51 rfl rfl,
    writes_sub main_v41 52 rfl rfl, writes_sub main_v42 53 rfl rfl, writes_sub main_cst_9 54 rfl rfl, writes_sub main_v43 55 rfl rfl,
    writes_sub main_v44 56 rfl rfl, writes_sub main_v45 57 rfl rfl, writes_sub main_v46 58 rfl rfl, writes_sub main_v47 59 rfl rfl,
    writes_sub main_v48 60 rfl rfl, writes_sub main_v49 61 rfl rfl, writes_sub main_v50 62 rfl rfl, writes_sub main_v51 63 rfl rfl,
    writes_sub main_v52 64 rfl rfl, writes_sub main_v53 65 rfl rfl, writes_sub main_v54 66 rfl rfl, writes_sub main_v55 67 rfl rfl,
    writes_sub main_v56 68 rfl rfl, writes_sub main_v57 69 rfl rfl, writes_sub main_v58 70 rfl rfl, writes_sub main_v59 71 rfl rfl,
    writes_sub main_v60 72 rfl rfl, writes_sub main_v61 73 rfl rfl, writes_sub main_v62 74 rfl rfl, writes_sub main_cst_10 75 rfl rfl,
    writes_sub main_call0_cst 76 rfl rfl, writes_sub main_call0_v0 77 rfl rfl, writes_sub main_call0_v1 78 rfl rfl, writes_sub main_call0_v2 79 rfl rfl,
    writes_sub main_call0_v3 80 rfl rfl, writes_sub main_call0_v4 81 rfl rfl, writes_sub main_v63 82 rfl rfl, writes_sub main_cst_11 83 rfl rfl,
    writes_sub main_v64 84 rfl rfl, writes_sub main_cst_12 85 rfl rfl, writes_sub main_v65 86 rfl rfl, writes_sub main_v66 87 rfl rfl,
    writes_sub main_v67 88 rfl rfl, writes_sub main_v68 89 rfl rfl, writes_sub main_v69 90 rfl rfl, writes_sub main_v70 91 rfl rfl,
    writes_sub main_cst_13 92 rfl rfl, writes_sub main_v71 93 rfl rfl, writes_sub main_v72 94 rfl rfl, writes_sub main_v73 95 rfl rfl,
    writes_sub main_v74 96 rfl rfl, writes_sub main_v75 97 rfl rfl, writes_sub main_v76 98 rfl rfl, writes_sub main_v77 99 rfl rfl,
    writes_sub main_v78 100 rfl rfl, writes_sub main_v79 101 rfl rfl, writes_sub main_v80 102 rfl rfl, writes_sub main_v81 103 rfl rfl,
    writes_sub main_v82 104 rfl rfl, writes_sub main_v83 105 rfl rfl, writes_sub main_v84 106 rfl rfl, writes_sub main_v85 107 rfl rfl,
    writes_sub main_v86 108 rfl rfl, writes_sub main_v87 109 rfl rfl, writes_sub main_v88 110 rfl rfl, writes_sub main_v89 111 rfl rfl,
    writes_sub main_v90 112 rfl rfl, writes_sub main_v91 113 rfl rfl, writes_sub main_cst_14 114 rfl rfl, writes_sub main_call1_cst 115 rfl rfl,
    writes_sub main_call1_v0 116 rfl rfl, writes_sub main_call1_v1 117 rfl rfl, writes_sub main_call1_v2 118 rfl rfl, writes_sub main_call1_v3 119 rfl rfl,
    writes_sub main_call1_v4 120 rfl rfl, writes_sub main_v92 121 rfl rfl, writes_sub main_cst_15 122 rfl rfl, writes_sub main_v93 123 rfl rfl,
    writes_sub main_cst_16 124 rfl rfl, writes_sub main_v94 125 rfl rfl, writes_sub main_v95 126 rfl rfl, writes_sub main_v96 127 rfl rfl,
    writes_sub main_v97 128 rfl rfl, writes_sub main_v98 129 rfl rfl, writes_sub main_v99 130 rfl rfl, writes_sub main_cst_17 131 rfl rfl,
    writes_sub main_v100 132 rfl rfl, writes_sub main_v101 133 rfl rfl, writes_sub main_v102 134 rfl rfl, writes_sub main_v103 135 rfl rfl,
    writes_sub main_v104 136 rfl rfl, writes_sub main_v105 137 rfl rfl, writes_sub main_v106 138 rfl rfl, writes_sub main_v107 139 rfl rfl⟩

/-- No operation writes argument 0. -/
theorem kept_arg0 (V : Valuation τ sig (Elt F)) : after ops V (main_arg0 : DevRef τ sig) = V (main_arg0 : DevRef τ sig) :=
  after_of_writes_sub ops V ops_writes (by decide)
/-- No operation writes argument 1. -/
theorem kept_arg1 (V : Valuation τ sig (Elt F)) : after ops V (main_arg1 : DevRef τ sig) = V (main_arg1 : DevRef τ sig) :=
  after_of_writes_sub ops V ops_writes (by decide)
/-- No operation writes argument 2. -/
theorem kept_arg2 (V : Valuation τ sig (Elt F)) : after ops V (main_arg2 : DevRef τ sig) = V (main_arg2 : DevRef τ sig) :=
  after_of_writes_sub ops V ops_writes (by decide)
/-- No operation writes argument 3. -/
theorem kept_arg3 (V : Valuation τ sig (Elt F)) : after ops V (main_arg3 : DevRef τ sig) = V (main_arg3 : DevRef τ sig) :=
  after_of_writes_sub ops V ops_writes (by decide)
/-- No operation writes argument 4. -/
theorem kept_arg4 (V : Valuation τ sig (Elt F)) : after ops V (main_arg4 : DevRef τ sig) = V (main_arg4 : DevRef τ sig) :=
  after_of_writes_sub ops V ops_writes (by decide)
/-- No operation writes argument 5. -/
theorem kept_arg5 (V : Valuation τ sig (Elt F)) : after ops V (main_arg5 : DevRef τ sig) = V (main_arg5 : DevRef τ sig) :=
  after_of_writes_sub ops V ops_writes (by decide)
/-- No operation writes argument 6. -/
theorem kept_arg6 (V : Valuation τ sig (Elt F)) : after ops V (main_arg6 : DevRef τ sig) = V (main_arg6 : DevRef τ sig) :=
  after_of_writes_sub ops V ops_writes (by decide)
/-- No operation writes argument 7. -/
theorem kept_arg7 (V : Valuation τ sig (Elt F)) : after ops V (main_arg7 : DevRef τ sig) = V (main_arg7 : DevRef τ sig) :=
  after_of_writes_sub ops V ops_writes (by decide)
/-- No operation writes argument 8. -/
theorem kept_arg8 (V : Valuation τ sig (Elt F)) : after ops V (main_arg8 : DevRef τ sig) = V (main_arg8 : DevRef τ sig) :=
  after_of_writes_sub ops V ops_writes (by decide)
/-- No operation writes argument 9. -/
theorem kept_arg9 (V : Valuation τ sig (Elt F)) : after ops V (main_arg9 : DevRef τ sig) = V (main_arg9 : DevRef τ sig) :=
  after_of_writes_sub ops V ops_writes (by decide)
/-- No operation writes argument 10. -/
theorem kept_arg10 (V : Valuation τ sig (Elt F)) : after ops V (main_arg10 : DevRef τ sig) = V (main_arg10 : DevRef τ sig) :=
  after_of_writes_sub ops V ops_writes (by decide)
/-- No operation writes argument 11. -/
theorem kept_arg11 (V : Valuation τ sig (Elt F)) : after ops V (main_arg11 : DevRef τ sig) = V (main_arg11 : DevRef τ sig) :=
  after_of_writes_sub ops V ops_writes (by decide)
/-- No operation writes argument 12. -/
theorem kept_arg12 (V : Valuation τ sig (Elt F)) : after ops V (main_arg12 : DevRef τ sig) = V (main_arg12 : DevRef τ sig) :=
  after_of_writes_sub ops V ops_writes (by decide)
/-- No operation writes argument 13. -/
theorem kept_arg13 (V : Valuation τ sig (Elt F)) : after ops V (main_arg13 : DevRef τ sig) = V (main_arg13 : DevRef τ sig) :=
  after_of_writes_sub ops V ops_writes (by decide)
/-- No operation writes argument 14. -/
theorem kept_arg14 (V : Valuation τ sig (Elt F)) : after ops V (main_arg14 : DevRef τ sig) = V (main_arg14 : DevRef τ sig) :=
  after_of_writes_sub ops V ops_writes (by decide)
/-- No operation writes argument 15. -/
theorem kept_arg15 (V : Valuation τ sig (Elt F)) : after ops V (main_arg15 : DevRef τ sig) = V (main_arg15 : DevRef τ sig) :=
  after_of_writes_sub ops V ops_writes (by decide)
/-- No operation writes argument 16. -/
theorem kept_arg16 (V : Valuation τ sig (Elt F)) : after ops V (main_arg16 : DevRef τ sig) = V (main_arg16 : DevRef τ sig) :=
  after_of_writes_sub ops V ops_writes (by decide)
/-- No operation writes argument 17. -/
theorem kept_arg17 (V : Valuation τ sig (Elt F)) : after ops V (main_arg17 : DevRef τ sig) = V (main_arg17 : DevRef τ sig) :=
  after_of_writes_sub ops V ops_writes (by decide)

set_option maxRecDepth 8192 in
/-- The first result: the accumulated sums divided row by row by the larger of the count and one. -/
theorem v32_eq (V : Valuation τ sig (Elt F)) :
    after ops V (main_v32 : DevRef τ sig)
      = Cert.Bridge.out0 (after ops V (main_v23 : DevRef τ sig)) (after ops V (main_v27 : DevRef τ sig)) := by
  after_results_simp
  rfl

set_option maxRecDepth 8192 in
set_option maxHeartbeats 4000000 in
/-- The second result: the attention stage over the user rows, of the buffers it starts from. -/
theorem v107_eq (V : Valuation τ sig (Elt F)) :
    after ops V (main_v107 : DevRef τ sig)
      = Cert.Bridge.tail (V (main_arg1 : DevRef τ sig)) (after ops V (main_v45 : DevRef τ sig)) (after ops V (main_v55 : DevRef τ sig))
          (after ops V (main_v104 : DevRef τ sig)) (V (main_arg14 : DevRef τ sig)) (V (main_arg15 : DevRef τ sig))
          (V (main_arg10 : DevRef τ sig)) (V (main_arg11 : DevRef τ sig)) := by
  after_results_simp
  rfl

/-- The reference runs and its arguments end unchanged. -/
theorem frame_ri : Cert.frame_ReferenceIdeal (hReferenceIdeal := Cert.ReferenceIdeal.Gen.facts)
    (hPre_finite_inputs := Cert.Pre_finite_inputs.Gen.facts) := fun m ρ _ =>
  (θ_run (Cert.ReferenceIdeal.defs (F := Ideal)) _ _).mono (fun _ h c =>
    ⟨(h c main_arg0).trans (kept_arg0 _),
     (h c main_arg1).trans (kept_arg1 _),
     (h c main_arg2).trans (kept_arg2 _),
     (h c main_arg3).trans (kept_arg3 _),
     (h c main_arg4).trans (kept_arg4 _),
     (h c main_arg5).trans (kept_arg5 _),
     (h c main_arg6).trans (kept_arg6 _),
     (h c main_arg7).trans (kept_arg7 _),
     (h c main_arg8).trans (kept_arg8 _),
     (h c main_arg9).trans (kept_arg9 _),
     (h c main_arg10).trans (kept_arg10 _),
     (h c main_arg11).trans (kept_arg11 _),
     (h c main_arg12).trans (kept_arg12 _),
     (h c main_arg13).trans (kept_arg13 _),
     (h c main_arg14).trans (kept_arg14 _),
     (h c main_arg15).trans (kept_arg15 _),
     (h c main_arg16).trans (kept_arg16 _),
     (h c main_arg17).trans (kept_arg17 _)⟩)
    (run_fold (F := Ideal) m ρ)

end Cert.ReferenceIdeal.RefRead

end
-- ==== Proof.lean ====
/-
  The certificate's five claims.

  The kernel program computes, with two tiled TensorCore regions among its host operations, what the reference computes
  with host operations alone: the mean of the relation-weighted neighbour rows per entity, the attention-weighted
  combination of the aggregated user rows, and the new latent table.

  * Frames.  The kernel program's two frames are the launch over its six segments (host stretch, row-mean region, three
    host stretches, attention region).  The reference is one straight line of host operations, its two calls of the
    leaky rectifier written out at their call sites; no operation writes an argument.
  * The idealization rewrote nothing, so it preserves the program as it stands.
  * Equality of the results on the extended reals, from memories that agree on the arguments.  No algebraic law is used
    and the arguments' finiteness is never needed: both programs apply the same operations in the same order.
      – The host stretches that both programs share (gathers, products, the additions into rows named by an index
        column, the small dense tables) are the same functions of the arguments.
      – The row-mean region stores, at every grid point, a block of 5000 rows of sums / max(count, 1); the twenty blocks
        tile the array, which is therefore the reference's quotient.
      – The attention region stores, at every grid point, the attention stage of a block of 5000 user rows.  Every stage —
        product with a small table, bias, leaky rectifier, row softmax, the final combination — makes row r of its result
        from row r of its operand, so the block is the block of the reference's stage of all 50000 rows; the ten
        blocks tile the array.
      – The new latent table is a host value on both sides.
-/
import proofs.«123379_j13546326851764_2_alg».proof.Defs
import proofs.«123379_j13546326851764_2_alg».proof.Proof.Gen.Kernel
import proofs.«123379_j13546326851764_2_alg».proof.Proof.Gen.Kernel.Frame
import proofs.«123379_j13546326851764_2_alg».proof.Proof.Gen.KernelIdeal
import proofs.«123379_j13546326851764_2_alg».proof.Proof.Gen.KernelIdeal.Frame
import proofs.«123379_j13546326851764_2_alg».proof.Proof.Gen.ReferenceIdeal
import proofs.«123379_j13546326851764_2_alg».proof.Proof.Gen.Pre_finite_inputs
import proofs.«123379_j13546326851764_2_alg».proof.Proof.KernelRun
import proofs.«123379_j13546326851764_2_alg».proof.Proof.KernelValues
import proofs.«123379_j13546326851764_2_alg».proof.Proof.RefRead
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

theorem preserves : Cert.preserves_Kernel_KernelIdeal := trivial

/-- Both idealized programs, run from memories that agree on the arguments, end with the reference's three arrays: the
    row means of the shared sums and counts, the attention stage of the shared aggregated rows and small tables, and
    the shared new latent table. -/
theorem algebraic : Cert.algebraic_KernelIdeal_ReferenceIdeal := by
  intro m ρ m' ρ' _ hagree
  refine ⟨fun c => Cert.Bridge.out0 (F := Ideal)
        (after Cert.ReferenceIdeal.RefRun.ops (launchContents m' c) (Proc.devRef .tc Cert.ReferenceIdeal.main_v23))
        (after Cert.ReferenceIdeal.RefRun.ops (launchContents m' c) (Proc.devRef .tc Cert.ReferenceIdeal.main_v27)),
      fun c => Cert.Bridge.tail (F := Ideal) (launchContents m' c (Proc.devRef .tc Cert.ReferenceIdeal.main_arg1))
        (after Cert.ReferenceIdeal.RefRun.ops (launchContents m' c) (Proc.devRef .tc Cert.ReferenceIdeal.main_v45))
        (after Cert.ReferenceIdeal.RefRun.ops (launchContents m' c) (Proc.devRef .tc Cert.ReferenceIdeal.main_v55))
        (after Cert.ReferenceIdeal.RefRun.ops (launchContents m' c) (Proc.devRef .tc Cert.ReferenceIdeal.main_v104))
        (launchContents m' c (Proc.devRef .tc Cert.ReferenceIdeal.main_arg14)) (launchContents m' c (Proc.devRef .tc Cert.ReferenceIdeal.main_arg15))
        (launchContents m' c (Proc.devRef .tc Cert.ReferenceIdeal.main_arg10)) (launchContents m' c (Proc.devRef .tc Cert.ReferenceIdeal.main_arg11)),
      fun c => after Cert.ReferenceIdeal.RefRun.ops (launchContents m' c) (Proc.devRef .tc Cert.ReferenceIdeal.main_v104), ?_, ?_⟩
  · refine (θ_run Cert.KernelIdeal.defs _ _).mono (fun r h c => ?_) (Cert.KernelIdeal.RunValues.run_all m ρ)
    obtain ⟨a0, a1, a2, a3, a4, a5, a6, a7, a8, a9, a10, a11, a12, a13, a14, a15, a16, a17⟩ := hagree c
    exact ⟨(h c Cert.KernelIdeal.main_v29 (by decide)).trans (Cert.Bridge.KernelValues.v29 m ρ (launchContents m' c) c a0 a3 a4 a8),
      (h c Cert.KernelIdeal.main_v78 (by decide)).trans
        (Cert.Bridge.KernelValues.v78 m ρ (launchContents m' c) c a0 a1 a2 a5 a6 a7 a8 a10 a11 a12 a13 a14 a15 a16 a17),
      (h c Cert.KernelIdeal.main_v77 (by decide)).trans (Cert.Bridge.KernelValues.v77 m ρ (launchContents m' c) c a2 a8 a12 a13 a16 a17),
      (h c Cert.KernelIdeal.main_arg0 (by decide)).trans (Cert.KernelIdeal.Gen.W6_main_arg0 m ρ c),
      (h c Cert.KernelIdeal.main_arg1 (by decide)).trans (Cert.KernelIdeal.Gen.W6_main_arg1 m ρ c),
      (h c Cert.KernelIdeal.main_arg2 (by decide)).trans (Cert.KernelIdeal.Gen.W6_main_arg2 m ρ c),
      (h c Cert.KernelIdeal.main_arg3 (by decide)).trans (Cert.KernelIdeal.Gen.W6_main_arg3 m ρ c),
      (h c Cert.KernelIdeal.main_arg4 (by decide)).trans (Cert.KernelIdeal.Gen.W6_main_arg4 m ρ c),
      (h c Cert.KernelIdeal.main_arg5 (by decide)).trans (Cert.KernelIdeal.Gen.W6_main_arg5 m ρ c),
      (h c Cert.KernelIdeal.main_arg6 (by decide)).trans (Cert.KernelIdeal.Gen.W6_main_arg6 m ρ c),
      (h c Cert.KernelIdeal.main_arg7 (by decide)).trans (Cert.KernelIdeal.Gen.W6_main_arg7 m ρ c),
      (h c Cert.KernelIdeal.main_arg8 (by decide)).trans (Cert.KernelIdeal.Gen.W6_main_arg8 m ρ c),
      (h c Cert.KernelIdeal.main_arg9 (by decide)).trans (Cert.KernelIdeal.Gen.W6_main_arg9 m ρ c),
      (h c Cert.KernelIdeal.main_arg10 (by decide)).trans (Cert.KernelIdeal.Gen.W6_main_arg10 m ρ c),
      (h c Cert.KernelIdeal.main_arg11 (by decide)).trans (Cert.KernelIdeal.Gen.W6_main_arg11 m ρ c),
      (h c Cert.KernelIdeal.main_arg12 (by decide)).trans (Cert.KernelIdeal.Gen.W6_main_arg12 m ρ c),
      (h c Cert.KernelIdeal.main_arg13 (by decide)).trans (Cert.KernelIdeal.Gen.W6_main_arg13 m ρ c),
      (h c Cert.KernelIdeal.main_arg14 (by decide)).trans (Cert.KernelIdeal.Gen.W6_main_arg14 m ρ c),
      (h c Cert.KernelIdeal.main_arg15 (by decide)).trans (Cert.KernelIdeal.Gen.W6_main_arg15 m ρ c),
      (h c Cert.KernelIdeal.main_arg16 (by decide)).trans (Cert.KernelIdeal.Gen.W6_main_arg16 m ρ c),
      (h c Cert.KernelIdeal.main_arg17 (by decide)).trans (Cert.KernelIdeal.Gen.W6_main_arg17 m ρ c)⟩
  · refine (θ_run Cert.ReferenceIdeal.defs _ _).mono (fun r h c => ?_) (Cert.ReferenceIdeal.RefRun.run_fold m' ρ')
    exact ⟨(h c Cert.ReferenceIdeal.main_v32).trans (Cert.ReferenceIdeal.RefRead.v32_eq _),
      (h c Cert.ReferenceIdeal.main_v107).trans (Cert.ReferenceIdeal.RefRead.v107_eq _),
      h c Cert.ReferenceIdeal.main_v104,
      (h c Cert.ReferenceIdeal.main_arg0).trans (Cert.ReferenceIdeal.RefRead.kept_arg0 _),
      (h c Cert.ReferenceIdeal.main_arg1).trans (Cert.ReferenceIdeal.RefRead.kept_arg1 _),
      (h c Cert.ReferenceIdeal.main_arg2).trans (Cert.ReferenceIdeal.RefRead.kept_arg2 _),
      (h c Cert.ReferenceIdeal.main_arg3).trans (Cert.ReferenceIdeal.RefRead.kept_arg3 _),
      (h c Cert.ReferenceIdeal.main_arg4).trans (Cert.ReferenceIdeal.RefRead.kept_arg4 _),
      (h c Cert.ReferenceIdeal.main_arg5).trans (Cert.ReferenceIdeal.RefRead.kept_arg5 _),
      (h c Cert.ReferenceIdeal.main_arg6).trans (Cert.ReferenceIdeal.RefRead.kept_arg6 _),
      (h c Cert.ReferenceIdeal.main_arg7).trans (Cert.ReferenceIdeal.RefRead.kept_arg7 _),
      (h c Cert.ReferenceIdeal.main_arg8).trans (Cert.ReferenceIdeal.RefRead.kept_arg8 _),
      (h c Cert.ReferenceIdeal.main_arg9).trans (Cert.ReferenceIdeal.RefRead.kept_arg9 _),
      (h c Cert.ReferenceIdeal.main_arg10).trans (Cert.ReferenceIdeal.RefRead.kept_arg10 _),
      (h c Cert.ReferenceIdeal.main_arg11).trans (Cert.ReferenceIdeal.RefRead.kept_arg11 _),
      (h c Cert.ReferenceIdeal.main_arg12).trans (Cert.ReferenceIdeal.RefRead.kept_arg12 _),
      (h c Cert.ReferenceIdeal.main_arg13).trans (Cert.ReferenceIdeal.RefRead.kept_arg13 _),
      (h c Cert.ReferenceIdeal.main_arg14).trans (Cert.ReferenceIdeal.RefRead.kept_arg14 _),
      (h c Cert.ReferenceIdeal.main_arg15).trans (Cert.ReferenceIdeal.RefRead.kept_arg15 _),
      (h c Cert.ReferenceIdeal.main_arg16).trans (Cert.ReferenceIdeal.RefRead.kept_arg16 _),
      (h c Cert.ReferenceIdeal.main_arg17).trans (Cert.ReferenceIdeal.RefRead.kept_arg17 _)⟩

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefRead.frame_ri, preserves, algebraic⟩

end Cert.Proof

end
